-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S4000000 : Shape := ⟨1, ![4000000]⟩
abbrev S1000000 : Shape := ⟨1, ![1000000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg21 : FVec F S1 .f32) (main_v83 : IVec S_ 1) (main_v84 : FVec F S32x1 .f32) (main_cst_32 : FVec F S_ .f32) : IVec S_ 1 :=
  let main_v85 : FVec F S32x1 .f32 := broadcastInDim S32x1 ![] bcast_S_S32x1 main_cst_32
  let main_v86 : IVec S32x1 1 := cmpf .olt main_v84 main_v85
  let main_c_33 : IVec S_ 1 := constantI S_ 1 1#1
  let main_v87 : IVec S_ 1 := (fun x v => Host.reduce IntOp.andi x v reducesTo_S32x1_S_d0_1 h_S_) main_v86 main_c_33
  let main_v88 : IVec S_ 1 := andi main_v83 main_v87
  let main_v89 : FVec F S1 .f32 := Host.absf main_arg21
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg17 : FVec F S32 .f32) (main_arg18 : FVec F S32 .f32) (main_arg19 : FVec F S32 .f32) (main_arg20 : FVec F S32x1 .f32) (main_arg21 : FVec F S1 .f32) (main_v63 : IVec S_ 1) (main_v67 : IVec S_ 1) : IVec S_ 1 :=
  let main_v68 : IVec S_ 1 := andi main_v63 main_v67
  let main_v69 : FVec F S32 .f32 := Host.absf main_arg17
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg18
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32 .f32 := Host.absf main_arg19
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x1 .f32 := Host.absf main_arg20
  let main_cst_32 : FVec F S_ .f32 := constant S_ .f32 0x7F800000#32
  fn_part5 (F := F) main_arg21 main_v83 main_v84 main_cst_32

def fn_part3 {F : FTy → Type} [FloatOps F] (main_arg14 : FVec F S32x32 .f32) (main_arg15 : FVec F S32 .f32) (main_arg16 : FVec F S32x32 .f32) (main_arg17 : FVec F S32 .f32) (main_arg18 : FVec F S32 .f32) (main_arg19 : FVec F S32 .f32) (main_arg20 : FVec F S32x1 .f32) (main_arg21 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg14
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg15
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg16
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg17 main_arg18 main_arg19 main_arg20 main_arg21 main_v63 main_v67

def fn_part2 {F : FTy → Type} [FloatOps F] (main_arg10 : FVec F S32x32 .f32) (main_arg11 : FVec F S32 .f32) (main_arg12 : FVec F S32 .f32) (main_arg13 : FVec F S32 .f32) (main_arg14 : FVec F S32x32 .f32) (main_arg15 : FVec F S32 .f32) (main_arg16 : FVec F S32x32 .f32) (main_arg17 : FVec F S32 .f32) (main_arg18 : FVec F S32 .f32) (main_arg19 : FVec F S32 .f32) (main_arg20 : FVec F S32x1 .f32) (main_arg21 : FVec F S1 .f32) (main_v33 : IVec S_ 1) : IVec S_ 1 :=
  let main_v34 : FVec F S32x32 .f32 := Host.absf main_arg10
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg11
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg12
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg13
  let main_cst_18 : FVec F S_ .f32 := constant S_ .f32 0x7F800000#32
  let main_v50 : FVec F S32 .f32 := broadcastInDim S32 ![] bcast_S_S32 main_cst_18
  fn_part3 (F := F) main_arg14 main_arg15 main_arg16 main_arg17 main_arg18 main_arg19 main_arg20 main_arg21 main_v48 main_v49 main_v50

def fn_part1 {F : FTy → Type} [FloatOps F] (main_arg7 : FVec F S32 .f32) (main_arg8 : FVec F S32x32 .f32) (main_arg9 : FVec F S32 .f32) (main_arg10 : FVec F S32x32 .f32) (main_arg11 : FVec F S32 .f32) (main_arg12 : FVec F S32 .f32) (main_arg13 : FVec F S32 .f32) (main_arg14 : FVec F S32x32 .f32) (main_arg15 : FVec F S32 .f32) (main_arg16 : FVec F S32x32 .f32) (main_arg17 : FVec F S32 .f32) (main_arg18 : FVec F S32 .f32) (main_arg19 : FVec F S32 .f32) (main_arg20 : FVec F S32x1 .f32) (main_arg21 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg8
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg9
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_v33

def fn {F : FTy → Type} [FloatOps F] (main_arg0 : FVec F S1000000x64 .f32) (main_arg1 : IVec S4000000 32) (main_arg2 : IVec S4000000 32) (main_arg3 : IVec S1000000 32) (main_arg4 : FVec F S64x32 .f32) (main_arg5 : FVec F S32 .f32) (main_arg6 : FVec F S32 .f32) (main_arg7 : FVec F S32 .f32) (main_arg8 : FVec F S32x32 .f32) (main_arg9 : FVec F S32 .f32) (main_arg10 : FVec F S32x32 .f32) (main_arg11 : FVec F S32 .f32) (main_arg12 : FVec F S32 .f32) (main_arg13 : FVec F S32 .f32) (main_arg14 : FVec F S32x32 .f32) (main_arg15 : FVec F S32 .f32) (main_arg16 : FVec F S32x32 .f32) (main_arg17 : FVec F S32 .f32) (main_arg18 : FVec F S32 .f32) (main_arg19 : FVec F S32 .f32) (main_arg20 : FVec F S32x1 .f32) (main_arg21 : FVec F S1 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x32 .f32 := Host.absf main_arg4
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg5
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg6
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_v13 main_v16
-- ==== Kernel.lean ====
abbrev S1000000x64 : Shape := ⟨2, ![1000000, 64]⟩
abbrev S4000000 : Shape := ⟨1, ![4000000]⟩
abbrev S1000000 : Shape := ⟨1, ![1000000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩
abbrev S4000000x1 : Shape := ⟨2, ![4000000, 1]⟩
abbrev S1000000x1 : Shape := ⟨2, ![1000000, 1]⟩
abbrev S1x32 : Shape := ⟨2, ![1, 32]⟩
abbrev S1000000x32 : Shape := ⟨2, ![1000000, 32]⟩
abbrev S20000x64 : Shape := ⟨2, ![20000, 64]⟩
abbrev S20000x32 : Shape := ⟨2, ![20000, 32]⟩
abbrev S20000 : Shape := ⟨1, ![20000]⟩
abbrev S20000x1 : Shape := ⟨2, ![20000, 1]⟩
abbrev S4000000x32 : Shape := ⟨2, ![4000000, 32]⟩
abbrev S1x1 : Shape := ⟨2, ![1, 1]⟩
abbrev S1024x1 : Shape := ⟨2, ![1024, 1]⟩

abbrev nBuf : Space → Nat
  | .hbm => 111
  | .vmem => 30
  | .smem => 0
  | _ => 0

abbrev bufTy : (tb : Table) → Fin (tcTables nBuf tb) → BufTy
  | .hbm, ⟨0, _⟩ => ⟨S1000000x64, .f32⟩
  | .hbm, ⟨1, _⟩ => ⟨S4000000, .i32⟩
  | .hbm, ⟨2, _⟩ => ⟨S4000000, .i32⟩
  | .hbm, ⟨3, _⟩ => ⟨S1000000, .i32⟩
  | .hbm, ⟨4, _⟩ => ⟨S64x32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S32x32, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S32x1, .f32⟩
  | .hbm, ⟨21, _⟩ => ⟨S1, .f32⟩
  | .hbm, ⟨22, _⟩ => ⟨S_, .f32⟩
  | .hbm, ⟨23, _⟩ => ⟨S4000000, .f32⟩
  | .hbm, ⟨24, _⟩ => ⟨S_, .f32⟩
  | .hbm, ⟨25, _⟩ => ⟨S4000000, .f32⟩
  | .hbm, ⟨26, _⟩ => ⟨S_, .f32⟩
  | .hbm, ⟨27, _⟩ => ⟨S1000000, .f32⟩
  | .hbm, ⟨28, _⟩ => ⟨S4000000x1, .i32⟩
  | .hbm, ⟨29, _⟩ => ⟨S1000000, .f32⟩
  | .hbm, ⟨30, _⟩ => ⟨S_, .f32⟩
  | .hbm, ⟨31, _⟩ => ⟨S1000000, .f32⟩
  | .hbm, ⟨32, _⟩ => ⟨S4000000x1, .i32⟩
  | .hbm, ⟨33, _⟩ => ⟨S1000000, .f32⟩
  | .hbm, ⟨34, _⟩ => ⟨S_, .f32⟩
  | .hbm, ⟨35, _⟩ => ⟨S1000000, .f32⟩
  | .hbm, ⟨36, _⟩ => ⟨S1000000, .i1⟩
  | .hbm, ⟨37, _⟩ => ⟨S_, .f32⟩
  | .hbm, ⟨38, _⟩ => ⟨S1000000, .f32⟩
  | .hbm, ⟨39, _⟩ => ⟨S1000000, .f32⟩
  | .hbm, ⟨40, _⟩ => ⟨S1000000, .f32⟩
  | .hbm, ⟨41, _⟩ => ⟨S_, .f32⟩
  | .hbm, ⟨42, _⟩ => ⟨S_, .f32⟩
  | .hbm, ⟨43, _⟩ => ⟨S1000000, .f32⟩
  | .hbm, ⟨44, _⟩ => ⟨S1000000, .f32⟩
  | .hbm, ⟨45, _⟩ => ⟨S1000000x1, .f32⟩
  | .hbm, ⟨46, _⟩ => ⟨S_, .f32⟩
  | .hbm, ⟨47, _⟩ => ⟨S1000000, .f32⟩
  | .hbm, ⟨48, _⟩ => ⟨S1000000, .i1⟩
  | .hbm, ⟨49, _⟩ => ⟨S_, .f32⟩
  | .hbm, ⟨50, _⟩ => ⟨S1000000, .f32⟩
  | .hbm, ⟨51, _⟩ => ⟨S1000000, .f32⟩
  | .hbm, ⟨52, _⟩ => ⟨S1000000, .f32⟩
  | .hbm, ⟨53, _⟩ => ⟨S_, .f32⟩
  | .hbm, ⟨54, _⟩ => ⟨S_, .f32⟩
  | .hbm, ⟨55, _⟩ => ⟨S1000000, .f32⟩
  | .hbm, ⟨56, _⟩ => ⟨S1000000, .f32⟩
  | .hbm, ⟨57, _⟩ => ⟨S1000000x1, .f32⟩
  | .hbm, ⟨58, _⟩ => ⟨S1x32, .f32⟩
  | .hbm, ⟨59, _⟩ => ⟨S1x32, .f32⟩
  | .hbm, ⟨60, _⟩ => ⟨S1x32, .f32⟩
  | .hbm, ⟨61, _⟩ => ⟨S1000000x32, .f32⟩
  | .hbm, ⟨62, _⟩ => ⟨S1000000x32, .f32⟩
  | .hbm, ⟨63, _⟩ => ⟨S1000000x32, .f32⟩
  | .hbm, ⟨64, _⟩ => ⟨S_, .i32⟩
  | .hbm, ⟨65, _⟩ => ⟨S4000000, .i32⟩
  | .hbm, ⟨66, _⟩ => ⟨S4000000, .i1⟩
  | .hbm, ⟨67, _⟩ => ⟨S_, .i32⟩
  | .hbm, ⟨68, _⟩ => ⟨S4000000, .i32⟩
  | .hbm, ⟨69, _⟩ => ⟨S4000000, .i32⟩
  | .hbm, ⟨70, _⟩ => ⟨S4000000, .i32⟩
  | .hbm, ⟨71, _⟩ => ⟨S4000000x1, .i32⟩
  | .hbm, ⟨72, _⟩ => ⟨S4000000x32, .f32⟩
  | .hbm, ⟨73, _⟩ => ⟨S_, .f32⟩
  | .hbm, ⟨74, _⟩ => ⟨S1000000x32, .f32⟩
  | .hbm, ⟨75, _⟩ => ⟨S4000000x1, .i32⟩
  | .hbm, ⟨76, _⟩ => ⟨S1000000x32, .f32⟩
  | .hbm, ⟨77, _⟩ => ⟨S1000000x32, .f32⟩
  | .hbm, ⟨78, _⟩ => ⟨S1000000x32, .f32⟩
  | .hbm, ⟨79, _⟩ => ⟨S1x32, .f32⟩
  | .hbm, ⟨80, _⟩ => ⟨S1x32, .f32⟩
  | .hbm, ⟨81, _⟩ => ⟨S1x32, .f32⟩
  | .hbm, ⟨82, _⟩ => ⟨S1x32, .f32⟩
  | .hbm, ⟨83, _⟩ => ⟨S1000000x32, .f32⟩
  | .hbm, ⟨84, _⟩ => ⟨S1000000x32, .f32⟩
  | .hbm, ⟨85, _⟩ => ⟨S1000000x32, .f32⟩
  | .hbm, ⟨86, _⟩ => ⟨S_, .i32⟩
  | .hbm, ⟨87, _⟩ => ⟨S4000000, .i32⟩
  | .hbm, ⟨88, _⟩ => ⟨S4000000, .i1⟩
  | .hbm, ⟨89, _⟩ => ⟨S_, .i32⟩
  | .hbm, ⟨90, _⟩ => ⟨S4000000, .i32⟩
  | .hbm, ⟨91, _⟩ => ⟨S4000000, .i32⟩
  | .hbm, ⟨92, _⟩ => ⟨S4000000, .i32⟩
  | .hbm, ⟨93, _⟩ => ⟨S4000000x1, .i32⟩
  | .hbm, ⟨94, _⟩ => ⟨S4000000x32, .f32⟩
  | .hbm, ⟨95, _⟩ => ⟨S_, .f32⟩
  | .hbm, ⟨96, _⟩ => ⟨S1000000x32, .f32⟩
  | .hbm, ⟨97, _⟩ => ⟨S4000000x1, .i32⟩
  | .hbm, ⟨98, _⟩ => ⟨S1000000x32, .f32⟩
  | .hbm, ⟨99, _⟩ => ⟨S1000000x32, .f32⟩
  | .hbm, ⟨100, _⟩ => ⟨S1000000x32, .f32⟩
  | .hbm, ⟨101, _⟩ => ⟨S1x32, .f32⟩
  | .hbm, ⟨102, _⟩ => ⟨S1x32, .f32⟩
  | .hbm, ⟨103, _⟩ => ⟨S1x32, .f32⟩
  | .hbm, ⟨104, _⟩ => ⟨S1x32, .f32⟩
  | .hbm, ⟨105, _⟩ => ⟨S1x1, .f32⟩
  | .hbm, ⟨106, _⟩ => ⟨S1000000x1, .f32⟩
  | .hbm, ⟨107, _⟩ => ⟨S_, .f32⟩
  | .hbm, ⟨108, _⟩ => ⟨S1024x1, .f32⟩
  | .hbm, ⟨109, _⟩ => ⟨S1000000x1, .i32⟩
  | .hbm, ⟨110, _⟩ => ⟨S1024x1, .f32⟩
  | .local _ .vmem, ⟨0, _⟩ => ⟨S20000x64, .f32⟩
  | .local _ .vmem, ⟨1, _⟩ => ⟨S20000x64, .f32⟩
  | .local _ .vmem, ⟨2, _⟩ => ⟨S64x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S20000x32, .f32⟩
  | .local _ .vmem, ⟨7, _⟩ => ⟨S20000x32, .f32⟩
  | .local _ .vmem, ⟨8, _⟩ => ⟨S20000x32, .f32⟩
  | .local _ .vmem, ⟨9, _⟩ => ⟨S20000x32, .f32⟩
  | .local _ .vmem, ⟨10, _⟩ => ⟨S32x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S20000x32, .f32⟩
  | .local _ .vmem, ⟨17, _⟩ => ⟨S20000x32, .f32⟩
  | .local _ .vmem, ⟨18, _⟩ => ⟨S20000x32, .f32⟩
  | .local _ .vmem, ⟨19, _⟩ => ⟨S20000x32, .f32⟩
  | .local _ .vmem, ⟨20, _⟩ => ⟨S32x32, .f32⟩
  | .local _ .vmem, ⟨21, _⟩ => ⟨S1x32, .f32⟩
  | .local _ .vmem, ⟨22, _⟩ => ⟨S32x32, .f32⟩
  | .local _ .vmem, ⟨23, _⟩ => ⟨S1x32, .f32⟩
  | .local _ .vmem, ⟨24, _⟩ => ⟨S1x32, .f32⟩
  | .local _ .vmem, ⟨25, _⟩ => ⟨S1x32, .f32⟩
  | .local _ .vmem, ⟨26, _⟩ => ⟨S32x1, .f32⟩
  | .local _ .vmem, ⟨27, _⟩ => ⟨S1x1, .f32⟩
  | .local _ .vmem, ⟨28, _⟩ => ⟨S20000x1, .f32⟩
  | .local _ .vmem, ⟨29, _⟩ => ⟨S20000x1, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_cst_1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_3 : Ref sig .tc := ⟨.hbm, 34, rfl⟩
abbrev main_v8 : Ref sig .tc := ⟨.hbm, 35, rfl⟩
abbrev main_v9 : Ref sig .tc := ⟨.hbm, 36, rfl⟩
abbrev main_cst_4 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_v13 : Ref sig .tc := ⟨.hbm, 44, rfl⟩
abbrev main_v14 : Ref sig .tc := ⟨.hbm, 45, rfl⟩
abbrev main_cst_6 : Ref sig .tc := ⟨.hbm, 46, rfl⟩
abbrev main_v15 : Ref sig .tc := ⟨.hbm, 47, rfl⟩
abbrev main_v16 : Ref sig .tc := ⟨.hbm, 48, rfl⟩
abbrev main_cst_7 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c : Ref sig .tc := ⟨.hbm, 64, rfl⟩
abbrev main_v28 : Ref sig .tc := ⟨.hbm, 65, rfl⟩
abbrev main_v29 : Ref sig .tc := ⟨.hbm, 66, rfl⟩
abbrev main_c_9 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_10 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_c_11 : Ref sig .tc := ⟨.hbm, 86, rfl⟩
abbrev main_v47 : Ref sig .tc := ⟨.hbm, 87, rfl⟩
abbrev main_v48 : Ref sig .tc := ⟨.hbm, 88, rfl⟩
abbrev main_c_12 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_13 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_14 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S20000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S20000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bcast_S_S4000000 : S_.BroadcastsInDim S4000000 (![] : Fin 0 → Fin S4000000.rank)
  bcast_S_S1000000 : S_.BroadcastsInDim S1000000 (![] : Fin 0 → Fin S1000000.rank)
  bcast_S4000000_S4000000x1_0 : S4000000.BroadcastsInDim S4000000x1 (![0] : Fin 1 → Fin S4000000x1.rank)
  bcast_S1000000_S1000000x1_0 : S1000000.BroadcastsInDim S1000000x1 (![0] : Fin 1 → Fin S1000000x1.rank)
  shapeCasts_S32_S1x32 : S32.ShapeCasts S1x32
  inb_S20000x64_S20000x64_0_0 : ∀ a, (![0, 0] : Fin 2 → Nat) a + S20000x64.size a ≤ S20000x64.size a
  h_S20000x64 : 0 < S20000x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  reduces_S20000x32_S20000 : S20000x32.Reduces [1] S20000
  shapeCasts_S20000_S20000x1 : S20000.ShapeCasts S20000x1
  broadcasts_S20000x1_S20000x32 : S20000x1.Broadcasts S20000x32
  inb_S20000x32_S20000x32_0_0 : ∀ a, (![0, 0] : Fin 2 → Nat) a + S20000x32.size a ≤ S20000x32.size a
  h_S20000x32 : 0 < S20000x32.numel
  bcast_S1000000x1_S1000000x32_0_1 : S1000000x1.BroadcastsInDim S1000000x32 (![0, 1] : Fin 2 → Fin S1000000x32.rank)
  bcast_S_S1000000x32 : S_.BroadcastsInDim S1000000x32 (![] : Fin 0 → Fin S1000000x32.rank)
  shapeCasts_S20000x32_S20000x32 : S20000x32.ShapeCasts S20000x32
  inb_S32x32_S32x32_0_0 : ∀ a, (![0, 0] : Fin 2 → Nat) a + S32x32.size a ≤ S32x32.size a
  h_S32x32 : 0 < S32x32.numel
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  bcast_S_S1024x1 : S_.BroadcastsInDim S1024x1 (![] : Fin 0 → Fin S1024x1.rank)
  scatter_S1000000_S4000000x1_S4000000_n_0_0_1_wf : ScatterDims.WF S1000000 S4000000x1 S4000000 [] [0] [0] 1
  dot_S20000x64_S64x32_S20000x32_1_0_0_1_n_n_wf : DotDims.WF S20000x64 S64x32 S20000x32 [1] [0] [0] [1] [] []
  gather_S1000000x32_S4000000x1_S4000000x32_1_0_n_n_0_1_132_wf : GatherDims.WF S1000000x32 S4000000x1 S4000000x32 [1] [0] [] [0] [] 1 ![1, 32]
  scatter_S1000000x32_S4000000x1_S4000000x32_1_0_0_1_wf : ScatterDims.WF S1000000x32 S4000000x1 S4000000x32 [1] [0] [0] 1
  dot_S20000x32_S32x32_S20000x32_1_0_0_1_n_n_wf : DotDims.WF S20000x32 S32x32 S20000x32 [1] [0] [0] [1] [] []
  dot_S20000x32_S32x1_S20000x1_1_0_0_1_n_n_wf : DotDims.WF S20000x32 S32x1 S20000x1 [1] [0] [0] [1] [] []
  scatter_S1024x1_S1000000x1_S1000000x1_1_0_0_1_wf : ScatterDims.WF S1024x1 S1000000x1 S1000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S1000000x64.size a
  hwx0_0 : ∀ i : grid0.Coords, EltTy.bits .f32 = 32 ∨ (Rect.block (s := S1000000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x32.size a ≤ S1000000x32.size a
  hwx0_5 : ∀ i : grid0.Coords, EltTy.bits .f32 = 32 ∨ (Rect.block (s := S1000000x32) S20000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S1000000x32.size a
  hwx1_0 : ∀ i : grid1.Coords, EltTy.bits .f32 = 32 ∨ (Rect.block (s := S1000000x32) S20000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S20000x32.size a ≤ S1000000x32.size a
  hwx1_7 : ∀ i : grid1.Coords, EltTy.bits .f32 = 32 ∨ (Rect.block (s := S1000000x32) S20000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S1000000x32.size a
  hwx2_0 : ∀ i : grid2.Coords, EltTy.bits .f32 = 32 ∨ (Rect.block (s := S1000000x32) S20000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x1.size a ≤ S32x1.size a
  hwx2_7 : ∀ i : grid2.Coords, EltTy.bits .f32 = 32 ∨ (Rect.block (s := S32x1) S32x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S20000x1.size a ≤ S1000000x1.size a
  hwx2_9 : ∀ i : grid2.Coords, EltTy.bits .f32 = 32 ∨ (Rect.block (s := S1000000x1) S20000x1.size (cc2_transform_9 i) (hinb2_9 i)).WholeWords (EltTy.packing .f32)

variable [Facts₀]

def scatter_S1000000_S4000000x1_S4000000_n_0_0_1 : ScatterDims S1000000 S4000000x1 S4000000 where
  updateWindowDims := []
  insertedWindowDims := [0]
  scatterDimsToOperandDims := [0]
  indexVectorDim := 1
  wf := scatter_S1000000_S4000000x1_S4000000_n_0_0_1_wf
def dot_S20000x64_S64x32_S20000x32_1_0_0_1_n_n : DotDims S20000x64 S64x32 S20000x32 where
  lhsContracting := [1]
  rhsContracting := [0]
  lhsNonContracting := [0]
  rhsNonContracting := [1]
  lhsBatch := []
  rhsBatch := []
  wf := dot_S20000x64_S64x32_S20000x32_1_0_0_1_n_n_wf
def gather_S1000000x32_S4000000x1_S4000000x32_1_0_n_n_0_1_132 : GatherDims S1000000x32 S4000000x1 S4000000x32 where
  offsetDims := [1]
  collapsedSliceDims := [0]
  operandBatchingDims := []
  startIndicesBatchingDims := []
  startIndexMap := [0]
  indexVectorDim := 1
  sliceSizes := ![1, 32]
  wf := gather_S1000000x32_S4000000x1_S4000000x32_1_0_n_n_0_1_132_wf
def scatter_S1000000x32_S4000000x1_S4000000x32_1_0_0_1 : ScatterDims S1000000x32 S4000000x1 S4000000x32 where
  updateWindowDims := [1]
  insertedWindowDims := [0]
  scatterDimsToOperandDims := [0]
  indexVectorDim := 1
  wf := scatter_S1000000x32_S4000000x1_S4000000x32_1_0_0_1_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def dot_S20000x32_S32x1_S20000x1_1_0_0_1_n_n : DotDims S20000x32 S32x1 S20000x1 where
  lhsContracting := [1]
  rhsContracting := [0]
  lhsNonContracting := [0]
  rhsNonContracting := [1]
  lhsBatch := []
  rhsBatch := []
  wf := dot_S20000x32_S32x1_S20000x1_1_0_0_1_n_n_wf
def scatter_S1024x1_S1000000x1_S1000000x1_1_0_0_1 : ScatterDims S1024x1 S1000000x1 S1000000x1 where
  updateWindowDims := [1]
  insertedWindowDims := [0]
  scatterDimsToOperandDims := [0]
  indexVectorDim := 1
  wf := scatter_S1024x1_S1000000x1_S1000000x1_1_0_0_1_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S20000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S20000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v58) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg20) S32x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v63) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v64) S20000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S1000000x64 : Shape := ⟨2, ![1000000, 64]⟩
abbrev S4000000 : Shape := ⟨1, ![4000000]⟩
abbrev S1000000 : Shape := ⟨1, ![1000000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩
abbrev S4000000x1 : Shape := ⟨2, ![4000000, 1]⟩
abbrev S1000000x1 : Shape := ⟨2, ![1000000, 1]⟩
abbrev S1000000x32 : Shape := ⟨2, ![1000000, 32]⟩
abbrev S1x32 : Shape := ⟨2, ![1, 32]⟩
abbrev S4000000x32 : Shape := ⟨2, ![4000000, 32]⟩
abbrev S1x1 : Shape := ⟨2, ![1, 1]⟩
abbrev S1024x1 : Shape := ⟨2, ![1024, 1]⟩

abbrev nBuf : Space → Nat
  | .hbm => 295
  | .vmem => 0
  | .smem => 0
  | _ => 0

abbrev hbmTy0_0 (i : Nat) : BufTy := match i % 128 with
  | 0 => ⟨S1000000x64, .f32⟩
  | 1 => ⟨S4000000, .i32⟩
  | 2 => ⟨S4000000, .i32⟩
  | 3 => ⟨S1000000, .i32⟩
  | 4 => ⟨S64x32, .f32⟩
  | 5 => ⟨S32, .f32⟩
  | 6 => ⟨S32, .f32⟩
  | 7 => ⟨S32, .f32⟩
  | 8 => ⟨S32x32, .f32⟩
  | 9 => ⟨S32, .f32⟩
  | 10 => ⟨S32x32, .f32⟩
  | 11 => ⟨S32, .f32⟩
  | 12 => ⟨S32, .f32⟩
  | 13 => ⟨S32, .f32⟩
  | 14 => ⟨S32x32, .f32⟩
  | 15 => ⟨S32, .f32⟩
  | 16 => ⟨S32x32, .f32⟩
  | 17 => ⟨S32, .f32⟩
  | 18 => ⟨S32, .f32⟩
  | 19 => ⟨S32, .f32⟩
  | 20 => ⟨S32x1, .f32⟩
  | 21 => ⟨S1, .f32⟩
  | 22 => ⟨S_, .f32⟩
  | 23 => ⟨S4000000, .f32⟩
  | 24 => ⟨S_, .f32⟩
  | 25 => ⟨S1000000, .f32⟩
  | 26 => ⟨S4000000x1, .i32⟩
  | 27 => ⟨S1000000, .f32⟩
  | 28 => ⟨S_, .f32⟩
  | 29 => ⟨S1000000, .f32⟩
  | 30 => ⟨S4000000x1, .i32⟩
  | 31 => ⟨S1000000, .f32⟩
  | 32 => ⟨S_, .f32⟩
  | 33 => ⟨S1000000, .f32⟩
  | 34 => ⟨S1000000, .i1⟩
  | 35 => ⟨S_, .f32⟩
  | 36 => ⟨S1000000, .f32⟩
  | 37 => ⟨S1000000, .f32⟩
  | 38 => ⟨S1000000, .f32⟩
  | 39 => ⟨S_, .f32⟩
  | 40 => ⟨S_, .f32⟩
  | 41 => ⟨S1000000, .f32⟩
  | 42 => ⟨S1000000, .f32⟩
  | 43 => ⟨S1000000x1, .f32⟩
  | 44 => ⟨S_, .f32⟩
  | 45 => ⟨S1000000, .f32⟩
  | 46 => ⟨S1000000, .i1⟩
  | 47 => ⟨S_, .f32⟩
  | 48 => ⟨S1000000, .f32⟩
  | 49 => ⟨S1000000, .f32⟩
  | 50 => ⟨S1000000, .f32⟩
  | 51 => ⟨S_, .f32⟩
  | 52 => ⟨S_, .f32⟩
  | 53 => ⟨S1000000, .f32⟩
  | 54 => ⟨S1000000, .f32⟩
  | 55 => ⟨S1000000x1, .f32⟩
  | 56 => ⟨S1000000x32, .f32⟩
  | 57 => ⟨S1x32, .f32⟩
  | 58 => ⟨S1000000x32, .f32⟩
  | 59 => ⟨S1000000x32, .f32⟩
  | 60 => ⟨S_, .f32⟩
  | 61 => ⟨S1000000, .f32⟩
  | 62 => ⟨S1000000x1, .f32⟩
  | 63 => ⟨S_, .f32⟩
  | 64 => ⟨S1000000x1, .f32⟩
  | 65 => ⟨S1000000x1, .f32⟩
  | 66 => ⟨S1000000x32, .f32⟩
  | 67 => ⟨S1000000x32, .f32⟩
  | 68 => ⟨S1000000x32, .f32⟩
  | 69 => ⟨S_, .f32⟩
  | 70 => ⟨S1000000, .f32⟩
  | 71 => ⟨S1000000x1, .f32⟩
  | 72 => ⟨S_, .f32⟩
  | 73 => ⟨S1000000x1, .f32⟩
  | 74 => ⟨S1000000x1, .f32⟩
  | 75 => ⟨S1000000x32, .f32⟩
  | 76 => ⟨S1000000x32, .f32⟩
  | 77 => ⟨S_, .f32⟩
  | 78 => ⟨S1000000x1, .f32⟩
  | 79 => ⟨S1000000x1, .f32⟩
  | 80 => ⟨S1000000x1, .f32⟩
  | 81 => ⟨S1000000x32, .f32⟩
  | 82 => ⟨S1000000x32, .f32⟩
  | 83 => ⟨S1x32, .f32⟩
  | 84 => ⟨S1000000x32, .f32⟩
  | 85 => ⟨S1000000x32, .f32⟩
  | 86 => ⟨S1x32, .f32⟩
  | 87 => ⟨S1000000x32, .f32⟩
  | 88 => ⟨S1000000x32, .f32⟩
  | 89 => ⟨S_, .f32⟩
  | 90 => ⟨S1000000x32, .f32⟩
  | 91 => ⟨S1000000x32, .i1⟩
  | 92 => ⟨S_, .f32⟩
  | 93 => ⟨S1000000x32, .f32⟩
  | 94 => ⟨S1000000x32, .i1⟩
  | 95 => ⟨S_, .f32⟩
  | 96 => ⟨S_, .f32⟩
  | 97 => ⟨S1000000x32, .f32⟩
  | 98 => ⟨S1000000x32, .f32⟩
  | 99 => ⟨S1000000x32, .f32⟩
  | 100 => ⟨S_, .f32⟩
  | 101 => ⟨S1000000x32, .f32⟩
  | 102 => ⟨S1000000x32, .f32⟩
  | 103 => ⟨S1000000x32, .f32⟩
  | 104 => ⟨S1000000x32, .f32⟩
  | 105 => ⟨S1000000x32, .f32⟩
  | 106 => ⟨S_, .i32⟩
  | 107 => ⟨S4000000, .i32⟩
  | 108 => ⟨S4000000, .i1⟩
  | 109 => ⟨S_, .i32⟩
  | 110 => ⟨S4000000, .i32⟩
  | 111 => ⟨S4000000, .i32⟩
  | 112 => ⟨S4000000, .i32⟩
  | 113 => ⟨S4000000x1, .i32⟩
  | 114 => ⟨S4000000x32, .f32⟩
  | 115 => ⟨S_, .f32⟩
  | 116 => ⟨S1000000x32, .f32⟩
  | 117 => ⟨S4000000x1, .i32⟩
  | 118 => ⟨S1000000x32, .f32⟩
  | 119 => ⟨S1000000x32, .f32⟩
  | 120 => ⟨S1000000x32, .f32⟩
  | 121 => ⟨S1000000x32, .f32⟩
  | 122 => ⟨S1x32, .f32⟩
  | 123 => ⟨S1000000x32, .f32⟩
  | 124 => ⟨S1000000x32, .f32⟩
  | 125 => ⟨S_, .f32⟩
  | 126 => ⟨S1000000x32, .f32⟩
  | 127 => ⟨S1000000x32, .i1⟩
  | _ => ⟨S1000000x64, .f32⟩

abbrev hbmTy0_1 (i : Nat) : BufTy := match i % 128 with
  | 0 => ⟨S_, .f32⟩
  | 1 => ⟨S1000000x32, .f32⟩
  | 2 => ⟨S1000000x32, .i1⟩
  | 3 => ⟨S_, .f32⟩
  | 4 => ⟨S_, .f32⟩
  | 5 => ⟨S1000000x32, .f32⟩
  | 6 => ⟨S1000000x32, .f32⟩
  | 7 => ⟨S1000000x32, .f32⟩
  | 8 => ⟨S_, .f32⟩
  | 9 => ⟨S1000000x32, .f32⟩
  | 10 => ⟨S1000000x32, .f32⟩
  | 11 => ⟨S1000000x32, .f32⟩
  | 12 => ⟨S1000000x32, .f32⟩
  | 13 => ⟨S1x32, .f32⟩
  | 14 => ⟨S1000000x32, .f32⟩
  | 15 => ⟨S1000000x32, .f32⟩
  | 16 => ⟨S_, .f32⟩
  | 17 => ⟨S1000000, .f32⟩
  | 18 => ⟨S1000000x1, .f32⟩
  | 19 => ⟨S_, .f32⟩
  | 20 => ⟨S1000000x1, .f32⟩
  | 21 => ⟨S1000000x1, .f32⟩
  | 22 => ⟨S1000000x32, .f32⟩
  | 23 => ⟨S1000000x32, .f32⟩
  | 24 => ⟨S1000000x32, .f32⟩
  | 25 => ⟨S_, .f32⟩
  | 26 => ⟨S1000000, .f32⟩
  | 27 => ⟨S1000000x1, .f32⟩
  | 28 => ⟨S_, .f32⟩
  | 29 => ⟨S1000000x1, .f32⟩
  | 30 => ⟨S1000000x1, .f32⟩
  | 31 => ⟨S1000000x32, .f32⟩
  | 32 => ⟨S1000000x32, .f32⟩
  | 33 => ⟨S_, .f32⟩
  | 34 => ⟨S1000000x1, .f32⟩
  | 35 => ⟨S1000000x1, .f32⟩
  | 36 => ⟨S1000000x1, .f32⟩
  | 37 => ⟨S1000000x32, .f32⟩
  | 38 => ⟨S1000000x32, .f32⟩
  | 39 => ⟨S1x32, .f32⟩
  | 40 => ⟨S1000000x32, .f32⟩
  | 41 => ⟨S1000000x32, .f32⟩
  | 42 => ⟨S1x32, .f32⟩
  | 43 => ⟨S1000000x32, .f32⟩
  | 44 => ⟨S1000000x32, .f32⟩
  | 45 => ⟨S_, .f32⟩
  | 46 => ⟨S1000000x32, .f32⟩
  | 47 => ⟨S1000000x32, .i1⟩
  | 48 => ⟨S_, .f32⟩
  | 49 => ⟨S1000000x32, .f32⟩
  | 50 => ⟨S1000000x32, .i1⟩
  | 51 => ⟨S_, .f32⟩
  | 52 => ⟨S_, .f32⟩
  | 53 => ⟨S1000000x32, .f32⟩
  | 54 => ⟨S1000000x32, .f32⟩
  | 55 => ⟨S1000000x32, .f32⟩
  | 56 => ⟨S_, .f32⟩
  | 57 => ⟨S1000000x32, .f32⟩
  | 58 => ⟨S1000000x32, .f32⟩
  | 59 => ⟨S1000000x32, .f32⟩
  | 60 => ⟨S1000000x32, .f32⟩
  | 61 => ⟨S1000000x32, .f32⟩
  | 62 => ⟨S_, .i32⟩
  | 63 => ⟨S4000000, .i32⟩
  | 64 => ⟨S4000000, .i1⟩
  | 65 => ⟨S_, .i32⟩
  | 66 => ⟨S4000000, .i32⟩
  | 67 => ⟨S4000000, .i32⟩
  | 68 => ⟨S4000000, .i32⟩
  | 69 => ⟨S4000000x1, .i32⟩
  | 70 => ⟨S4000000x32, .f32⟩
  | 71 => ⟨S_, .f32⟩
  | 72 => ⟨S1000000x32, .f32⟩
  | 73 => ⟨S4000000x1, .i32⟩
  | 74 => ⟨S1000000x32, .f32⟩
  | 75 => ⟨S1000000x32, .f32⟩
  | 76 => ⟨S1000000x32, .f32⟩
  | 77 => ⟨S1000000x32, .f32⟩
  | 78 => ⟨S1x32, .f32⟩
  | 79 => ⟨S1000000x32, .f32⟩
  | 80 => ⟨S1000000x32, .f32⟩
  | 81 => ⟨S_, .f32⟩
  | 82 => ⟨S1000000x32, .f32⟩
  | 83 => ⟨S1000000x32, .i1⟩
  | 84 => ⟨S_, .f32⟩
  | 85 => ⟨S1000000x32, .f32⟩
  | 86 => ⟨S1000000x32, .i1⟩
  | 87 => ⟨S_, .f32⟩
  | 88 => ⟨S_, .f32⟩
  | 89 => ⟨S1000000x32, .f32⟩
  | 90 => ⟨S1000000x32, .f32⟩
  | 91 => ⟨S1000000x32, .f32⟩
  | 92 => ⟨S_, .f32⟩
  | 93 => ⟨S1000000x32, .f32⟩
  | 94 => ⟨S1000000x32, .f32⟩
  | 95 => ⟨S1000000x32, .f32⟩
  | 96 => ⟨S1000000x32, .f32⟩
  | 97 => ⟨S1x32, .f32⟩
  | 98 => ⟨S1000000x32, .f32⟩
  | 99 => ⟨S1000000x32, .f32⟩
  | 100 => ⟨S_, .f32⟩
  | 101 => ⟨S1000000, .f32⟩
  | 102 => ⟨S1000000x1, .f32⟩
  | 103 => ⟨S_, .f32⟩
  | 104 => ⟨S1000000x1, .f32⟩
  | 105 => ⟨S1000000x1, .f32⟩
  | 106 => ⟨S1000000x32, .f32⟩
  | 107 => ⟨S1000000x32, .f32⟩
  | 108 => ⟨S1000000x32, .f32⟩
  | 109 => ⟨S_, .f32⟩
  | 110 => ⟨S1000000, .f32⟩
  | 111 => ⟨S1000000x1, .f32⟩
  | 112 => ⟨S_, .f32⟩
  | 113 => ⟨S1000000x1, .f32⟩
  | 114 => ⟨S1000000x1, .f32⟩
  | 115 => ⟨S1000000x32, .f32⟩
  | 116 => ⟨S1000000x32, .f32⟩
  | 117 => ⟨S_, .f32⟩
  | 118 => ⟨S1000000x1, .f32⟩
  | 119 => ⟨S1000000x1, .f32⟩
  | 120 => ⟨S1000000x1, .f32⟩
  | 121 => ⟨S1000000x32, .f32⟩
  | 122 => ⟨S1000000x32, .f32⟩
  | 123 => ⟨S1x32, .f32⟩
  | 124 => ⟨S1000000x32, .f32⟩
  | 125 => ⟨S1000000x32, .f32⟩
  | 126 => ⟨S1x32, .f32⟩
  | 127 => ⟨S1000000x32, .f32⟩
  | _ => ⟨S1000000x64, .f32⟩

abbrev hbmTy0_2 (i : Nat) : BufTy := match i % 128 with
  | 0 => ⟨S1000000x32, .f32⟩
  | 1 => ⟨S_, .f32⟩
  | 2 => ⟨S1000000x32, .f32⟩
  | 3 => ⟨S1000000x32, .i1⟩
  | 4 => ⟨S_, .f32⟩
  | 5 => ⟨S1000000x32, .f32⟩
  | 6 => ⟨S1000000x32, .i1⟩
  | 7 => ⟨S_, .f32⟩
  | 8 => ⟨S_, .f32⟩
  | 9 => ⟨S1000000x32, .f32⟩
  | 10 => ⟨S1000000x32, .f32⟩
  | 11 => ⟨S1000000x32, .f32⟩
  | 12 => ⟨S_, .f32⟩
  | 13 => ⟨S1000000x32, .f32⟩
  | 14 => ⟨S1000000x32, .f32⟩
  | 15 => ⟨S1000000x32, .f32⟩
  | 16 => ⟨S1000000x1, .f32⟩
  | 17 => ⟨S1x1, .f32⟩
  | 18 => ⟨S1000000x1, .f32⟩
  | 19 => ⟨S1000000x1, .f32⟩
  | 20 => ⟨S_, .f32⟩
  | 21 => ⟨S1000000x1, .f32⟩
  | 22 => ⟨S1000000x1, .i1⟩
  | 23 => ⟨S_, .f32⟩
  | 24 => ⟨S1000000x1, .f32⟩
  | 25 => ⟨S1000000x1, .i1⟩
  | 26 => ⟨S_, .f32⟩
  | 27 => ⟨S_, .f32⟩
  | 28 => ⟨S1000000x1, .f32⟩
  | 29 => ⟨S1000000x1, .f32⟩
  | 30 => ⟨S1000000x1, .f32⟩
  | 31 => ⟨S_, .f32⟩
  | 32 => ⟨S1000000x1, .f32⟩
  | 33 => ⟨S1000000x1, .f32⟩
  | 34 => ⟨S1000000x1, .f32⟩
  | 35 => ⟨S_, .f32⟩
  | 36 => ⟨S1024x1, .f32⟩
  | 37 => ⟨S1000000x1, .i32⟩
  | 38 => ⟨S1024x1, .f32⟩
  | _ => ⟨S1000000x64, .f32⟩

abbrev hbmTy (i : Nat) : BufTy := match i / 128 with
  | 0 => hbmTy0_0 i
  | 1 => hbmTy0_1 i
  | 2 => hbmTy0_2 i
  | _ => ⟨S1000000x64, .f32⟩

abbrev bufTy : (tb : Table) → Fin (tcTables nBuf tb) → BufTy
  | .hbm, ⟨i, _⟩ => hbmTy i
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_2 : Ref sig .tc := ⟨.hbm, 32, rfl⟩
abbrev main_v7 : Ref sig .tc := ⟨.hbm, 33, rfl⟩
abbrev main_v8 : Ref sig .tc := ⟨.hbm, 34, rfl⟩
abbrev main_cst_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v12 : Ref sig .tc := ⟨.hbm, 42, rfl⟩
abbrev main_v13 : Ref sig .tc := ⟨.hbm, 43, rfl⟩
abbrev main_cst_5 : Ref sig .tc := ⟨.hbm, 44, rfl⟩
abbrev main_v14 : Ref sig .tc := ⟨.hbm, 45, rfl⟩
abbrev main_v15 : Ref sig .tc := ⟨.hbm, 46, rfl⟩
abbrev main_cst_6 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_cst_9 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_10 : Ref sig .tc := ⟨.hbm, 69, rfl⟩
abbrev main_v32 : Ref sig .tc := ⟨.hbm, 70, rfl⟩
abbrev main_v33 : Ref sig .tc := ⟨.hbm, 71, rfl⟩
abbrev main_cst_11 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_12 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_call2_cst : Ref sig .tc := ⟨.hbm, 89, rfl⟩
abbrev main_call2_v0 : Ref sig .tc := ⟨.hbm, 90, rfl⟩
abbrev main_call2_v1 : Ref sig .tc := ⟨.hbm, 91, rfl⟩
abbrev main_call2_cst_0 : Ref sig .tc := ⟨.hbm, 92, rfl⟩
abbrev main_call2_v2 : Ref sig .tc := ⟨.hbm, 93, rfl⟩
abbrev main_call2_v3 : Ref sig .tc := ⟨.hbm, 94, rfl⟩
abbrev main_call2_cst_1 : Ref sig .tc := ⟨.hbm, 95, rfl⟩
abbrev main_call2_call0_v0 : Ref sig .tc := ⟨.hbm, 96, rfl⟩
abbrev main_call2_call0_v1 : Ref sig .tc := ⟨.hbm, 97, rfl⟩
abbrev main_call2_v4 : Ref sig .tc := ⟨.hbm, 98, rfl⟩
abbrev main_call2_v5 : Ref sig .tc := ⟨.hbm, 99, rfl⟩
abbrev main_call2_cst_2 : Ref sig .tc := ⟨.hbm, 100, rfl⟩
abbrev main_call2_v6 : Ref sig .tc := ⟨.hbm, 101, rfl⟩
abbrev main_call2_v7 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_c : Ref sig .tc := ⟨.hbm, 106, rfl⟩
abbrev main_v52 : Ref sig .tc := ⟨.hbm, 107, rfl⟩
abbrev main_v53 : Ref sig .tc := ⟨.hbm, 108, rfl⟩
abbrev main_c_13 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_14 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_call3_cst : Ref sig .tc := ⟨.hbm, 125, rfl⟩
abbrev main_call3_v0 : Ref sig .tc := ⟨.hbm, 126, rfl⟩
abbrev main_call3_v1 : Ref sig .tc := ⟨.hbm, 127, rfl⟩
abbrev main_call3_cst_0 : Ref sig .tc := ⟨.hbm, 128, rfl⟩
abbrev main_call3_v2 : Ref sig .tc := ⟨.hbm, 129, rfl⟩
abbrev main_call3_v3 : Ref sig .tc := ⟨.hbm, 130, rfl⟩
abbrev main_call3_cst_1 : Ref sig .tc := ⟨.hbm, 131, rfl⟩
abbrev main_call3_call0_v0 : Ref sig .tc := ⟨.hbm, 132, rfl⟩
abbrev main_call3_call0_v1 : Ref sig .tc := ⟨.hbm, 133, rfl⟩
abbrev main_call3_v4 : Ref sig .tc := ⟨.hbm, 134, rfl⟩
abbrev main_call3_v5 : Ref sig .tc := ⟨.hbm, 135, rfl⟩
abbrev main_call3_cst_2 : Ref sig .tc := ⟨.hbm, 136, rfl⟩
abbrev main_call3_v6 : Ref sig .tc := ⟨.hbm, 137, rfl⟩
abbrev main_call3_v7 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_cst_15 : Ref sig .tc := ⟨.hbm, 144, rfl⟩
abbrev main_v73 : Ref sig .tc := ⟨.hbm, 145, rfl⟩
abbrev main_v74 : Ref sig .tc := ⟨.hbm, 146, rfl⟩
abbrev main_cst_16 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_cst_17 : Ref sig .tc := ⟨.hbm, 153, rfl⟩
abbrev main_v80 : Ref sig .tc := ⟨.hbm, 154, rfl⟩
abbrev main_v81 : Ref sig .tc := ⟨.hbm, 155, rfl⟩
abbrev main_cst_18 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_cst_19 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_call4_cst : Ref sig .tc := ⟨.hbm, 173, rfl⟩
abbrev main_call4_v0 : Ref sig .tc := ⟨.hbm, 174, rfl⟩
abbrev main_call4_v1 : Ref sig .tc := ⟨.hbm, 175, rfl⟩
abbrev main_call4_cst_0 : Ref sig .tc := ⟨.hbm, 176, rfl⟩
abbrev main_call4_v2 : Ref sig .tc := ⟨.hbm, 177, rfl⟩
abbrev main_call4_v3 : Ref sig .tc := ⟨.hbm, 178, rfl⟩
abbrev main_call4_cst_1 : Ref sig .tc := ⟨.hbm, 179, rfl⟩
abbrev main_call4_call0_v0 : Ref sig .tc := ⟨.hbm, 180, rfl⟩
abbrev main_call4_call0_v1 : Ref sig .tc := ⟨.hbm, 181, rfl⟩
abbrev main_call4_v4 : Ref sig .tc := ⟨.hbm, 182, rfl⟩
abbrev main_call4_v5 : Ref sig .tc := ⟨.hbm, 183, rfl⟩
abbrev main_call4_cst_2 : Ref sig .tc := ⟨.hbm, 184, rfl⟩
abbrev main_call4_v6 : Ref sig .tc := ⟨.hbm, 185, rfl⟩
abbrev main_call4_v7 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_c_20 : Ref sig .tc := ⟨.hbm, 190, rfl⟩
abbrev main_v100 : Ref sig .tc := ⟨.hbm, 191, rfl⟩
abbrev main_v101 : Ref sig .tc := ⟨.hbm, 192, rfl⟩
abbrev main_c_21 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_22 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_call5_cst : Ref sig .tc := ⟨.hbm, 209, rfl⟩
abbrev main_call5_v0 : Ref sig .tc := ⟨.hbm, 210, rfl⟩
abbrev main_call5_v1 : Ref sig .tc := ⟨.hbm, 211, rfl⟩
abbrev main_call5_cst_0 : Ref sig .tc := ⟨.hbm, 212, rfl⟩
abbrev main_call5_v2 : Ref sig .tc := ⟨.hbm, 213, rfl⟩
abbrev main_call5_v3 : Ref sig .tc := ⟨.hbm, 214, rfl⟩
abbrev main_call5_cst_1 : Ref sig .tc := ⟨.hbm, 215, rfl⟩
abbrev main_call5_call0_v0 : Ref sig .tc := ⟨.hbm, 216, rfl⟩
abbrev main_call5_call0_v1 : Ref sig .tc := ⟨.hbm, 217, rfl⟩
abbrev main_call5_v4 : Ref sig .tc := ⟨.hbm, 218, rfl⟩
abbrev main_call5_v5 : Ref sig .tc := ⟨.hbm, 219, rfl⟩
abbrev main_call5_cst_2 : Ref sig .tc := ⟨.hbm, 220, rfl⟩
abbrev main_call5_v6 : Ref sig .tc := ⟨.hbm, 221, rfl⟩
abbrev main_call5_v7 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_cst_23 : Ref sig .tc := ⟨.hbm, 228, rfl⟩
abbrev main_v121 : Ref sig .tc := ⟨.hbm, 229, rfl⟩
abbrev main_v122 : Ref sig .tc := ⟨.hbm, 230, rfl⟩
abbrev main_cst_24 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_v127 : Ref sig .tc := ⟨.hbm, 236, rfl⟩
abbrev main_cst_25 : Ref sig .tc := ⟨.hbm, 237, rfl⟩
abbrev main_v128 : Ref sig .tc := ⟨.hbm, 238, rfl⟩
abbrev main_v129 : Ref sig .tc := ⟨.hbm, 239, rfl⟩
abbrev main_cst_26 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_cst_27 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_call6_cst : Ref sig .tc := ⟨.hbm, 257, rfl⟩
abbrev main_call6_v0 : Ref sig .tc := ⟨.hbm, 258, rfl⟩
abbrev main_call6_v1 : Ref sig .tc := ⟨.hbm, 259, rfl⟩
abbrev main_call6_cst_0 : Ref sig .tc := ⟨.hbm, 260, rfl⟩
abbrev main_call6_v2 : Ref sig .tc := ⟨.hbm, 261, rfl⟩
abbrev main_call6_v3 : Ref sig .tc := ⟨.hbm, 262, rfl⟩
abbrev main_call6_cst_1 : Ref sig .tc := ⟨.hbm, 263, rfl⟩
abbrev main_call6_call0_v0 : Ref sig .tc := ⟨.hbm, 264, rfl⟩
abbrev main_call6_call0_v1 : Ref sig .tc := ⟨.hbm, 265, rfl⟩
abbrev main_call6_v4 : Ref sig .tc := ⟨.hbm, 266, rfl⟩
abbrev main_call6_v5 : Ref sig .tc := ⟨.hbm, 267, rfl⟩
abbrev main_call6_cst_2 : Ref sig .tc := ⟨.hbm, 268, rfl⟩
abbrev main_call6_v6 : Ref sig .tc := ⟨.hbm, 269, rfl⟩
abbrev main_call6_v7 : Ref sig .tc := ⟨.hbm, 270, rfl⟩
abbrev main_v145 : Ref sig .tc := ⟨.hbm, 271, rfl⟩
abbrev main_v146 : Ref sig .tc := ⟨.hbm, 272, rfl⟩
abbrev main_v147 : Ref sig .tc := ⟨.hbm, 273, rfl⟩
abbrev main_v148 : Ref sig .tc := ⟨.hbm, 274, rfl⟩
abbrev main_v149 : Ref sig .tc := ⟨.hbm, 275, rfl⟩
abbrev main_call7_cst : Ref sig .tc := ⟨.hbm, 276, rfl⟩
abbrev main_call7_v0 : Ref sig .tc := ⟨.hbm, 277, rfl⟩
abbrev main_call7_v1 : Ref sig .tc := ⟨.hbm, 278, rfl⟩
abbrev main_call7_cst_0 : Ref sig .tc := ⟨.hbm, 279, rfl⟩
abbrev main_call7_v2 : Ref sig .tc := ⟨.hbm, 280, rfl⟩
abbrev main_call7_v3 : Ref sig .tc := ⟨.hbm, 281, rfl⟩
abbrev main_call7_cst_1 : Ref sig .tc := ⟨.hbm, 282, rfl⟩
abbrev main_call7_call0_v0 : Ref sig .tc := ⟨.hbm, 283, rfl⟩
abbrev main_call7_call0_v1 : Ref sig .tc := ⟨.hbm, 284, rfl⟩
abbrev main_call7_v4 : Ref sig .tc := ⟨.hbm, 285, rfl⟩
abbrev main_call7_v5 : Ref sig .tc := ⟨.hbm, 286, rfl⟩
abbrev main_call7_cst_2 : Ref sig .tc := ⟨.hbm, 287, rfl⟩
abbrev main_call7_v6 : Ref sig .tc := ⟨.hbm, 288, rfl⟩
abbrev main_call7_v7 : Ref sig .tc := ⟨.hbm, 289, rfl⟩
abbrev main_v150 : Ref sig .tc := ⟨.hbm, 290, rfl⟩
abbrev main_cst_28 : Ref sig .tc := ⟨.hbm, 291, rfl⟩
abbrev main_v151 : Ref sig .tc := ⟨.hbm, 292, rfl⟩
abbrev main_v152 : Ref sig .tc := ⟨.hbm, 293, rfl⟩
abbrev main_v153 : Ref sig .tc := ⟨.hbm, 294, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S_S1000000 : S_.BroadcastsInDim S1000000 (![] : Fin 0 → Fin S1000000.rank)
  bcast_S4000000_S4000000x1_0 : S4000000.BroadcastsInDim S4000000x1 (![0] : Fin 1 → Fin S4000000x1.rank)
  bcast_S1000000_S1000000x1_0 : S1000000.BroadcastsInDim S1000000x1 (![0] : Fin 1 → Fin S1000000x1.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  reducesTo_S1000000x32_S1000000_d1 : S1000000x32.ReducesTo [1] S1000000
  h_S_ : 0 < S_.numel
  bcast_S_S1000000x1 : S_.BroadcastsInDim S1000000x1 (![] : Fin 0 → Fin S1000000x1.rank)
  bcast_S1000000x1_S1000000x32_0_1 : S1000000x1.BroadcastsInDim S1000000x32 (![0, 1] : Fin 2 → Fin S1000000x32.rank)
  bcast_S_S1000000x32 : S_.BroadcastsInDim S1000000x32 (![] : Fin 0 → Fin S1000000x32.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1024x1 : S_.BroadcastsInDim S1024x1 (![] : Fin 0 → Fin S1024x1.rank)
  scatter_S1000000_S4000000x1_S4000000_n_0_0_1_wf : ScatterDims.WF S1000000 S4000000x1 S4000000 [] [0] [0] 1
  dot_S1000000x64_S64x32_S1000000x32_1_0_0_1_n_n_wf : DotDims.WF S1000000x64 S64x32 S1000000x32 [1] [0] [0] [1] [] []
  gather_S1000000x32_S4000000x1_S4000000x32_1_0_n_n_0_1_132_wf : GatherDims.WF S1000000x32 S4000000x1 S4000000x32 [1] [0] [] [0] [] 1 ![1, 32]
  scatter_S1000000x32_S4000000x1_S4000000x32_1_0_0_1_wf : ScatterDims.WF S1000000x32 S4000000x1 S4000000x32 [1] [0] [0] 1
  dot_S1000000x32_S32x32_S1000000x32_1_0_0_1_n_n_wf : DotDims.WF S1000000x32 S32x32 S1000000x32 [1] [0] [0] [1] [] []
  dot_S1000000x32_S32x1_S1000000x1_1_0_0_1_n_n_wf : DotDims.WF S1000000x32 S32x1 S1000000x1 [1] [0] [0] [1] [] []
  scatter_S1024x1_S1000000x1_S1000000x1_1_0_0_1_wf : ScatterDims.WF S1024x1 S1000000x1 S1000000x1 [1] [0] [0] 1

variable [Facts₀]

def scatter_S1000000_S4000000x1_S4000000_n_0_0_1 : ScatterDims S1000000 S4000000x1 S4000000 where
  updateWindowDims := []
  insertedWindowDims := [0]
  scatterDimsToOperandDims := [0]
  indexVectorDim := 1
  wf := scatter_S1000000_S4000000x1_S4000000_n_0_0_1_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def gather_S1000000x32_S4000000x1_S4000000x32_1_0_n_n_0_1_132 : GatherDims S1000000x32 S4000000x1 S4000000x32 where
  offsetDims := [1]
  collapsedSliceDims := [0]
  operandBatchingDims := []
  startIndicesBatchingDims := []
  startIndexMap := [0]
  indexVectorDim := 1
  sliceSizes := ![1, 32]
  wf := gather_S1000000x32_S4000000x1_S4000000x32_1_0_n_n_0_1_132_wf
def scatter_S1000000x32_S4000000x1_S4000000x32_1_0_0_1 : ScatterDims S1000000x32 S4000000x1 S4000000x32 where
  updateWindowDims := [1]
  insertedWindowDims := [0]
  scatterDimsToOperandDims := [0]
  indexVectorDim := 1
  wf := scatter_S1000000x32_S4000000x1_S4000000x32_1_0_0_1_wf
def dot_S1000000x32_S32x32_S1000000x32_1_0_0_1_n_n : DotDims S1000000x32 S32x32 S1000000x32 where
  lhsContracting := [1]
  rhsContracting := [0]
  lhsNonContracting := [0]
  rhsNonContracting := [1]
  lhsBatch := []
  rhsBatch := []
  wf := dot_S1000000x32_S32x32_S1000000x32_1_0_0_1_n_n_wf
def dot_S1000000x32_S32x1_S1000000x1_1_0_0_1_n_n : DotDims S1000000x32 S32x1 S1000000x1 where
  lhsContracting := [1]
  rhsContracting := [0]
  lhsNonContracting := [0]
  rhsNonContracting := [1]
  lhsBatch := []
  rhsBatch := []
  wf := dot_S1000000x32_S32x1_S1000000x1_1_0_0_1_n_n_wf
def scatter_S1024x1_S1000000x1_S1000000x1_1_0_0_1 : ScatterDims S1024x1 S1000000x1 S1000000x1 where
  updateWindowDims := [1]
  insertedWindowDims := [0]
  scatterDimsToOperandDims := [0]
  indexVectorDim := 1
  wf := scatter_S1024x1_S1000000x1_S1000000x1_1_0_0_1_wf

class Facts : Prop extends Facts₀ where

variable [Facts]
-- ==== Proof.KRun.lean ====
/-
  The value run of the kernel's program: from any memory with zero counters every weakly fair execution of @main on
  the TensorCores terminates, and in every final state the result array holds what the fold of @main's segments leaves
  in it (the last boundary's contents, named), the argument arrays as launched.
-/
import proofs.«146749_j85624468013347_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run theorem's implicit arguments are found by unifying its conclusion with this one, which takes unfolding
-- plain definitions in a metavariable's type
set_option backward.isDefEq.respectTransparency.types false in
/-- The run with the result's value: every final state has the result array at the last boundary's contents and the
    argument arrays as launched. The final-state predicate is "every unscoped buffer of the core at the last boundary's
    contents"; the result array is one of them, and each argument's contents there walk back to the launch memory. -/
theorem run_val : θ_run defs (onTc (τ := τ) (main (F := F))) ⟨m, fun _ => 0, ρ⟩ (fun r => ∀ c : Dev nD,
      r.2.mem ((c.tc : Thread nD τ).loc main_v67) = Gen.W11 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v67 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c),
       (h c _ (mem_uc main_arg21 (by decide))).trans (W11_main_arg21 m ρ c)⟩)

/-- info: 'Cert.KernelIdeal.KRun.run_val' depends on axioms: [propext, Classical.choice, Quot.sound] -/
#guard_msgs in #print axioms run_val

end Cert.KernelIdeal.KRun

end
-- ==== Proof.Spec.lean ====
/-
  The host-side stages the kernel's program shares with the reference, as closed terms of its own host operations:
  the degree normalizers, one round of message passing, the per-graph readout, and a feature vector re-laid as a
  one-row array (the form the three kernels take their bias and scale vectors in).
-/
import proofs.«146749_j85624468013347_2_alg».proof.Proof.Gen.KernelIdeal

noncomputable section

namespace Cert.KernelIdeal.Spec

open Idealize.ShloMosaic Cert.KernelIdeal Cert.KernelIdeal.Gen

variable {F : FTy → Type} [FloatOps F]

/-- The degree normalizer of one endpoint vector `e` of the edge list, as a column: the number of edges
    ending at each node (a scatter-add of ones), `d ↦ 1/√(max d 1)` where the count is positive and `0` elsewhere. -/
def norm (e : (⟨S4000000, .i32⟩ : BufTy).Contents (Elt F)) : (⟨S1000000x1, .f32⟩ : BufTy).Contents (Elt F) :=
  broadcastInDim S1000000x1 ![0] bcast_S1000000_S1000000x1_0
    (select
      (cmpf .ogt
        (Host.scatterAdd scatter_S1000000_S4000000x1_S4000000_n_0_0_1
          (broadcastInDim S1000000 ![] bcast_S_S1000000 (constant (F := F) S_ .f32 0x00000000#32))
          (broadcastInDim S4000000x1 ![0] bcast_S4000000_S4000000x1_0 e)
          (broadcastInDim S4000000 ![] bcast_S_S4000000 (constant (F := F) S_ .f32 0x3F800000#32)))
        (broadcastInDim S1000000 ![] bcast_S_S1000000 (constant (F := F) S_ .f32 0x00000000#32)))
      (Host.rsqrt (maximumf
        (Host.scatterAdd scatter_S1000000_S4000000x1_S4000000_n_0_0_1
          (broadcastInDim S1000000 ![] bcast_S_S1000000 (constant (F := F) S_ .f32 0x00000000#32))
          (broadcastInDim S4000000x1 ![0] bcast_S4000000_S4000000x1_0 e)
          (broadcastInDim S4000000 ![] bcast_S_S4000000 (constant (F := F) S_ .f32 0x3F800000#32)))
        (broadcastInDim S1000000 ![] bcast_S_S1000000 (constant (F := F) S_ .f32 0x3F800000#32))))
      (broadcastInDim S1000000 ![] bcast_S_S1000000 (id (constant (F := F) S_ .f32 0x00000000#32))))

/-- One round of message passing: scale the rows of `h` by the source normalizer, gather the rows at the
    edges' sources (a negative index wrapped once), scatter-add them at the edges' destinations, scale by the
    destination normalizer. -/
def msg (h : (⟨S1000000x32, .f32⟩ : BufTy).Contents (Elt F)) (ns nd : (⟨S1000000x1, .f32⟩ : BufTy).Contents (Elt F))
    (src dst : (⟨S4000000, .i32⟩ : BufTy).Contents (Elt F)) : (⟨S1000000x32, .f32⟩ : BufTy).Contents (Elt F) :=
  mulf
    (Host.scatterAdd scatter_S1000000x32_S4000000x1_S4000000x32_1_0_0_1
      (broadcastInDim S1000000x32 ![] bcast_S_S1000000x32 (constant (F := F) S_ .f32 0x00000000#32))
      (broadcastInDim S4000000x1 ![0] bcast_S4000000_S4000000x1_0 dst)
      (Host.gather gather_S1000000x32_S4000000x1_S4000000x32_1_0_n_n_0_1_132
        (mulf h (broadcastInDim S1000000x32 ![0, 1] bcast_S1000000x1_S1000000x32_0_1 ns))
        (broadcastInDim S4000000x1 ![0] bcast_S4000000_S4000000x1_0
          (select (cmpi .slt src (broadcastInDim S4000000 ![] bcast_S_S4000000 (constantI S_ 32 0#32)))
            (addi src (broadcastInDim S4000000 ![] bcast_S_S4000000 (constantI S_ 32 1000000#32))) src))))
    (broadcastInDim S1000000x32 ![0, 1] bcast_S1000000x1_S1000000x32_0_1 nd)

/-- The per-graph readout: the node values scatter-added at their graph ids. -/
def readout (o : (⟨S1000000x1, .f32⟩ : BufTy).Contents (Elt F)) (gid : (⟨S1000000, .i32⟩ : BufTy).Contents (Elt F)) :
    (⟨S1024x1, .f32⟩ : BufTy).Contents (Elt F) :=
  Host.scatterAdd scatter_S1024x1_S1000000x1_S1000000x1_1_0_0_1
    (broadcastInDim S1024x1 ![] bcast_S_S1024x1 (constant (F := F) S_ .f32 0x00000000#32))
    (broadcastInDim S1000000x1 ![0] bcast_S1000000_S1000000x1_0 gid) o

/-- A vector of 32 features as a one-row array. -/
def row (b : (⟨S32, .f32⟩ : BufTy).Contents (Elt F)) : (⟨S1x32, .f32⟩ : BufTy).Contents (Elt F) :=
  shapeCast S1x32 b shapeCasts_S32_S1x32

/-- A one-entry vector as a 1 × 1 array. -/
def row1 (b : (⟨S1, .f32⟩ : BufTy).Contents (Elt F)) : (⟨S1x1, .f32⟩ : BufTy).Contents (Elt F) :=
  shapeCast S1x1 b shapeCasts_S1_S1x1

end Cert.KernelIdeal.Spec

end
-- ==== Proof.KHost.lean ====
/-
  The host stretches of the kernel's program read as closed terms: what each region finds in the arrays the host
  operations prepare for it (the degree normalizers, a round of message passing, the bias and scale vectors as one-row
  arrays), and the result array as the readout of the last region's output.
-/
import proofs.«146749_j85624468013347_2_alg».proof.Proof.Gen.KernelIdeal.Frame
import proofs.«146749_j85624468013347_2_alg».proof.Proof.Spec

set_option maxRecDepth 16384

noncomputable section

namespace Cert.KernelIdeal.KHost

open Idealize.ShloMosaic Idealize.ShloMosaic.TcCoe Idealize.ShloMosaic.Tactic
open Idealize.ShloMosaic.StableHlo (after after_cons after_nil)
open Cert.KernelIdeal Cert.KernelIdeal.Gen

variable {F : FTy → Type} [FloatOps F]

-- the scatter-add, the gather and the reciprocal square root stay folded: no equation here looks inside them
attribute [local irreducible] Host.scatterAdd Host.gather Host.rsqrt

/-! ## What each stretch writes, and what it keeps -/

/-- The references `hostOps0`'s operations write. -/
abbrev hostOps0_W : List (Ref sig .tc) := [main_cst, main_v0, main_cst_0, main_v1, main_cst_1, main_v2, main_v3, main_v4, main_cst_2, main_v5, main_v6, main_v7, main_cst_3, main_v8, main_v9, main_cst_4, main_v10, main_v11, main_v12, main_cst_5]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer `hostOps0` does not write keeps its contents. -/
theorem s0_kept (X : Valuation τ sig (Elt F)) (r : Ref sig .tc) (h : r ∉ hostOps0_W) :
    after hostOps0 X (Proc.devRef .tc r) = X (Proc.devRef .tc r) :=
  StableHlo.after_of_writes_sub hostOps0 X hostOps0_writes h
/-- The references `hostOps0_1`'s operations write. -/
abbrev hostOps0_1_W : List (Ref sig .tc) := [main_call0_v0, main_call0_v1, main_v13]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer `hostOps0_1` does not write keeps its contents. -/
theorem s01_kept (X : Valuation τ sig (Elt F)) (r : Ref sig .tc) (h : r ∉ hostOps0_1_W) :
    after hostOps0_1 X (Proc.devRef .tc r) = X (Proc.devRef .tc r) :=
  StableHlo.after_of_writes_sub hostOps0_1 X hostOps0_1_writes h
/-- The references `hostOps0_2`'s operations write. -/
abbrev hostOps0_2_W : List (Ref sig .tc) := [main_v14, main_cst_6, main_v15, main_v16, main_cst_7, main_v17, main_v18, main_v19, main_cst_8]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer `hostOps0_2` does not write keeps its contents. -/
theorem s02_kept (X : Valuation τ sig (Elt F)) (r : Ref sig .tc) (h : r ∉ hostOps0_2_W) :
    after hostOps0_2 X (Proc.devRef .tc r) = X (Proc.devRef .tc r) :=
  StableHlo.after_of_writes_sub hostOps0_2 X hostOps0_2_writes h
/-- The references `hostOps0_3`'s operations write. -/
abbrev hostOps0_3_W : List (Ref sig .tc) := [main_call1_v0, main_call1_v1, main_v20]
theorem hostOps0_3_writes : (hostOps0_3 : List (HloOp τ sig (Elt F))).Forall fun op => op.writes ⊆ (hostOps0_3_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer `hostOps0_3` does not write keeps its contents. -/
theorem s03_kept (X : Valuation τ sig (Elt F)) (r : Ref sig .tc) (h : r ∉ hostOps0_3_W) :
    after hostOps0_3 X (Proc.devRef .tc r) = X (Proc.devRef .tc r) :=
  StableHlo.after_of_writes_sub hostOps0_3 X hostOps0_3_writes h
/-- The references `hostOps0_4`'s operations write. -/
abbrev hostOps0_4_W : List (Ref sig .tc) := [main_v21, main_v22, main_v23, main_v24]
theorem hostOps0_4_writes : (hostOps0_4 : List (HloOp τ sig (Elt F))).Forall fun op => op.writes ⊆ (hostOps0_4_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer `hostOps0_4` does not write keeps its contents. -/
theorem s04_kept (X : Valuation τ sig (Elt F)) (r : Ref sig .tc) (h : r ∉ hostOps0_4_W) :
    after hostOps0_4 X (Proc.devRef .tc r) = X (Proc.devRef .tc r) :=
  StableHlo.after_of_writes_sub hostOps0_4 X hostOps0_4_writes h
/-- The references `hostOps1`'s operations write. -/
abbrev hostOps1_W : List (Ref sig .tc) := [main_v26, main_v27, main_c, main_v28, main_v29, main_c_9, main_v30, main_v31, main_v32, main_v33, main_v34, main_cst_10, main_v35, main_v36, main_v37, main_v38, main_v39, main_v40, main_v41, main_v42, main_v43]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer `hostOps1` does not write keeps its contents. -/
theorem s1_kept (X : Valuation τ sig (Elt F)) (r : Ref sig .tc) (h : r ∉ hostOps1_W) :
    after hostOps1 X (Proc.devRef .tc r) = X (Proc.devRef .tc r) :=
  StableHlo.after_of_writes_sub hostOps1 X hostOps1_writes h
/-- The references `hostOps2`'s operations write. -/
abbrev hostOps2_W : List (Ref sig .tc) := [main_v45, main_v46, main_c_11, main_v47, main_v48, main_c_12, main_v49, main_v50, main_v51, main_v52, main_v53, main_cst_13, main_v54, main_v55, main_v56, main_v57, main_v58, main_v59, main_v60, main_v61, main_v62, main_v63]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer `hostOps2` does not write keeps its contents. -/
theorem s2_kept (X : Valuation τ sig (Elt F)) (r : Ref sig .tc) (h : r ∉ hostOps2_W) :
    after hostOps2 X (Proc.devRef .tc r) = X (Proc.devRef .tc r) :=
  StableHlo.after_of_writes_sub hostOps2 X hostOps2_writes h
/-- The references `hostOps3`'s operations write. -/
abbrev hostOps3_W : List (Ref sig .tc) := [main_cst_14, main_v65, main_v66, main_v67]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer `hostOps3` does not write keeps its contents. -/
theorem s3_kept (X : Valuation τ sig (Elt F)) (r : Ref sig .tc) (h : r ∉ hostOps3_W) :
    after hostOps3 X (Proc.devRef .tc r) = X (Proc.devRef .tc r) :=
  StableHlo.after_of_writes_sub hostOps3 X hostOps3_writes h

/-! ## One stretch at a time, over an arbitrary valuation -/

section Stretch
variable (X : Valuation τ sig (Elt F))

/-- The number of edges ending at each node: ones scatter-added at the endpoints. -/
def deg (e : (⟨S4000000, .i32⟩ : BufTy).Contents (Elt F)) : (⟨S1000000, .f32⟩ : BufTy).Contents (Elt F) :=
  Host.scatterAdd scatter_S1000000_S4000000x1_S4000000_n_0_0_1
    (broadcastInDim S1000000 ![] bcast_S_S1000000 (constant (F := F) S_ .f32 0x00000000#32))
    (broadcastInDim S4000000x1 ![0] bcast_S4000000_S4000000x1_0 e)
    (broadcastInDim S4000000 ![] bcast_S_S4000000 (constant (F := F) S_ .f32 0x3F800000#32))

theorem s0_v4 : after hostOps0 X (Proc.devRef .tc main_v4) = deg (X (Proc.devRef .tc main_arg1)) := by
  after_results <;> rfl
theorem s0_v7 : after hostOps0 X (Proc.devRef .tc main_v7) = deg (X (Proc.devRef .tc main_arg2)) := by
  after_results <;> rfl
theorem s0_v9 : after hostOps0 X (Proc.devRef .tc main_v9) = cmpf .ogt (deg (X (Proc.devRef .tc main_arg1))) (broadcastInDim S1000000 ![] bcast_S_S1000000 (constant (F := F) S_ .f32 0x00000000#32)) := by
  after_results <;> rfl
theorem s0_v12 : after hostOps0 X (Proc.devRef .tc main_v12) = Host.rsqrt (maximumf (deg (X (Proc.devRef .tc main_arg1))) (broadcastInDim S1000000 ![] bcast_S_S1000000 (constant (F := F) S_ .f32 0x3F800000#32))) := by
  after_results <;> rfl
theorem s0_cst5 : after hostOps0 X (Proc.devRef .tc main_cst_5) = (constant (F := F) S_ .f32 0x00000000#32) := by
  after_results <;> rfl

theorem s01_v13 : after hostOps0_1 X (Proc.devRef .tc main_v13)
    = select (X (Proc.devRef .tc main_v9)) (X (Proc.devRef .tc main_v12)) (broadcastInDim S1000000 ![] bcast_S_S1000000 (id (X (Proc.devRef .tc main_cst_5)))) := by
  after_results <;> rfl

theorem s02_v14 : after hostOps0_2 X (Proc.devRef .tc main_v14) = (broadcastInDim S1000000x1 ![0] bcast_S1000000_S1000000x1_0 (X (Proc.devRef .tc main_v13))) := by
  after_results <;> rfl
theorem s02_v16 : after hostOps0_2 X (Proc.devRef .tc main_v16) = cmpf .ogt (X (Proc.devRef .tc main_v7)) (broadcastInDim S1000000 ![] bcast_S_S1000000 (constant (F := F) S_ .f32 0x00000000#32)) := by
  after_results <;> rfl
theorem s02_v19 : after hostOps0_2 X (Proc.devRef .tc main_v19) = Host.rsqrt (maximumf (X (Proc.devRef .tc main_v7)) (broadcastInDim S1000000 ![] bcast_S_S1000000 (constant (F := F) S_ .f32 0x3F800000#32))) := by
  after_results <;> rfl
theorem s02_cst8 : after hostOps0_2 X (Proc.devRef .tc main_cst_8) = (constant (F := F) S_ .f32 0x00000000#32) := by
  after_results <;> rfl

theorem s03_v20 : after hostOps0_3 X (Proc.devRef .tc main_v20)
    = select (X (Proc.devRef .tc main_v16)) (X (Proc.devRef .tc main_v19)) (broadcastInDim S1000000 ![] bcast_S_S1000000 (id (X (Proc.devRef .tc main_cst_8)))) := by
  after_results <;> rfl

theorem s04_v21 : after hostOps0_4 X (Proc.devRef .tc main_v21) = (broadcastInDim S1000000x1 ![0] bcast_S1000000_S1000000x1_0 (X (Proc.devRef .tc main_v20))) := by
  after_results <;> rfl
theorem s04_v22 : after hostOps0_4 X (Proc.devRef .tc main_v22) = Spec.row (X (Proc.devRef .tc main_arg5)) := by
  after_results <;> rfl
theorem s04_v23 : after hostOps0_4 X (Proc.devRef .tc main_v23) = Spec.row (X (Proc.devRef .tc main_arg6)) := by
  after_results <;> rfl
theorem s04_v24 : after hostOps0_4 X (Proc.devRef .tc main_v24) = Spec.row (X (Proc.devRef .tc main_arg7)) := by
  after_results <;> rfl

theorem s1_v39 : after hostOps1 X (Proc.devRef .tc main_v39)
    = Spec.msg (X (Proc.devRef .tc main_v25)) (X (Proc.devRef .tc main_v14)) (X (Proc.devRef .tc main_v21)) (X (Proc.devRef .tc main_arg1)) (X (Proc.devRef .tc main_arg2)) := by
  after_results_simp <;> rfl
theorem s1_v40 : after hostOps1 X (Proc.devRef .tc main_v40) = Spec.row (X (Proc.devRef .tc main_arg9)) := by
  after_results <;> rfl
theorem s1_v41 : after hostOps1 X (Proc.devRef .tc main_v41) = Spec.row (X (Proc.devRef .tc main_arg11)) := by
  after_results <;> rfl
theorem s1_v42 : after hostOps1 X (Proc.devRef .tc main_v42) = Spec.row (X (Proc.devRef .tc main_arg12)) := by
  after_results <;> rfl
theorem s1_v43 : after hostOps1 X (Proc.devRef .tc main_v43) = Spec.row (X (Proc.devRef .tc main_arg13)) := by
  after_results <;> rfl

theorem s2_v58 : after hostOps2 X (Proc.devRef .tc main_v58)
    = Spec.msg (X (Proc.devRef .tc main_v44)) (X (Proc.devRef .tc main_v14)) (X (Proc.devRef .tc main_v21)) (X (Proc.devRef .tc main_arg1)) (X (Proc.devRef .tc main_arg2)) := by
  after_results_simp <;> rfl
theorem s2_v59 : after hostOps2 X (Proc.devRef .tc main_v59) = Spec.row (X (Proc.devRef .tc main_arg15)) := by
  after_results <;> rfl
theorem s2_v60 : after hostOps2 X (Proc.devRef .tc main_v60) = Spec.row (X (Proc.devRef .tc main_arg17)) := by
  after_results <;> rfl
theorem s2_v61 : after hostOps2 X (Proc.devRef .tc main_v61) = Spec.row (X (Proc.devRef .tc main_arg18)) := by
  after_results <;> rfl
theorem s2_v62 : after hostOps2 X (Proc.devRef .tc main_v62) = Spec.row (X (Proc.devRef .tc main_arg19)) := by
  after_results <;> rfl
theorem s2_v63 : after hostOps2 X (Proc.devRef .tc main_v63) = Spec.row1 (X (Proc.devRef .tc main_arg21)) := by
  after_results <;> rfl

theorem s3_v67 : after hostOps3 X (Proc.devRef .tc main_v67) = Spec.readout (X (Proc.devRef .tc main_v64)) (X (Proc.devRef .tc main_arg3)) := by
  after_results <;> rfl

end Stretch

/-! ## The run's boundaries -/

section Run
variable (m : (ℓ : Loc nD τ sig) → Buf (Elt F) ℓ) (ρ : Dev nD → PrngReg) (c : Dev nD)

/-! ### A buffer nothing has written yet holds its launch contents -/

/-- Written by no host operation before region 0. -/
abbrev Kept5 (r : Ref sig .tc) : Prop :=
  r ∉ hostOps0_W ∧ r ∉ hostOps0_1_W ∧ r ∉ hostOps0_2_W ∧ r ∉ hostOps0_3_W ∧ r ∉ hostOps0_4_W
/-- … and no array of region 0. -/
abbrev Kept6 (r : Ref sig .tc) : Prop := Kept5 r ∧ ∀ w, Pipeline.arrRef spec0 w ≠ r
/-- … and not written by the host operations between regions 0 and 1. -/
abbrev Kept7 (r : Ref sig .tc) : Prop := Kept6 r ∧ r ∉ hostOps1_W
/-- … and no array of region 1. -/
abbrev Kept8 (r : Ref sig .tc) : Prop := Kept7 r ∧ ∀ w, Pipeline.arrRef spec1 w ≠ r
/-- … and not written by the host operations between regions 1 and 2. -/
abbrev Kept9 (r : Ref sig .tc) : Prop := Kept8 r ∧ r ∉ hostOps2_W
/-- … and no array of region 2. -/
abbrev Kept10 (r : Ref sig .tc) : Prop := Kept9 r ∧ ∀ w, Pipeline.arrRef spec2 w ≠ r

theorem W1_kept (r : Ref sig .tc) (h : r ∉ hostOps0_W) : Gen.W1 m ρ c (Proc.devRef .tc r) = m ((c.tc : Thread nD τ).loc r) :=
  (s0_kept (Gen.W0 m ρ c) r h).trans rfl
theorem W2_kept (r : Ref sig .tc) (h : r ∉ hostOps0_W ∧ r ∉ hostOps0_1_W) : Gen.W2 m ρ c (Proc.devRef .tc r) = m ((c.tc : Thread nD τ).loc r) :=
  (s01_kept (Gen.W1 m ρ c) r h.2).trans (W1_kept m ρ c r h.1)
theorem W3_kept (r : Ref sig .tc) (h : r ∉ hostOps0_W ∧ r ∉ hostOps0_1_W ∧ r ∉ hostOps0_2_W) : Gen.W3 m ρ c (Proc.devRef .tc r) = m ((c.tc : Thread nD τ).loc r) :=
  (s02_kept (Gen.W2 m ρ c) r h.2.2).trans (W2_kept m ρ c r ⟨h.1, h.2.1⟩)
theorem W4_kept (r : Ref sig .tc) (h : r ∉ hostOps0_W ∧ r ∉ hostOps0_1_W ∧ r ∉ hostOps0_2_W ∧ r ∉ hostOps0_3_W) : Gen.W4 m ρ c (Proc.devRef .tc r) = m ((c.tc : Thread nD τ).loc r) :=
  (s03_kept (Gen.W3 m ρ c) r h.2.2.2).trans (W3_kept m ρ c r ⟨h.1, h.2.1, h.2.2.1⟩)
theorem W5_kept (r : Ref sig .tc) (h : Kept5 r) : Gen.W5 m ρ c (Proc.devRef .tc r) = m ((c.tc : Thread nD τ).loc r) :=
  (s04_kept (Gen.W4 m ρ c) r h.2.2.2.2).trans (W4_kept m ρ c r ⟨h.1, h.2.1, h.2.2.1, h.2.2.2.1⟩)
theorem W6_kept (r : Ref sig .tc) (h : Kept6 r) : Gen.W6 m ρ c (Proc.devRef .tc r) = m ((c.tc : Thread nD τ).loc r) :=
  (Gen.W6_of_ne m ρ c r h.2).trans (W5_kept m ρ c r h.1)
theorem W7_kept (r : Ref sig .tc) (h : Kept7 r) : Gen.W7 m ρ c (Proc.devRef .tc r) = m ((c.tc : Thread nD τ).loc r) :=
  (s1_kept (Gen.W6 m ρ c) r h.2).trans (W6_kept m ρ c r h.1)
theorem W8_kept (r : Ref sig .tc) (h : Kept8 r) : Gen.W8 m ρ c (Proc.devRef .tc r) = m ((c.tc : Thread nD τ).loc r) :=
  (Gen.W8_of_ne m ρ c r h.2).trans (W7_kept m ρ c r h.1)
theorem W9_kept (r : Ref sig .tc) (h : Kept9 r) : Gen.W9 m ρ c (Proc.devRef .tc r) = m ((c.tc : Thread nD τ).loc r) :=
  (s2_kept (Gen.W8 m ρ c) r h.2).trans (W8_kept m ρ c r h.1)
theorem W10_kept (r : Ref sig .tc) (h : Kept10 r) : Gen.W10 m ρ c (Proc.devRef .tc r) = m ((c.tc : Thread nD τ).loc r) :=
  (Gen.W10_of_ne m ρ c r h.2).trans (W9_kept m ρ c r h.1)

/-! ### The degree normalizers (before region 0) -/

theorem W1_v9 : Gen.W1 m ρ c (Proc.devRef .tc main_v9) = cmpf .ogt (deg (m ((c.tc : Thread nD τ).loc main_arg1))) (broadcastInDim S1000000 ![] bcast_S_S1000000 (constant (F := F) S_ .f32 0x00000000#32)) := s0_v9 (Gen.W0 m ρ c)
theorem W1_v12 : Gen.W1 m ρ c (Proc.devRef .tc main_v12) = Host.rsqrt (maximumf (deg (m ((c.tc : Thread nD τ).loc main_arg1))) (broadcastInDim S1000000 ![] bcast_S_S1000000 (constant (F := F) S_ .f32 0x3F800000#32))) := s0_v12 (Gen.W0 m ρ c)
theorem W1_cst5 : Gen.W1 m ρ c (Proc.devRef .tc main_cst_5) = (constant (F := F) S_ .f32 0x00000000#32) := s0_cst5 (Gen.W0 m ρ c)
theorem W1_v7 : Gen.W1 m ρ c (Proc.devRef .tc main_v7) = deg (m ((c.tc : Thread nD τ).loc main_arg2)) := s0_v7 (Gen.W0 m ρ c)
theorem W2_v13 : Gen.W2 m ρ c (Proc.devRef .tc main_v13) = (select (cmpf .ogt (deg (m ((c.tc : Thread nD τ).loc main_arg1))) (broadcastInDim S1000000 ![] bcast_S_S1000000 (constant (F := F) S_ .f32 0x00000000#32))) (Host.rsqrt (maximumf (deg (m ((c.tc : Thread nD τ).loc main_arg1))) (broadcastInDim S1000000 ![] bcast_S_S1000000 (constant (F := F) S_ .f32 0x3F800000#32)))) (broadcastInDim S1000000 ![] bcast_S_S1000000 (id (constant (F := F) S_ .f32 0x00000000#32)))) :=
  (s01_v13 (Gen.W1 m ρ c)).trans (by rw [W1_v9, W1_v12, W1_cst5])
theorem W2_v7 : Gen.W2 m ρ c (Proc.devRef .tc main_v7) = deg (m ((c.tc : Thread nD τ).loc main_arg2)) :=
  (s01_kept (Gen.W1 m ρ c) main_v7 (by decide)).trans (W1_v7 m ρ c)
theorem W3_v14 : Gen.W3 m ρ c (Proc.devRef .tc main_v14) = Spec.norm (m ((c.tc : Thread nD τ).loc main_arg1)) :=
  (s02_v14 (Gen.W2 m ρ c)).trans (by rw [W2_v13] <;> rfl)
theorem W3_v16 : Gen.W3 m ρ c (Proc.devRef .tc main_v16) = cmpf .ogt (deg (m ((c.tc : Thread nD τ).loc main_arg2))) (broadcastInDim S1000000 ![] bcast_S_S1000000 (constant (F := F) S_ .f32 0x00000000#32)) :=
  (s02_v16 (Gen.W2 m ρ c)).trans (by rw [W2_v7])
theorem W3_v19 : Gen.W3 m ρ c (Proc.devRef .tc main_v19) = Host.rsqrt (maximumf (deg (m ((c.tc : Thread nD τ).loc main_arg2))) (broadcastInDim S1000000 ![] bcast_S_S1000000 (constant (F := F) S_ .f32 0x3F800000#32))) :=
  (s02_v19 (Gen.W2 m ρ c)).trans (by rw [W2_v7])
theorem W3_cst8 : Gen.W3 m ρ c (Proc.devRef .tc main_cst_8) = (constant (F := F) S_ .f32 0x00000000#32) := s02_cst8 (Gen.W2 m ρ c)
theorem W4_v20 : Gen.W4 m ρ c (Proc.devRef .tc main_v20) = (select (cmpf .ogt (deg (m ((c.tc : Thread nD τ).loc main_arg2))) (broadcastInDim S1000000 ![] bcast_S_S1000000 (constant (F := F) S_ .f32 0x00000000#32))) (Host.rsqrt (maximumf (deg (m ((c.tc : Thread nD τ).loc main_arg2))) (broadcastInDim S1000000 ![] bcast_S_S1000000 (constant (F := F) S_ .f32 0x3F800000#32)))) (broadcastInDim S1000000 ![] bcast_S_S1000000 (id (constant (F := F) S_ .f32 0x00000000#32)))) :=
  (s03_v20 (Gen.W3 m ρ c)).trans (by rw [W3_v16, W3_v19, W3_cst8])
theorem W5_v14 : Gen.W5 m ρ c (Proc.devRef .tc main_v14) = Spec.norm (m ((c.tc : Thread nD τ).loc main_arg1)) :=
  (s04_kept (Gen.W4 m ρ c) main_v14 (by decide)).trans ((s03_kept (Gen.W3 m ρ c) main_v14 (by decide)).trans (W3_v14 m ρ c))
theorem W5_v21 : Gen.W5 m ρ c (Proc.devRef .tc main_v21) = Spec.norm (m ((c.tc : Thread nD τ).loc main_arg2)) :=
  (s04_v21 (Gen.W4 m ρ c)).trans (by rw [W4_v20] <;> rfl)

/-! ### (a) What region 0 finds -/

theorem V5_v14 : Gen.V5 m ρ c main_v14 = Spec.norm (m ((c.tc : Thread nD τ).loc main_arg1)) := W5_v14 m ρ c
theorem V5_v21 : Gen.V5 m ρ c main_v21 = Spec.norm (m ((c.tc : Thread nD τ).loc main_arg2)) := W5_v21 m ρ c
theorem V5_v22 : Gen.V5 m ρ c main_v22 = Spec.row (m ((c.tc : Thread nD τ).loc main_arg5)) :=
  (s04_v22 (Gen.W4 m ρ c)).trans (by rw [W4_kept m ρ c main_arg5 (by decide)])
theorem V5_v23 : Gen.V5 m ρ c main_v23 = Spec.row (m ((c.tc : Thread nD τ).loc main_arg6)) :=
  (s04_v23 (Gen.W4 m ρ c)).trans (by rw [W4_kept m ρ c main_arg6 (by decide)])
theorem V5_v24 : Gen.V5 m ρ c main_v24 = Spec.row (m ((c.tc : Thread nD τ).loc main_arg7)) :=
  (s04_v24 (Gen.W4 m ρ c)).trans (by rw [W4_kept m ρ c main_arg7 (by decide)])
theorem V5_arg0 : Gen.V5 m ρ c main_arg0 = (m ((c.tc : Thread nD τ).loc main_arg0)) := W5_kept m ρ c main_arg0 (by decide)
theorem V5_arg4 : Gen.V5 m ρ c main_arg4 = (m ((c.tc : Thread nD τ).loc main_arg4)) := W5_kept m ρ c main_arg4 (by decide)

/-! ### (b) What region 1 finds -/

theorem W6_v14 : Gen.W6 m ρ c (Proc.devRef .tc main_v14) = Spec.norm (m ((c.tc : Thread nD τ).loc main_arg1)) := (Gen.W6_of_ne m ρ c main_v14 (by decide)).trans (W5_v14 m ρ c)
theorem W6_v21 : Gen.W6 m ρ c (Proc.devRef .tc main_v21) = Spec.norm (m ((c.tc : Thread nD τ).loc main_arg2)) := (Gen.W6_of_ne m ρ c main_v21 (by decide)).trans (W5_v21 m ρ c)
theorem V7_v39 : Gen.V7 m ρ c main_v39
    = Spec.msg (Gen.W6 m ρ c (Proc.devRef .tc main_v25)) (Spec.norm (m ((c.tc : Thread nD τ).loc main_arg1))) (Spec.norm (m ((c.tc : Thread nD τ).loc main_arg2))) (m ((c.tc : Thread nD τ).loc main_arg1)) (m ((c.tc : Thread nD τ).loc main_arg2)) :=
  (s1_v39 (Gen.W6 m ρ c)).trans (by
    rw [W6_v14, W6_v21, W6_kept m ρ c main_arg1 (by decide), W6_kept m ρ c main_arg2 (by decide)])
theorem V7_v40 : Gen.V7 m ρ c main_v40 = Spec.row (m ((c.tc : Thread nD τ).loc main_arg9)) :=
  (s1_v40 (Gen.W6 m ρ c)).trans (by rw [W6_kept m ρ c main_arg9 (by decide)])
theorem V7_v41 : Gen.V7 m ρ c main_v41 = Spec.row (m ((c.tc : Thread nD τ).loc main_arg11)) :=
  (s1_v41 (Gen.W6 m ρ c)).trans (by rw [W6_kept m ρ c main_arg11 (by decide)])
theorem V7_v42 : Gen.V7 m ρ c main_v42 = Spec.row (m ((c.tc : Thread nD τ).loc main_arg12)) :=
  (s1_v42 (Gen.W6 m ρ c)).trans (by rw [W6_kept m ρ c main_arg12 (by decide)])
theorem V7_v43 : Gen.V7 m ρ c main_v43 = Spec.row (m ((c.tc : Thread nD τ).loc main_arg13)) :=
  (s1_v43 (Gen.W6 m ρ c)).trans (by rw [W6_kept m ρ c main_arg13 (by decide)])
theorem V7_arg8 : Gen.V7 m ρ c main_arg8 = (m ((c.tc : Thread nD τ).loc main_arg8)) := W7_kept m ρ c main_arg8 (by decide)
theorem V7_arg10 : Gen.V7 m ρ c main_arg10 = (m ((c.tc : Thread nD τ).loc main_arg10)) := W7_kept m ρ c main_arg10 (by decide)

/-! ### (c) What region 2 finds -/

theorem W8_v14 : Gen.W8 m ρ c (Proc.devRef .tc main_v14) = Spec.norm (m ((c.tc : Thread nD τ).loc main_arg1)) :=
  (Gen.W8_of_ne m ρ c main_v14 (by decide)).trans ((s1_kept (Gen.W6 m ρ c) main_v14 (by decide)).trans (W6_v14 m ρ c))
theorem W8_v21 : Gen.W8 m ρ c (Proc.devRef .tc main_v21) = Spec.norm (m ((c.tc : Thread nD τ).loc main_arg2)) :=
  (Gen.W8_of_ne m ρ c main_v21 (by decide)).trans ((s1_kept (Gen.W6 m ρ c) main_v21 (by decide)).trans (W6_v21 m ρ c))
theorem V9_v58 : Gen.V9 m ρ c main_v58
    = Spec.msg (Gen.W8 m ρ c (Proc.devRef .tc main_v44)) (Spec.norm (m ((c.tc : Thread nD τ).loc main_arg1))) (Spec.norm (m ((c.tc : Thread nD τ).loc main_arg2))) (m ((c.tc : Thread nD τ).loc main_arg1)) (m ((c.tc : Thread nD τ).loc main_arg2)) :=
  (s2_v58 (Gen.W8 m ρ c)).trans (by
    rw [W8_v14, W8_v21, W8_kept m ρ c main_arg1 (by decide), W8_kept m ρ c main_arg2 (by decide)])
theorem V9_v59 : Gen.V9 m ρ c main_v59 = Spec.row (m ((c.tc : Thread nD τ).loc main_arg15)) :=
  (s2_v59 (Gen.W8 m ρ c)).trans (by rw [W8_kept m ρ c main_arg15 (by decide)])
theorem V9_v60 : Gen.V9 m ρ c main_v60 = Spec.row (m ((c.tc : Thread nD τ).loc main_arg17)) :=
  (s2_v60 (Gen.W8 m ρ c)).trans (by rw [W8_kept m ρ c main_arg17 (by decide)])
theorem V9_v61 : Gen.V9 m ρ c main_v61 = Spec.row (m ((c.tc : Thread nD τ).loc main_arg18)) :=
  (s2_v61 (Gen.W8 m ρ c)).trans (by rw [W8_kept m ρ c main_arg18 (by decide)])
theorem V9_v62 : Gen.V9 m ρ c main_v62 = Spec.row (m ((c.tc : Thread nD τ).loc main_arg19)) :=
  (s2_v62 (Gen.W8 m ρ c)).trans (by rw [W8_kept m ρ c main_arg19 (by decide)])
theorem V9_v63 : Gen.V9 m ρ c main_v63 = Spec.row1 (m ((c.tc : Thread nD τ).loc main_arg21)) :=
  (s2_v63 (Gen.W8 m ρ c)).trans (by rw [W8_kept m ρ c main_arg21 (by decide)])
theorem V9_arg14 : Gen.V9 m ρ c main_arg14 = (m ((c.tc : Thread nD τ).loc main_arg14)) := W9_kept m ρ c main_arg14 (by decide)
theorem V9_arg16 : Gen.V9 m ρ c main_arg16 = (m ((c.tc : Thread nD τ).loc main_arg16)) := W9_kept m ρ c main_arg16 (by decide)
theorem V9_arg20 : Gen.V9 m ρ c main_arg20 = (m ((c.tc : Thread nD τ).loc main_arg20)) := W9_kept m ρ c main_arg20 (by decide)

/-! ### (d) The result: the readout of region 2's output -/

theorem W11_v67 : Gen.W11 m ρ c (Proc.devRef .tc main_v67) = Spec.readout (Gen.W10 m ρ c (Proc.devRef .tc main_v64)) (m ((c.tc : Thread nD τ).loc main_arg3)) :=
  (s3_v67 (Gen.W10 m ρ c)).trans (by rw [W10_kept m ρ c main_arg3 (by decide)])

/-! ### (e) Each region's output array is what its pipeline leaves -/

theorem W6_v25 : Gen.W6 m ρ c (Proc.devRef .tc main_v25) = (Gen.dat0 (Gen.V5 m ρ) c).arrAt 5 cfg0.N := Gen.W6_arr m ρ c 5
theorem W8_v44 : Gen.W8 m ρ c (Proc.devRef .tc main_v44) = (Gen.dat1 (Gen.V7 m ρ) c).arrAt 7 cfg1.N := Gen.W8_arr m ρ c 7
theorem W10_v64 : Gen.W10 m ρ c (Proc.devRef .tc main_v64) = (Gen.dat2 (Gen.V9 m ρ) c).arrAt 9 cfg2.N := Gen.W10_arr m ρ c 9

end Run

/-- info: 'Cert.KernelIdeal.KHost.V7_v39' depends on axioms: [propext, Classical.choice, Quot.sound] -/
#guard_msgs in #print axioms V7_v39
/-- info: 'Cert.KernelIdeal.KHost.V9_v58' depends on axioms: [propext, Classical.choice, Quot.sound] -/
#guard_msgs in #print axioms V9_v58
/-- info: 'Cert.KernelIdeal.KHost.W11_v67' depends on axioms: [propext, Classical.choice, Quot.sound] -/
#guard_msgs in #print axioms W11_v67

end Cert.KernelIdeal.KHost

end
-- ==== Proof.KSpec.lean ====
/-
  The three kernel bodies on one block of 20000 rows, as compositions of a dense layer (a matrix product onto a zero
  accumulator plus a bias row laid down the rows), layer normalization of each row (lane sums divided by 32) and ELU,
  written with the kernels' own operations; each body's stored value IS such a composition, by unfolding.
-/
import proofs.«146749_j85624468013347_2_alg».proof.Proof.Gen.KernelIdeal.Skeleton

noncomputable section

namespace Cert.KernelIdeal.KSpec

open Idealize.ShloMosaic Cert.KernelIdeal Cert.KernelIdeal.Gen

variable {F : FTy → Type} [FloatOps F]

/-- A bias or scale row laid down the 20000 rows of a block. -/
def rowsB (b : FVec F S1x32 .f32) : FVec F S20000x32 .f32 :=
  broadcastTo S20000x32 (shapeCast S1x32 b shapeCasts_S1x32_S1x32) broadcasts_S1x32_S20000x32

/-- A column laid along the 32 lanes. -/
def colsB (c : FVec F S20000x1 .f32) : FVec F S20000x32 .f32 :=
  broadcastTo S20000x32 c broadcasts_S20000x1_S20000x32

/-- ELU of a block. -/
def elu (z : FVec F S20000x32 .f32) : FVec F S20000x32 .f32 :=
  select (cmpf .ogt z (broadcast S20000x32 (Scalar.ofBits .f32 0x00000000#32))) z
    (subf (exp z) (broadcast S20000x32 (Scalar.ofBits .f32 0x3F800000#32)))

/-- ELU of a column. -/
def elu1 (z : FVec F S20000x1 .f32) : FVec F S20000x1 .f32 :=
  select (cmpf .ogt z (broadcast S20000x1 (Scalar.ofBits .f32 0x00000000#32))) z
    (subf (exp z) (broadcast S20000x1 (Scalar.ofBits .f32 0x3F800000#32)))

/-- The input dense layer of a block, 64 features to 32. -/
def dense0 (x : FVec F S20000x64 .f32) (w : FVec F S64x32 .f32) (b : FVec F S1x32 .f32) : FVec F S20000x32 .f32 :=
  addf (matmul dot_S20000x64_S64x32_S20000x32_1_0_0_1_n_n none (truncf .bf16 x bitsLt_bf16_f32) (truncf .bf16 w bitsLt_bf16_f32)
    (constant S20000x32 .f32 0x00000000#32)) (rowsB b)

/-- A dense layer of a block, 32 features to 32. -/
def dense (x : FVec F S20000x32 .f32) (w : FVec F S32x32 .f32) (b : FVec F S1x32 .f32) : FVec F S20000x32 .f32 :=
  addf (matmul dot_S20000x32_S32x32_S20000x32_1_0_0_1_n_n none (truncf .bf16 x bitsLt_bf16_f32) (truncf .bf16 w bitsLt_bf16_f32)
    (constant S20000x32 .f32 0x00000000#32)) (rowsB b)

/-- The head of a block, 32 features to one. -/
def denseOut (x : FVec F S20000x32 .f32) (w : FVec F S32x1 .f32) (b : FVec F S1x1 .f32) : FVec F S20000x1 .f32 :=
  addf (matmul dot_S20000x32_S32x1_S20000x1_1_0_0_1_n_n none (truncf .bf16 x bitsLt_bf16_f32) (truncf .bf16 w bitsLt_bf16_f32)
    (constant S20000x1 .f32 0x00000000#32)) (broadcastTo S20000x1 (shapeCast S1x1 b shapeCasts_S1x1_S1x1) broadcasts_S1x1_S20000x1)

/-- The mean of each row's 32 entries, as a column. -/
def rowMean (y : FVec F S20000x32 .f32) : FVec F S20000x1 .f32 :=
  divf (shapeCast S20000x1 (multiReduction .add [1] S20000 y 0x00000000#32 reduces_S20000x32_S20000 (.inl rfl) rfl) shapeCasts_S20000_S20000x1)
    (broadcast S20000x1 (Scalar.ofBits .f32 0x42000000#32))

/-- Layer normalization of each row of a block. -/
def ln (y : FVec F S20000x32 .f32) (g be : FVec F S1x32 .f32) : FVec F S20000x32 .f32 :=
  addf
    (mulf
      (mulf (subf y (colsB (rowMean y)))
        (colsB (rsqrt (addf (rowMean (mulf (subf y (colsB (rowMean y))) (subf y (colsB (rowMean y)))))
          (broadcast S20000x1 (Scalar.ofBits .f32 0x3727C5AC#32))))))
      (rowsB g))
    (rowsB be)

/-- The input kernel's stored value. -/
theorem pay0_eq (x : Vec F S20000x64 .f32) (w : Vec F S64x32 .f32) (b g be : Vec F S1x32 .f32) :
    k0_pay1 x w b g be = elu (ln (dense0 x w b) g be) := rfl

/-- The block kernel's stored value. -/
theorem pay1_eq (x : Vec F S20000x32 .f32) (wc : Vec F S32x32 .f32) (bc : Vec F S1x32 .f32) (w : Vec F S32x32 .f32)
    (b g be : Vec F S1x32 .f32) :
    k1_pay1 (k1_pay2 x wc bc w b) (k1_pay3 g) (k1_pay4 be) (k1_pay5 x wc bc w b) (k1_pay6 x wc bc w b) (Scalar.ofBits .f32 0x42000000#32)
      = elu (ln (dense (elu (dense (shapeCast S20000x32 x shapeCasts_S20000x32_S20000x32) wc bc)) w b) g be) := rfl

/-- The last kernel's stored value. -/
theorem pay2_eq (x : Vec F S20000x32 .f32) (wc : Vec F S32x32 .f32) (bc : Vec F S1x32 .f32) (w : Vec F S32x32 .f32)
    (b g be : Vec F S1x32 .f32) (wout : Vec F S32x1 .f32) (bout : Vec F S1x1 .f32) :
    k2_pay1 (k2_pay2 x wc bc w b) (k2_pay3 g) (k2_pay4 be) (k2_pay5 x wc bc w b) (k2_pay6 x wc bc w b) (Scalar.ofBits .f32 0x42000000#32) wout bout
      = elu1 (denseOut (elu (ln (dense (elu (dense (shapeCast S20000x32 x shapeCasts_S20000x32_S20000x32) wc bc)) w b) g be)) wout bout) := rfl

end Cert.KernelIdeal.KSpec

end
-- ==== Proof.Math.lean ====
/-
  The three networks on one node's feature row, over the extended reals: a dense layer `x · w + b`, layer
  normalization of a row of 32 entries (mean and mean squared deviation by division by 32, the deviation scaled by
  `rsqrt (var + ε)`, then by `g`, shifted by `be`), and ELU (`z` where `z > 0`, `exp z − 1` elsewhere). Both programs
  compute these, entry by entry, with no difference but the spelling; nothing here needs a finite input.
-/
import Idealize.ShloMosaic.PureOps.Ideal
import Idealize.ShloMosaic.Lib.ValueIdx

noncomputable section

open scoped BigOperators

namespace Cert.Math

open Idealize.ShloMosaic

/-- The divisor 32, the variance offset, zero and one, as the programs' literals denote them. -/
abbrev c32 : EReal := Ideal.ofBits .f32 0x42000000#32
abbrev ceps : EReal := Ideal.ofBits .f32 0x3727C5AC#32
abbrev c0 : EReal := Ideal.ofBits .f32 0x00000000#32

/-- A dense layer on one row: entry `j` is `∑ k, x k · w k j + b j`. -/
def dense {K M : ℕ} (x : Fin K → EReal) (w : Fin K → Fin M → EReal) (b : Fin M → EReal) (j : Fin M) : EReal :=
  (∑ k : Fin K, x k * w k j) + b j

/-- The mean of a row of 32 entries. -/
def mean (y : Fin 32 → EReal) : EReal := Ideal.div (∑ k : Fin 32, y k) c32

/-- Layer normalization of a row of 32 entries. -/
def lnorm (y g be : Fin 32 → EReal) (j : Fin 32) : EReal :=
  (y j - mean y) * Ideal.rsqrt (mean (fun k => (y k - mean y) * (y k - mean y)) + ceps) * g j + be j

/-- ELU on one entry. -/
def elu (z : EReal) : EReal :=
  Scalar.select (FloatOps.cmpf (F := Ideal) (φ := .f32) .ogt z c0) z (Ideal.exp z - 1)

/-- The input network on one row of 64 features. -/
def mlp0 (x : Fin 64 → EReal) (w : Fin 64 → Fin 32 → EReal) (b g be : Fin 32 → EReal) (j : Fin 32) : EReal :=
  elu (lnorm (dense x w b) g be j)

/-- A block on one row of 32 features: dense + ELU, then dense + layer normalization + ELU. -/
def blk (x : Fin 32 → EReal) (wc : Fin 32 → Fin 32 → EReal) (bc : Fin 32 → EReal) (w : Fin 32 → Fin 32 → EReal)
    (b g be : Fin 32 → EReal) (j : Fin 32) : EReal :=
  elu (lnorm (dense (fun k => elu (dense x wc bc k)) w b) g be j)

/-- The second block followed by the one-column head and its ELU. -/
def blk2 (x : Fin 32 → EReal) (wc : Fin 32 → Fin 32 → EReal) (bc : Fin 32 → EReal) (w : Fin 32 → Fin 32 → EReal)
    (b g be : Fin 32 → EReal) (wout : Fin 32 → Fin 1 → EReal) (bout : Fin 1 → EReal) : EReal :=
  elu (dense (blk x wc bc w b g be) wout bout 0)

end Cert.Math

end
-- ==== Proof.KIdx.lean ====
/-
  The kernels' block values read at an index: row `p`, lane `q` of a block is the row network of `Math` applied to
  row `p` of the block's operand — a matrix product onto a zero accumulator is the sum over the shared coordinate, a
  lane reduction the sum over the 32 lanes, the bias and scale rows and the mean and scale columns are read where the
  broadcasts put them, and the format changes are the identity on extended reals.
-/
import proofs.«146749_j85624468013347_2_alg».proof.Proof.KSpec
import proofs.«146749_j85624468013347_2_alg».proof.Proof.Math
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.KernelIdeal.KIdx

open Idealize.ShloMosaic Idealize.ShloMosaic.ValueIdx Cert.KernelIdeal Cert.KernelIdeal.Gen Cert.KernelIdeal.KSpec

/-- A row laid down the rows of a block reads, at `(p, q)`, the row at `q`. -/
theorem rowsB_apply (b : FVec Ideal S1x32 .f32) (p : Fin 20000) (q : Fin 32) :
    rowsB b (ix2 p q) = b (ix2 (0 : Fin 1) q) := by
  unfold rowsB
  rw [shapeCast_self]
  exact broadcastTo_1b_ab_apply b _ p q

/-- A column laid along the lanes reads, at `(p, q)`, the column at `p`. -/
theorem colsB_apply (c : FVec Ideal S20000x1 .f32) (p : Fin 20000) (q : Fin 32) :
    colsB c (ix2 p q) = c (ix2 p (0 : Fin 1)) := by
  unfold colsB
  refine broadcastTo_apply c _ (ix2 p q) (ix2 p (0 : Fin 1)) fun ax => ?_
  match ax with
  | ⟨0, _⟩ => rfl
  | ⟨1, _⟩ => rfl

/-- The lane sum of a block, kept as a column, is at row `p` the sum of the row's 32 entries. -/
theorem rowSum_apply (y : FVec Ideal S20000x32 .f32) (p : Fin 20000) :
    shapeCast S20000x1 (multiReduction .add [1] S20000 y 0x00000000#32 reduces_S20000x32_S20000 (.inl rfl) rfl) shapeCasts_S20000_S20000x1 (ix2 p (0 : Fin 1))
      = ∑ k : Fin 32, y (ix2 p k) := by
  rw [shapeCast_apply _ _ (ix2 p (0 : Fin 1)) (ix1 p) (by rw [Shape.rowMajor_val_two, Shape.rowMajor_val_one]; show p.val = p.val * 1 + 0; omega)]
  refine (Ideal.multiReduction_add_single y 0x00000000#32 reduces_S20000x32_S20000 (.inl rfl) rfl (ix1 p)).trans ?_
  refine Finset.sum_congr rfl fun k _ => ?_
  exact congrArg y (funext fun a => Fin.ext (by match a with | ⟨0, _⟩ => rfl | ⟨1, _⟩ => rfl))

theorem mm0_l0 (i : (⟨2, ![20000, 32]⟩ : Shape).Idx) (q : dot_S20000x64_S64x32_S20000x32_1_0_0_1_n_n.contr.Idx) : (dot_S20000x64_S64x32_S20000x32_1_0_0_1_n_n.lhsIdx i q 0).val = (i 0).val := by
  unfold DotDims.lhsIdx
  rw [dif_neg (show ¬(0 : Fin S20000x64.rank) ∈ dot_S20000x64_S64x32_S20000x32_1_0_0_1_n_n.lhsBatch by decide), dif_pos (show (0 : Fin S20000x64.rank) ∈ dot_S20000x64_S64x32_S20000x32_1_0_0_1_n_n.lhsNonContracting by decide)]
  rfl
theorem mm0_l1 (i : (⟨2, ![20000, 32]⟩ : Shape).Idx) (q : dot_S20000x64_S64x32_S20000x32_1_0_0_1_n_n.contr.Idx) : (dot_S20000x64_S64x32_S20000x32_1_0_0_1_n_n.lhsIdx i q 1).val = (q ⟨0, by decide⟩).val :=
  dot_S20000x64_S64x32_S20000x32_1_0_0_1_n_n.lhsIdx_val_of_single rfl i q
theorem mm0_r0 (i : (⟨2, ![20000, 32]⟩ : Shape).Idx) (q : dot_S20000x64_S64x32_S20000x32_1_0_0_1_n_n.contr.Idx) : (dot_S20000x64_S64x32_S20000x32_1_0_0_1_n_n.rhsIdx i q 0).val = (q ⟨0, by decide⟩).val :=
  dot_S20000x64_S64x32_S20000x32_1_0_0_1_n_n.rhsIdx_val_of_single rfl i q
theorem mm0_r1 (i : (⟨2, ![20000, 32]⟩ : Shape).Idx) (q : dot_S20000x64_S64x32_S20000x32_1_0_0_1_n_n.contr.Idx) : (dot_S20000x64_S64x32_S20000x32_1_0_0_1_n_n.rhsIdx i q 1).val = (i 1).val := by
  unfold DotDims.rhsIdx
  rw [dif_neg (show ¬(1 : Fin S64x32.rank) ∈ dot_S20000x64_S64x32_S20000x32_1_0_0_1_n_n.rhsBatch by decide), dif_pos (show (1 : Fin S64x32.rank) ∈ dot_S20000x64_S64x32_S20000x32_1_0_0_1_n_n.rhsNonContracting by decide)]
  rfl

/-- The contraction of row `p` of the left operand with column `q` of the right one, as a sum over the 64 shared
    coordinates. -/
theorem mm0_sum (x : (⟨2, ![20000, 64]⟩ : Shape).Idx → EReal) (w : (⟨2, ![64, 32]⟩ : Shape).Idx → EReal) (p : Fin 20000) (q : Fin 32) :
    (∑ k : dot_S20000x64_S64x32_S20000x32_1_0_0_1_n_n.contr.Idx, x (dot_S20000x64_S64x32_S20000x32_1_0_0_1_n_n.lhsIdx (ix2 p q) k) * w (dot_S20000x64_S64x32_S20000x32_1_0_0_1_n_n.rhsIdx (ix2 p q) k))
      = ∑ k : Fin 64, x (ix2 p k) * w (ix2 k q) := by
  rw [← Equiv.sum_comp (contrEquiv1 dot_S20000x64_S64x32_S20000x32_1_0_0_1_n_n 64 rfl rfl).symm]
  refine Finset.sum_congr rfl fun k _ => ?_
  have hk := contrEquiv1_symm_val dot_S20000x64_S64x32_S20000x32_1_0_0_1_n_n 64 rfl rfl k
  have el : dot_S20000x64_S64x32_S20000x32_1_0_0_1_n_n.lhsIdx (ix2 p q) ((contrEquiv1 dot_S20000x64_S64x32_S20000x32_1_0_0_1_n_n 64 rfl rfl).symm k) = ix2 p k := funext fun a => Fin.ext (by
    match a with
    | ⟨0, _⟩ => exact mm0_l0 _ _
    | ⟨1, _⟩ => exact (mm0_l1 _ _).trans hk)
  have er : dot_S20000x64_S64x32_S20000x32_1_0_0_1_n_n.rhsIdx (ix2 p q) ((contrEquiv1 dot_S20000x64_S64x32_S20000x32_1_0_0_1_n_n 64 rfl rfl).symm k) = ix2 k q := funext fun a => Fin.ext (by
    match a with
    | ⟨0, _⟩ => exact (mm0_r0 _ _).trans hk
    | ⟨1, _⟩ => exact mm0_r1 _ _)
  rw [el, er]

theorem mm1_l0 (i : (⟨2, ![20000, 32]⟩ : Shape).Idx) (q : dot_S20000x32_S32x32_S20000x32_1_0_0_1_n_n.contr.Idx) : (dot_S20000x32_S32x32_S20000x32_1_0_0_1_n_n.lhsIdx i q 0).val = (i 0).val := by
  unfold DotDims.lhsIdx
  rw [dif_neg (show ¬(0 : Fin S20000x32.rank) ∈ dot_S20000x32_S32x32_S20000x32_1_0_0_1_n_n.lhsBatch by decide), dif_pos (show (0 : Fin S20000x32.rank) ∈ dot_S20000x32_S32x32_S20000x32_1_0_0_1_n_n.lhsNonContracting by decide)]
  rfl
theorem mm1_l1 (i : (⟨2, ![20000, 32]⟩ : Shape).Idx) (q : dot_S20000x32_S32x32_S20000x32_1_0_0_1_n_n.contr.Idx) : (dot_S20000x32_S32x32_S20000x32_1_0_0_1_n_n.lhsIdx i q 1).val = (q ⟨0, by decide⟩).val :=
  dot_S20000x32_S32x32_S20000x32_1_0_0_1_n_n.lhsIdx_val_of_single rfl i q
theorem mm1_r0 (i : (⟨2, ![20000, 32]⟩ : Shape).Idx) (q : dot_S20000x32_S32x32_S20000x32_1_0_0_1_n_n.contr.Idx) : (dot_S20000x32_S32x32_S20000x32_1_0_0_1_n_n.rhsIdx i q 0).val = (q ⟨0, by decide⟩).val :=
  dot_S20000x32_S32x32_S20000x32_1_0_0_1_n_n.rhsIdx_val_of_single rfl i q
theorem mm1_r1 (i : (⟨2, ![20000, 32]⟩ : Shape).Idx) (q : dot_S20000x32_S32x32_S20000x32_1_0_0_1_n_n.contr.Idx) : (dot_S20000x32_S32x32_S20000x32_1_0_0_1_n_n.rhsIdx i q 1).val = (i 1).val := by
  unfold DotDims.rhsIdx
  rw [dif_neg (show ¬(1 : Fin S32x32.rank) ∈ dot_S20000x32_S32x32_S20000x32_1_0_0_1_n_n.rhsBatch by decide), dif_pos (show (1 : Fin S32x32.rank) ∈ dot_S20000x32_S32x32_S20000x32_1_0_0_1_n_n.rhsNonContracting by decide)]
  rfl

/-- The contraction of row `p` of the left operand with column `q` of the right one, as a sum over the 32 shared
    coordinates. -/
theorem mm1_sum (x : (⟨2, ![20000, 32]⟩ : Shape).Idx → EReal) (w : (⟨2, ![32, 32]⟩ : Shape).Idx → EReal) (p : Fin 20000) (q : Fin 32) :
    (∑ k : dot_S20000x32_S32x32_S20000x32_1_0_0_1_n_n.contr.Idx, x (dot_S20000x32_S32x32_S20000x32_1_0_0_1_n_n.lhsIdx (ix2 p q) k) * w (dot_S20000x32_S32x32_S20000x32_1_0_0_1_n_n.rhsIdx (ix2 p q) k))
      = ∑ k : Fin 32, x (ix2 p k) * w (ix2 k q) := by
  rw [← Equiv.sum_comp (contrEquiv1 dot_S20000x32_S32x32_S20000x32_1_0_0_1_n_n 32 rfl rfl).symm]
  refine Finset.sum_congr rfl fun k _ => ?_
  have hk := contrEquiv1_symm_val dot_S20000x32_S32x32_S20000x32_1_0_0_1_n_n 32 rfl rfl k
  have el : dot_S20000x32_S32x32_S20000x32_1_0_0_1_n_n.lhsIdx (ix2 p q) ((contrEquiv1 dot_S20000x32_S32x32_S20000x32_1_0_0_1_n_n 32 rfl rfl).symm k) = ix2 p k := funext fun a => Fin.ext (by
    match a with
    | ⟨0, _⟩ => exact mm1_l0 _ _
    | ⟨1, _⟩ => exact (mm1_l1 _ _).trans hk)
  have er : dot_S20000x32_S32x32_S20000x32_1_0_0_1_n_n.rhsIdx (ix2 p q) ((contrEquiv1 dot_S20000x32_S32x32_S20000x32_1_0_0_1_n_n 32 rfl rfl).symm k) = ix2 k q := funext fun a => Fin.ext (by
    match a with
    | ⟨0, _⟩ => exact (mm1_r0 _ _).trans hk
    | ⟨1, _⟩ => exact mm1_r1 _ _)
  rw [el, er]

theorem mm2_l0 (i : (⟨2, ![20000, 1]⟩ : Shape).Idx) (q : dot_S20000x32_S32x1_S20000x1_1_0_0_1_n_n.contr.Idx) : (dot_S20000x32_S32x1_S20000x1_1_0_0_1_n_n.lhsIdx i q 0).val = (i 0).val := by
  unfold DotDims.lhsIdx
  rw [dif_neg (show ¬(0 : Fin S20000x32.rank) ∈ dot_S20000x32_S32x1_S20000x1_1_0_0_1_n_n.lhsBatch by decide), dif_pos (show (0 : Fin S20000x32.rank) ∈ dot_S20000x32_S32x1_S20000x1_1_0_0_1_n_n.lhsNonContracting by decide)]
  rfl
theorem mm2_l1 (i : (⟨2, ![20000, 1]⟩ : Shape).Idx) (q : dot_S20000x32_S32x1_S20000x1_1_0_0_1_n_n.contr.Idx) : (dot_S20000x32_S32x1_S20000x1_1_0_0_1_n_n.lhsIdx i q 1).val = (q ⟨0, by decide⟩).val :=
  dot_S20000x32_S32x1_S20000x1_1_0_0_1_n_n.lhsIdx_val_of_single rfl i q
theorem mm2_r0 (i : (⟨2, ![20000, 1]⟩ : Shape).Idx) (q : dot_S20000x32_S32x1_S20000x1_1_0_0_1_n_n.contr.Idx) : (dot_S20000x32_S32x1_S20000x1_1_0_0_1_n_n.rhsIdx i q 0).val = (q ⟨0, by decide⟩).val :=
  dot_S20000x32_S32x1_S20000x1_1_0_0_1_n_n.rhsIdx_val_of_single rfl i q
theorem mm2_r1 (i : (⟨2, ![20000, 1]⟩ : Shape).Idx) (q : dot_S20000x32_S32x1_S20000x1_1_0_0_1_n_n.contr.Idx) : (dot_S20000x32_S32x1_S20000x1_1_0_0_1_n_n.rhsIdx i q 1).val = (i 1).val := by
  unfold DotDims.rhsIdx
  rw [dif_neg (show ¬(1 : Fin S32x1.rank) ∈ dot_S20000x32_S32x1_S20000x1_1_0_0_1_n_n.rhsBatch by decide), dif_pos (show (1 : Fin S32x1.rank) ∈ dot_S20000x32_S32x1_S20000x1_1_0_0_1_n_n.rhsNonContracting by decide)]
  rfl

/-- The contraction of row `p` of the left operand with column `q` of the right one, as a sum over the 32 shared
    coordinates. -/
theorem mm2_sum (x : (⟨2, ![20000, 32]⟩ : Shape).Idx → EReal) (w : (⟨2, ![32, 1]⟩ : Shape).Idx → EReal) (p : Fin 20000) (q : Fin 1) :
    (∑ k : dot_S20000x32_S32x1_S20000x1_1_0_0_1_n_n.contr.Idx, x (dot_S20000x32_S32x1_S20000x1_1_0_0_1_n_n.lhsIdx (ix2 p q) k) * w (dot_S20000x32_S32x1_S20000x1_1_0_0_1_n_n.rhsIdx (ix2 p q) k))
      = ∑ k : Fin 32, x (ix2 p k) * w (ix2 k q) := by
  rw [← Equiv.sum_comp (contrEquiv1 dot_S20000x32_S32x1_S20000x1_1_0_0_1_n_n 32 rfl rfl).symm]
  refine Finset.sum_congr rfl fun k _ => ?_
  have hk := contrEquiv1_symm_val dot_S20000x32_S32x1_S20000x1_1_0_0_1_n_n 32 rfl rfl k
  have el : dot_S20000x32_S32x1_S20000x1_1_0_0_1_n_n.lhsIdx (ix2 p q) ((contrEquiv1 dot_S20000x32_S32x1_S20000x1_1_0_0_1_n_n 32 rfl rfl).symm k) = ix2 p k := funext fun a => Fin.ext (by
    match a with
    | ⟨0, _⟩ => exact mm2_l0 _ _
    | ⟨1, _⟩ => exact (mm2_l1 _ _).trans hk)
  have er : dot_S20000x32_S32x1_S20000x1_1_0_0_1_n_n.rhsIdx (ix2 p q) ((contrEquiv1 dot_S20000x32_S32x1_S20000x1_1_0_0_1_n_n 32 rfl rfl).symm k) = ix2 k q := funext fun a => Fin.ext (by
    match a with
    | ⟨0, _⟩ => exact (mm2_r0 _ _).trans hk
    | ⟨1, _⟩ => exact mm2_r1 _ _)
  rw [el, er]

/-- The reciprocal square root and the exponential of a block are taken entry by entry. -/
theorem rsqrt_apply {s : Shape} (v : FVec Ideal s .f32) (i : s.Idx) : rsqrt v i = Ideal.rsqrt (v i) := rfl
theorem exp_apply {s : Shape} (v : FVec Ideal s .f32) (i : s.Idx) : exp v i = Ideal.exp (v i) := rfl

/-- The input dense layer of a block at `(p, q)`. -/
theorem dense0_apply (x : FVec Ideal S20000x64 .f32) (w : FVec Ideal S64x32 .f32) (b : FVec Ideal S1x32 .f32) (p : Fin 20000) (q : Fin 32) :
    dense0 x w b (ix2 p q)
      = Math.dense (fun k => x (ix2 p k)) (fun k j => w (ix2 k j)) (fun j => b (ix2 (0 : Fin 1) j)) q := by
  unfold dense0 Math.dense
  rw [addf_apply, rowsB_apply]
  refine congrArg (· + _) ?_
  refine (Ideal.matmul_constant_zero_apply _ none _ _ (ix2 p q)).trans ?_
  exact mm0_sum _ _ p q

/-- A dense layer of a block at `(p, q)`. -/
theorem dense_apply (x : FVec Ideal S20000x32 .f32) (w : FVec Ideal S32x32 .f32) (b : FVec Ideal S1x32 .f32) (p : Fin 20000) (q : Fin 32) :
    dense x w b (ix2 p q)
      = Math.dense (fun k => x (ix2 p k)) (fun k j => w (ix2 k j)) (fun j => b (ix2 (0 : Fin 1) j)) q := by
  unfold dense Math.dense
  rw [addf_apply, rowsB_apply]
  refine congrArg (· + _) ?_
  refine (Ideal.matmul_constant_zero_apply _ none _ _ (ix2 p q)).trans ?_
  exact mm1_sum _ _ p q

/-- The head of a block at row `p`. -/
theorem denseOut_apply (x : FVec Ideal S20000x32 .f32) (w : FVec Ideal S32x1 .f32) (b : FVec Ideal S1x1 .f32) (p : Fin 20000) :
    denseOut x w b (ix2 p (0 : Fin 1))
      = Math.dense (fun k => x (ix2 p k)) (fun k j => w (ix2 k j)) (fun j => b (ix2 (0 : Fin 1) j)) (0 : Fin 1) := by
  unfold denseOut Math.dense
  rw [addf_apply, shapeCast_self, broadcastTo_1b_ab_apply]
  refine congrArg (· + _) ?_
  refine (Ideal.matmul_constant_zero_apply _ none _ _ (ix2 p (0 : Fin 1))).trans ?_
  exact mm2_sum _ _ p 0

/-- The mean column of a block at row `p`. -/
theorem rowMean_apply (y : FVec Ideal S20000x32 .f32) (p : Fin 20000) :
    rowMean y (ix2 p (0 : Fin 1)) = Math.mean (fun k => y (ix2 p k)) := by
  unfold rowMean Math.mean
  rw [divf_apply, rowSum_apply]
  rfl

/-- Layer normalization of a block at `(p, q)`. -/
theorem ln_apply (y : FVec Ideal S20000x32 .f32) (g be : FVec Ideal S1x32 .f32) (p : Fin 20000) (q : Fin 32) :
    ln y g be (ix2 p q)
      = Math.lnorm (fun k => y (ix2 p k)) (fun j => g (ix2 (0 : Fin 1) j)) (fun j => be (ix2 (0 : Fin 1) j)) q := by
  unfold ln Math.lnorm
  rw [addf_apply, mulf_apply, mulf_apply, subf_apply, rowsB_apply, rowsB_apply, colsB_apply, colsB_apply, rowMean_apply,
    rsqrt_apply, addf_apply, rowMean_apply]
  simp only [mulf_apply, subf_apply, colsB_apply, rowMean_apply]
  rfl

/-- ELU of a block, entry by entry. -/
theorem elu_apply (z : FVec Ideal S20000x32 .f32) (i : S20000x32.Idx) : elu z i = Math.elu (z i) := by
  unfold elu Math.elu
  rw [select_apply, cmpf_apply, subf_apply, exp_apply, broadcast_apply, broadcast_apply]
  show Scalar.select (FloatOps.cmpf .ogt (z i) (Ideal.ofBits .f32 0x00000000#32)) (z i) (Ideal.exp (z i) - Ideal.ofBits .f32 0x3F800000#32) = _
  rw [Ideal.ofBits_one_f32]

/-- ELU of a column, entry by entry. -/
theorem elu1_apply (z : FVec Ideal S20000x1 .f32) (i : S20000x1.Idx) : elu1 z i = Math.elu (z i) := by
  unfold elu1 Math.elu
  rw [select_apply, cmpf_apply, subf_apply, exp_apply, broadcast_apply, broadcast_apply]
  show Scalar.select (FloatOps.cmpf .ogt (z i) (Ideal.ofBits .f32 0x00000000#32)) (z i) (Ideal.exp (z i) - Ideal.ofBits .f32 0x3F800000#32) = _
  rw [Ideal.ofBits_one_f32]

/-- The input kernel's block at `(p, q)`: the input network of row `p`. -/
theorem net0_apply (x : FVec Ideal S20000x64 .f32) (w : FVec Ideal S64x32 .f32) (b g be : FVec Ideal S1x32 .f32) (p : Fin 20000) (q : Fin 32) :
    elu (ln (dense0 x w b) g be) (ix2 p q)
      = Math.mlp0 (fun k => x (ix2 p k)) (fun k j => w (ix2 k j)) (fun j => b (ix2 (0 : Fin 1) j))
          (fun j => g (ix2 (0 : Fin 1) j)) (fun j => be (ix2 (0 : Fin 1) j)) q := by
  unfold Math.mlp0
  rw [elu_apply, ln_apply]
  simp only [dense0_apply]

/-- The block kernel's block at `(p, q)`: the block network of row `p`. -/
theorem net1_apply (x : FVec Ideal S20000x32 .f32) (wc : FVec Ideal S32x32 .f32) (bc : FVec Ideal S1x32 .f32) (w : FVec Ideal S32x32 .f32)
    (b g be : FVec Ideal S1x32 .f32) (p : Fin 20000) (q : Fin 32) :
    elu (ln (dense (elu (dense x wc bc)) w b) g be) (ix2 p q)
      = Math.blk (fun k => x (ix2 p k)) (fun k j => wc (ix2 k j)) (fun j => bc (ix2 (0 : Fin 1) j)) (fun k j => w (ix2 k j))
          (fun j => b (ix2 (0 : Fin 1) j)) (fun j => g (ix2 (0 : Fin 1) j)) (fun j => be (ix2 (0 : Fin 1) j)) q := by
  unfold Math.blk
  rw [elu_apply, ln_apply]
  simp only [dense_apply, elu_apply]

/-- The last kernel's block at row `p`: the second block network and the head of row `p`. -/
theorem net2_apply (x : FVec Ideal S20000x32 .f32) (wc : FVec Ideal S32x32 .f32) (bc : FVec Ideal S1x32 .f32) (w : FVec Ideal S32x32 .f32)
    (b g be : FVec Ideal S1x32 .f32) (wout : FVec Ideal S32x1 .f32) (bout : FVec Ideal S1x1 .f32) (p : Fin 20000) :
    elu1 (denseOut (elu (ln (dense (elu (dense x wc bc)) w b) g be)) wout bout) (ix2 p (0 : Fin 1))
      = Math.blk2 (fun k => x (ix2 p k)) (fun k j => wc (ix2 k j)) (fun j => bc (ix2 (0 : Fin 1) j)) (fun k j => w (ix2 k j))
          (fun j => b (ix2 (0 : Fin 1) j)) (fun j => g (ix2 (0 : Fin 1) j)) (fun j => be (ix2 (0 : Fin 1) j))
          (fun k j => wout (ix2 k j)) (fun j => bout (ix2 (0 : Fin 1) j)) := by
  unfold Math.blk2
  rw [elu1_apply, denseOut_apply]
  simp only [net1_apply]

end Cert.KernelIdeal.KIdx

end
-- ==== Proof.KBlocks.lean ====
/-
  From blocks to arrays. Each kernel's grid has 50 points; point `t` stages rows `20000·t … 20000·t + 19999` of its
  first operand (and the whole of every other one), and writes back the same rows of its result. Since row `p` of a
  block's result is the row network of row `p` of the staged block, the result array holds, at row `r`, the row network
  of row `r` of the operand array; the 50 blocks tile the million rows.
-/
import proofs.«146749_j85624468013347_2_alg».proof.Proof.Gen.KernelIdeal.Frame
import proofs.«146749_j85624468013347_2_alg».proof.Proof.KIdx

set_option maxRecDepth 16384

noncomputable section

open scoped BigOperators

namespace Cert.KernelIdeal.KBlocks

open Idealize.ShloMosaic Idealize.ShloMosaic.TcCoe Idealize.ShloMosaic.ValueIdx Idealize.SL.Sem
open Cert.KernelIdeal Cert.KernelIdeal.Gen Cert.KernelIdeal.KSpec
open Idealize.ShloMosaic.Pipeline (Dat)

theorem hz : (![0, 0] : Fin 2 → Nat) = fun _ => 0 := funext fun a => by fin_cases a <;> rfl

/-- The row of an index of a million-row array, and the column of an index, as plain numbers below their extents. -/
abbrev rowOf {n1 : Nat} (i : (⟨2, ![1000000, n1]⟩ : Shape).Idx) : Fin 1000000 := ⟨(i 0).val, idx2_lt0 i⟩
abbrev colOf {n0 n1 : Nat} (i : (⟨2, ![n0, n1]⟩ : Shape).Idx) : Fin n1 := ⟨(i 1).val, idx2_lt1 i⟩

/-- Region 0's network applied to every row of its first operand. -/
def G0 (X : FVec Ideal S1000000x64 .f32) (w : FVec Ideal S64x32 .f32) (b : FVec Ideal S1x32 .f32) (g : FVec Ideal S1x32 .f32) (be : FVec Ideal S1x32 .f32) : FVec Ideal S1000000x32 .f32 :=
  fun i => Math.mlp0 (fun k => X (ix2 (rowOf i) k)) (fun k j => w (ix2 k j)) (fun j => b (ix2 (0 : Fin 1) j))
    (fun j => g (ix2 (0 : Fin 1) j)) (fun j => be (ix2 (0 : Fin 1) j)) (colOf i)

/-- A block of region 0's result is the same rows of `G0` of the whole array, when the block's first operand is
    those rows of the array (`o`: the block's first row) and the other operands are the whole arrays. -/
theorem blk0_eq (x0 : FVec Ideal S20000x64 .f32) (w0 : FVec Ideal S64x32 .f32) (b0 : FVec Ideal S1x32 .f32) (g0 : FVec Ideal S1x32 .f32) (be0 : FVec Ideal S1x32 .f32)
    (X : FVec Ideal S1000000x64 .f32) (w : FVec Ideal S64x32 .f32) (b : FVec Ideal S1x32 .f32) (g : FVec Ideal S1x32 .f32) (be : FVec Ideal S1x32 .f32) (o : Nat)
    (hx : ∀ (p : Fin 20000) (k : Fin 64) (r : Fin 1000000), r.val = o + p.val → x0 (ix2 p k) = X (ix2 r k))
    (hw : w0 = w) (hb : b0 = b) (hg : g0 = g) (hbe : be0 = be)
    (y : S20000x32.Idx) (i : S1000000x32.Idx) (h0 : (i 0).val = o + (y 0).val) (h1 : (i 1).val = (y 1).val) :
    elu (ln (dense0 x0 w0 b0) g0 be0) y = G0 X w b g be i := by
  subst hw hb hg hbe
  obtain ⟨p, q, rfl⟩ : ∃ (p : Fin 20000) (q : Fin 32), y = ix2 p q := ⟨y 0, y 1, eq_ix2 y⟩
  rw [KIdx.net0_apply]
  unfold G0
  have hq : colOf i = q := Fin.ext h1
  rw [hq]
  have hr : (fun k => x0 (ix2 p k)) = fun k => X (ix2 (rowOf i) k) := funext fun k => hx p k (rowOf i) h0
  rw [hr]

/-- Region 1's network applied to every row of its first operand. -/
def G1 (X : FVec Ideal S1000000x32 .f32) (wc : FVec Ideal S32x32 .f32) (bc : FVec Ideal S1x32 .f32) (w : FVec Ideal S32x32 .f32) (b : FVec Ideal S1x32 .f32) (g : FVec Ideal S1x32 .f32) (be : FVec Ideal S1x32 .f32) : FVec Ideal S1000000x32 .f32 :=
  fun i => Math.blk (fun k => X (ix2 (rowOf i) k)) (fun k j => wc (ix2 k j)) (fun j => bc (ix2 (0 : Fin 1) j)) (fun k j => w (ix2 k j))
    (fun j => b (ix2 (0 : Fin 1) j)) (fun j => g (ix2 (0 : Fin 1) j)) (fun j => be (ix2 (0 : Fin 1) j)) (colOf i)

/-- A block of region 1's result is the same rows of `G1` of the whole array, when the block's first operand is
    those rows of the array (`o`: the block's first row) and the other operands are the whole arrays. -/
theorem blk1_eq (x0 : FVec Ideal S20000x32 .f32) (wc0 : FVec Ideal S32x32 .f32) (bc0 : FVec Ideal S1x32 .f32) (w0 : FVec Ideal S32x32 .f32) (b0 : FVec Ideal S1x32 .f32) (g0 : FVec Ideal S1x32 .f32) (be0 : FVec Ideal S1x32 .f32)
    (X : FVec Ideal S1000000x32 .f32) (wc : FVec Ideal S32x32 .f32) (bc : FVec Ideal S1x32 .f32) (w : FVec Ideal S32x32 .f32) (b : FVec Ideal S1x32 .f32) (g : FVec Ideal S1x32 .f32) (be : FVec Ideal S1x32 .f32) (o : Nat)
    (hx : ∀ (p : Fin 20000) (k : Fin 32) (r : Fin 1000000), r.val = o + p.val → x0 (ix2 p k) = X (ix2 r k))
    (hwc : wc0 = wc) (hbc : bc0 = bc) (hw : w0 = w) (hb : b0 = b) (hg : g0 = g) (hbe : be0 = be)
    (y : S20000x32.Idx) (i : S1000000x32.Idx) (h0 : (i 0).val = o + (y 0).val) (h1 : (i 1).val = (y 1).val) :
    elu (ln (dense (elu (dense (shapeCast S20000x32 x0 shapeCasts_S20000x32_S20000x32) wc0 bc0)) w0 b0) g0 be0) y = G1 X wc bc w b g be i := by
  subst hwc hbc hw hb hg hbe
  obtain ⟨p, q, rfl⟩ : ∃ (p : Fin 20000) (q : Fin 32), y = ix2 p q := ⟨y 0, y 1, eq_ix2 y⟩
  rw [shapeCast_self]
  rw [KIdx.net1_apply]
  unfold G1
  have hq : colOf i = q := Fin.ext h1
  rw [hq]
  have hr : (fun k => x0 (ix2 p k)) = fun k => X (ix2 (rowOf i) k) := funext fun k => hx p k (rowOf i) h0
  rw [hr]

/-- Region 2's network applied to every row of its first operand. -/
def G2 (X : FVec Ideal S1000000x32 .f32) (wc : FVec Ideal S32x32 .f32) (bc : FVec Ideal S1x32 .f32) (w : FVec Ideal S32x32 .f32) (b : FVec Ideal S1x32 .f32) (g : FVec Ideal S1x32 .f32) (be : FVec Ideal S1x32 .f32) (wout : FVec Ideal S32x1 .f32) (bout : FVec Ideal S1x1 .f32) : FVec Ideal S1000000x1 .f32 :=
  fun i => Math.blk2 (fun k => X (ix2 (rowOf i) k)) (fun k j => wc (ix2 k j)) (fun j => bc (ix2 (0 : Fin 1) j)) (fun k j => w (ix2 k j))
    (fun j => b (ix2 (0 : Fin 1) j)) (fun j => g (ix2 (0 : Fin 1) j)) (fun j => be (ix2 (0 : Fin 1) j))
    (fun k j => wout (ix2 k j)) (fun j => bout (ix2 (0 : Fin 1) j))

/-- A block of region 2's result is the same rows of `G2` of the whole array, when the block's first operand is
    those rows of the array (`o`: the block's first row) and the other operands are the whole arrays. -/
theorem blk2_eq (x0 : FVec Ideal S20000x32 .f32) (wc0 : FVec Ideal S32x32 .f32) (bc0 : FVec Ideal S1x32 .f32) (w0 : FVec Ideal S32x32 .f32) (b0 : FVec Ideal S1x32 .f32) (g0 : FVec Ideal S1x32 .f32) (be0 : FVec Ideal S1x32 .f32) (wout0 : FVec Ideal S32x1 .f32) (bout0 : FVec Ideal S1x1 .f32)
    (X : FVec Ideal S1000000x32 .f32) (wc : FVec Ideal S32x32 .f32) (bc : FVec Ideal S1x32 .f32) (w : FVec Ideal S32x32 .f32) (b : FVec Ideal S1x32 .f32) (g : FVec Ideal S1x32 .f32) (be : FVec Ideal S1x32 .f32) (wout : FVec Ideal S32x1 .f32) (bout : FVec Ideal S1x1 .f32) (o : Nat)
    (hx : ∀ (p : Fin 20000) (k : Fin 32) (r : Fin 1000000), r.val = o + p.val → x0 (ix2 p k) = X (ix2 r k))
    (hwc : wc0 = wc) (hbc : bc0 = bc) (hw : w0 = w) (hb : b0 = b) (hg : g0 = g) (hbe : be0 = be) (hwout : wout0 = wout) (hbout : bout0 = bout)
    (y : S20000x1.Idx) (i : S1000000x1.Idx) (h0 : (i 0).val = o + (y 0).val) (h1 : (i 1).val = (y 1).val) :
    elu1 (denseOut (elu (ln (dense (elu (dense (shapeCast S20000x32 x0 shapeCasts_S20000x32_S20000x32) wc0 bc0)) w0 b0) g0 be0)) wout0 bout0) y = G2 X wc bc w b g be wout bout i := by
  subst hwc hbc hw hb hg hbe hwout hbout
  obtain ⟨p, q, rfl⟩ : ∃ (p : Fin 20000) (q : Fin 1), y = ix2 p q := ⟨y 0, y 1, eq_ix2 y⟩
  obtain rfl : q = 0 := Subsingleton.elim _ _
  rw [shapeCast_self]
  rw [KIdx.net2_apply]
  unfold G2
  have hr : (fun k => x0 (ix2 p k)) = fun k => X (ix2 (rowOf i) k) := funext fun k => hx p k (rowOf i) h0
  rw [hr]

variable (V : (c : Dev nD) → (b : Ref sig .tc) → Buf (Elt Ideal) ((c : Thread nD τ).loc b))

/-- The printed index maps of region 0's windows, decided over the 50 points: the first operand's and the result's
    windows move one block of rows per point, every other window stays. -/
theorem idx_facts0 : ∀ t : Fin cfg0.N, win0_0.index t (0 : Fin 2) = win0_5.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0 :=
  (by decide +kernel : ∀ t : Fin grid0.N, _)

/-- The first operand's block at point `t` holds rows `20000·t …` of its array. -/
theorem iblk0_0_eq (c : Dev nD) (t : Fin cfg0.N) (p : Fin 20000) (k : Fin 64) (r : Fin 1000000)
    (hr : r.val = win0_5.index t (0 : Fin 2) * 20000 + p.val) :
    (iblk0 V c 0 t : FVec Ideal S20000x64 .f32) (ix2 p k) = (V c main_arg0 : FVec Ideal S1000000x64 .f32) (ix2 r k) := by
  obtain ⟨e0, e1, e2, e3, e4, e5, e6, e7, e8, e9, e10, e11⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 20000 + 1 * p.val = r.val; rw [e0, hr]; omega
  | ⟨1, _⟩ => show win0_0.index t (1 : Fin 2) * 64 + 1 * k.val = k.val; rw [e1]; omega

/-- Window 1's block at any point is its whole array. -/
theorem iblk0_1_eq (c : Dev nD) (t : Fin cfg0.N) :
    (iblk0 V c 1 t : FVec Ideal S64x32 .f32) = V c main_arg4 := by
  obtain ⟨e0, e1, e2, e3, e4, e5, e6, e7, e8, e9, e10, e11⟩ := idx_facts0 t
  funext y
  unfold iblk0
  rw [View.read_apply]
  show V c main_arg4 _ = V c main_arg4 y
  refine congrArg (V c main_arg4) (funext fun a => Fin.ext ?_)
  match a with
  | ⟨0, _⟩ => show win0_1.index t (0 : Fin 2) * 64 + 1 * (y 0).val = (y 0).val; rw [e2]; omega
  | ⟨1, _⟩ => show win0_1.index t (1 : Fin 2) * 32 + 1 * (y 1).val = (y 1).val; rw [e3]; omega

/-- Window 2's block at any point is its whole array. -/
theorem iblk0_2_eq (c : Dev nD) (t : Fin cfg0.N) :
    (iblk0 V c 2 t : FVec Ideal S1x32 .f32) = V c main_v22 := by
  obtain ⟨e0, e1, e2, e3, e4, e5, e6, e7, e8, e9, e10, e11⟩ := idx_facts0 t
  funext y
  unfold iblk0
  rw [View.read_apply]
  show V c main_v22 _ = V c main_v22 y
  refine congrArg (V c main_v22) (funext fun a => Fin.ext ?_)
  match a with
  | ⟨0, _⟩ => show win0_2.index t (0 : Fin 2) * 1 + 1 * (y 0).val = (y 0).val; rw [e4]; omega
  | ⟨1, _⟩ => show win0_2.index t (1 : Fin 2) * 32 + 1 * (y 1).val = (y 1).val; rw [e5]; omega

/-- Window 3's block at any point is its whole array. -/
theorem iblk0_3_eq (c : Dev nD) (t : Fin cfg0.N) :
    (iblk0 V c 3 t : FVec Ideal S1x32 .f32) = V c main_v23 := by
  obtain ⟨e0, e1, e2, e3, e4, e5, e6, e7, e8, e9, e10, e11⟩ := idx_facts0 t
  funext y
  unfold iblk0
  rw [View.read_apply]
  show V c main_v23 _ = V c main_v23 y
  refine congrArg (V c main_v23) (funext fun a => Fin.ext ?_)
  match a with
  | ⟨0, _⟩ => show win0_3.index t (0 : Fin 2) * 1 + 1 * (y 0).val = (y 0).val; rw [e6]; omega
  | ⟨1, _⟩ => show win0_3.index t (1 : Fin 2) * 32 + 1 * (y 1).val = (y 1).val; rw [e7]; omega

/-- Window 4's block at any point is its whole array. -/
theorem iblk0_4_eq (c : Dev nD) (t : Fin cfg0.N) :
    (iblk0 V c 4 t : FVec Ideal S1x32 .f32) = V c main_v24 := by
  obtain ⟨e0, e1, e2, e3, e4, e5, e6, e7, e8, e9, e10, e11⟩ := idx_facts0 t
  funext y
  unfold iblk0
  rw [View.read_apply]
  show V c main_v24 _ = V c main_v24 y
  refine congrArg (V c main_v24) (funext fun a => Fin.ext ?_)
  match a with
  | ⟨0, _⟩ => show win0_4.index t (0 : Fin 2) * 1 + 1 * (y 0).val = (y 0).val; rw [e8]; omega
  | ⟨1, _⟩ => show win0_4.index t (1 : Fin 2) * 32 + 1 * (y 1).val = (y 1).val; rw [e9]; omega

set_option maxHeartbeats 1000000 in
/-- WHAT POINT `t` WRITES BACK is block `t` of `G0` of the arrays as the region finds them. -/
theorem flushed0 (c : Dev nD) (t : Fin cfg0.N) :
    (dat0 V c).flushed 5 t = ((cfg0.win 5).blk t).view.read (Elt Ideal)
      (G0 (V c main_arg0) (V c main_arg4) (V c main_v22) (V c main_v23) (V c main_v24)) := by
  show (cfg0.win 5).cut (grid0.coords t) ((dat0 V c).after 5 t) = _
  rw [after0_5]
  unfold out0_5
  rw [View.canon_unit_zero hz]
  simp only [View.ld_unit_zero (S := S20000x64) hz, View.ld_unit_zero (S := S64x32) hz, View.ld_unit_zero (S := S1x32) hz]
  rw [KSpec.pay0_eq]
  obtain ⟨e0, e1, e2, e3, e4, e5, e6, e7, e8, e9, e10, e11⟩ := idx_facts0 t
  funext j
  refine blk0_eq (iblk0 V c 0 t) (iblk0 V c 1 t) (iblk0 V c 2 t) (iblk0 V c 3 t) (iblk0 V c 4 t) (V c main_arg0) (V c main_arg4) (V c main_v22) (V c main_v23) (V c main_v24)
    (win0_5.index t (0 : Fin 2) * 20000)
    (fun p k r hr => iblk0_0_eq V c t p k r hr)
    (iblk0_1_eq V c t)
    (iblk0_2_eq V c t)
    (iblk0_3_eq V c t)
    (iblk0_4_eq V c t)
    j _ ?_ ?_
  · show win0_5.index t (0 : Fin 2) * 20000 + 1 * (j 0).val = win0_5.index t (0 : Fin 2) * 20000 + (j 0).val; omega
  · show win0_5.index t (1 : Fin 2) * 32 + 1 * (j 1).val = (j 1).val; rw [e11]; omega

/-- An index of the result array is in point `t`'s block iff each coordinate is in the block's range on its axis. -/
theorem mem_blk0 (t : Fin cfg0.N) (i : S1000000x32.Idx) :
    i ∈ ((cfg0.win 5).blk t).view.set ↔ ∀ a : Fin 2, win0_5.index t a * S20000x32.size a ≤ (i a).val ∧ (i a).val < win0_5.index t a * S20000x32.size a + S20000x32.size a := by
  show i ∈ ((View.whole main_v25).slice (win0_5.rect t)).set ↔ _
  rw [View.set_slice_whole, Rect.mem_set_unit]
  exact Iff.rfl

/-- The 50 blocks tile the result array: row `r` is in the block of point `r / 20000`. -/
theorem cover0 (i : S1000000x32.Idx) :
    ∃ t : Fin cfg0.N, (cfg0.win 5).flush t = true ∧ i ∈ ((cfg0.win 5).blk t).view.set := by
  have hi0 : (i 0).val < 1000000 := idx2_lt0 i
  have hi1 : (i 1).val < 32 := idx2_lt1 i
  have hN : cfg0.N = 50 := N_0
  have hlt : (i 0).val / 20000 < cfg0.N := by rw [hN]; omega
  obtain ⟨e0, e1, e2, e3, e4, e5, e6, e7, e8, e9, e10, e11⟩ := idx_facts0 ⟨(i 0).val / 20000, hlt⟩
  refine ⟨⟨(i 0).val / 20000, hlt⟩, flush0_5 _, ?_⟩
  rw [mem_blk0]
  intro a
  match a with
  | ⟨0, _⟩ =>
    show win0_5.index ⟨(i 0).val / 20000, hlt⟩ (0 : Fin 2) * 20000 ≤ (i 0).val ∧ (i 0).val < win0_5.index ⟨(i 0).val / 20000, hlt⟩ (0 : Fin 2) * 20000 + 20000
    rw [e10]
    show (i 0).val / 20000 * 20000 ≤ (i 0).val ∧ (i 0).val < (i 0).val / 20000 * 20000 + 20000
    omega
  | ⟨1, _⟩ =>
    show win0_5.index ⟨(i 0).val / 20000, hlt⟩ (1 : Fin 2) * 32 ≤ (i 1).val ∧ (i 1).val < win0_5.index ⟨(i 0).val / 20000, hlt⟩ (1 : Fin 2) * 32 + 32
    rw [e11]
    omega

/-- THE ARRAY after region 0: `G0` of the arrays the region found. -/
theorem final0 (c : Dev nD) :
    (dat0 V c).arrAt 5 cfg0.N = G0 (V c main_arg0) (V c main_arg4) (V c main_v22) (V c main_v23) (V c main_v24) :=
  (dat0 V c).arrAt_eq_of_cover 5 _ (fun t _ => flushed0 V c t) cover0

/-- The printed index maps of region 1's windows, decided over the 50 points: the first operand's and the result's
    windows move one block of rows per point, every other window stays. -/
theorem idx_facts1 : ∀ t : Fin cfg1.N, win1_0.index t (0 : Fin 2) = win1_7.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-- The first operand's block at point `t` holds rows `20000·t …` of its array. -/
theorem iblk1_0_eq (c : Dev nD) (t : Fin cfg1.N) (p : Fin 20000) (k : Fin 32) (r : Fin 1000000)
    (hr : r.val = win1_7.index t (0 : Fin 2) * 20000 + p.val) :
    (iblk1 V c 0 t : FVec Ideal S20000x32 .f32) (ix2 p k) = (V c main_v39 : FVec Ideal S1000000x32 .f32) (ix2 r k) := by
  obtain ⟨e0, e1, e2, e3, e4, e5, e6, e7, e8, e9, e10, e11, e12, e13, e14, e15⟩ := idx_facts1 t
  unfold iblk1
  rw [View.read_apply]
  show V c main_v39 _ = V c main_v39 _
  refine congrArg (V c main_v39) (funext fun a => Fin.ext ?_)
  match a with
  | ⟨0, _⟩ => show win1_0.index t (0 : Fin 2) * 20000 + 1 * p.val = r.val; rw [e0, hr]; omega
  | ⟨1, _⟩ => show win1_0.index t (1 : Fin 2) * 32 + 1 * k.val = k.val; rw [e1]; omega

/-- Window 1's block at any point is its whole array. -/
theorem iblk1_1_eq (c : Dev nD) (t : Fin cfg1.N) :
    (iblk1 V c 1 t : FVec Ideal S32x32 .f32) = V c main_arg8 := by
  obtain ⟨e0, e1, e2, e3, e4, e5, e6, e7, e8, e9, e10, e11, e12, e13, e14, e15⟩ := idx_facts1 t
  funext y
  unfold iblk1
  rw [View.read_apply]
  show V c main_arg8 _ = V c main_arg8 y
  refine congrArg (V c main_arg8) (funext fun a => Fin.ext ?_)
  match a with
  | ⟨0, _⟩ => show win1_1.index t (0 : Fin 2) * 32 + 1 * (y 0).val = (y 0).val; rw [e2]; omega
  | ⟨1, _⟩ => show win1_1.index t (1 : Fin 2) * 32 + 1 * (y 1).val = (y 1).val; rw [e3]; omega

/-- Window 2's block at any point is its whole array. -/
theorem iblk1_2_eq (c : Dev nD) (t : Fin cfg1.N) :
    (iblk1 V c 2 t : FVec Ideal S1x32 .f32) = V c main_v40 := by
  obtain ⟨e0, e1, e2, e3, e4, e5, e6, e7, e8, e9, e10, e11, e12, e13, e14, e15⟩ := idx_facts1 t
  funext y
  unfold iblk1
  rw [View.read_apply]
  show V c main_v40 _ = V c main_v40 y
  refine congrArg (V c main_v40) (funext fun a => Fin.ext ?_)
  match a with
  | ⟨0, _⟩ => show win1_2.index t (0 : Fin 2) * 1 + 1 * (y 0).val = (y 0).val; rw [e4]; omega
  | ⟨1, _⟩ => show win1_2.index t (1 : Fin 2) * 32 + 1 * (y 1).val = (y 1).val; rw [e5]; omega

/-- Window 3's block at any point is its whole array. -/
theorem iblk1_3_eq (c : Dev nD) (t : Fin cfg1.N) :
    (iblk1 V c 3 t : FVec Ideal S32x32 .f32) = V c main_arg10 := by
  obtain ⟨e0, e1, e2, e3, e4, e5, e6, e7, e8, e9, e10, e11, e12, e13, e14, e15⟩ := idx_facts1 t
  funext y
  unfold iblk1
  rw [View.read_apply]
  show V c main_arg10 _ = V c main_arg10 y
  refine congrArg (V c main_arg10) (funext fun a => Fin.ext ?_)
  match a with
  | ⟨0, _⟩ => show win1_3.index t (0 : Fin 2) * 32 + 1 * (y 0).val = (y 0).val; rw [e6]; omega
  | ⟨1, _⟩ => show win1_3.index t (1 : Fin 2) * 32 + 1 * (y 1).val = (y 1).val; rw [e7]; omega

/-- Window 4's block at any point is its whole array. -/
theorem iblk1_4_eq (c : Dev nD) (t : Fin cfg1.N) :
    (iblk1 V c 4 t : FVec Ideal S1x32 .f32) = V c main_v41 := by
  obtain ⟨e0, e1, e2, e3, e4, e5, e6, e7, e8, e9, e10, e11, e12, e13, e14, e15⟩ := idx_facts1 t
  funext y
  unfold iblk1
  rw [View.read_apply]
  show V c main_v41 _ = V c main_v41 y
  refine congrArg (V c main_v41) (funext fun a => Fin.ext ?_)
  match a with
  | ⟨0, _⟩ => show win1_4.index t (0 : Fin 2) * 1 + 1 * (y 0).val = (y 0).val; rw [e8]; omega
  | ⟨1, _⟩ => show win1_4.index t (1 : Fin 2) * 32 + 1 * (y 1).val = (y 1).val; rw [e9]; omega

/-- Window 5's block at any point is its whole array. -/
theorem iblk1_5_eq (c : Dev nD) (t : Fin cfg1.N) :
    (iblk1 V c 5 t : FVec Ideal S1x32 .f32) = V c main_v42 := by
  obtain ⟨e0, e1, e2, e3, e4, e5, e6, e7, e8, e9, e10, e11, e12, e13, e14, e15⟩ := idx_facts1 t
  funext y
  unfold iblk1
  rw [View.read_apply]
  show V c main_v42 _ = V c main_v42 y
  refine congrArg (V c main_v42) (funext fun a => Fin.ext ?_)
  match a with
  | ⟨0, _⟩ => show win1_5.index t (0 : Fin 2) * 1 + 1 * (y 0).val = (y 0).val; rw [e10]; omega
  | ⟨1, _⟩ => show win1_5.index t (1 : Fin 2) * 32 + 1 * (y 1).val = (y 1).val; rw [e11]; omega

/-- Window 6's block at any point is its whole array. -/
theorem iblk1_6_eq (c : Dev nD) (t : Fin cfg1.N) :
    (iblk1 V c 6 t : FVec Ideal S1x32 .f32) = V c main_v43 := by
  obtain ⟨e0, e1, e2, e3, e4, e5, e6, e7, e8, e9, e10, e11, e12, e13, e14, e15⟩ := idx_facts1 t
  funext y
  unfold iblk1
  rw [View.read_apply]
  show V c main_v43 _ = V c main_v43 y
  refine congrArg (V c main_v43) (funext fun a => Fin.ext ?_)
  match a with
  | ⟨0, _⟩ => show win1_6.index t (0 : Fin 2) * 1 + 1 * (y 0).val = (y 0).val; rw [e12]; omega
  | ⟨1, _⟩ => show win1_6.index t (1 : Fin 2) * 32 + 1 * (y 1).val = (y 1).val; rw [e13]; omega

set_option maxHeartbeats 1000000 in
/-- WHAT POINT `t` WRITES BACK is block `t` of `G1` of the arrays as the region finds them. -/
theorem flushed1 (c : Dev nD) (t : Fin cfg1.N) :
    (dat1 V c).flushed 7 t = ((cfg1.win 7).blk t).view.read (Elt Ideal)
      (G1 (V c main_v39) (V c main_arg8) (V c main_v40) (V c main_arg10) (V c main_v41) (V c main_v42) (V c main_v43)) := by
  show (cfg1.win 7).cut (grid1.coords t) ((dat1 V c).after 7 t) = _
  rw [after1_7]
  unfold out1_7
  rw [View.canon_unit_zero hz]
  simp only [View.ld_unit_zero (S := S20000x32) hz, View.ld_unit_zero (S := S32x32) hz, View.ld_unit_zero (S := S1x32) hz]
  rw [KSpec.pay1_eq]
  obtain ⟨e0, e1, e2, e3, e4, e5, e6, e7, e8, e9, e10, e11, e12, e13, e14, e15⟩ := idx_facts1 t
  funext j
  refine blk1_eq (iblk1 V c 0 t) (iblk1 V c 1 t) (iblk1 V c 2 t) (iblk1 V c 3 t) (iblk1 V c 4 t) (iblk1 V c 5 t) (iblk1 V c 6 t) (V c main_v39) (V c main_arg8) (V c main_v40) (V c main_arg10) (V c main_v41) (V c main_v42) (V c main_v43)
    (win1_7.index t (0 : Fin 2) * 20000)
    (fun p k r hr => iblk1_0_eq V c t p k r hr)
    (iblk1_1_eq V c t)
    (iblk1_2_eq V c t)
    (iblk1_3_eq V c t)
    (iblk1_4_eq V c t)
    (iblk1_5_eq V c t)
    (iblk1_6_eq V c t)
    j _ ?_ ?_
  · show win1_7.index t (0 : Fin 2) * 20000 + 1 * (j 0).val = win1_7.index t (0 : Fin 2) * 20000 + (j 0).val; omega
  · show win1_7.index t (1 : Fin 2) * 32 + 1 * (j 1).val = (j 1).val; rw [e15]; omega

/-- An index of the result array is in point `t`'s block iff each coordinate is in the block's range on its axis. -/
theorem mem_blk1 (t : Fin cfg1.N) (i : S1000000x32.Idx) :
    i ∈ ((cfg1.win 7).blk t).view.set ↔ ∀ a : Fin 2, win1_7.index t a * S20000x32.size a ≤ (i a).val ∧ (i a).val < win1_7.index t a * S20000x32.size a + S20000x32.size a := by
  show i ∈ ((View.whole main_v44).slice (win1_7.rect t)).set ↔ _
  rw [View.set_slice_whole, Rect.mem_set_unit]
  exact Iff.rfl

/-- The 50 blocks tile the result array: row `r` is in the block of point `r / 20000`. -/
theorem cover1 (i : S1000000x32.Idx) :
    ∃ t : Fin cfg1.N, (cfg1.win 7).flush t = true ∧ i ∈ ((cfg1.win 7).blk t).view.set := by
  have hi0 : (i 0).val < 1000000 := idx2_lt0 i
  have hi1 : (i 1).val < 32 := idx2_lt1 i
  have hN : cfg1.N = 50 := N_1
  have hlt : (i 0).val / 20000 < cfg1.N := by rw [hN]; omega
  obtain ⟨e0, e1, e2, e3, e4, e5, e6, e7, e8, e9, e10, e11, e12, e13, e14, e15⟩ := idx_facts1 ⟨(i 0).val / 20000, hlt⟩
  refine ⟨⟨(i 0).val / 20000, hlt⟩, flush1_7 _, ?_⟩
  rw [mem_blk1]
  intro a
  match a with
  | ⟨0, _⟩ =>
    show win1_7.index ⟨(i 0).val / 20000, hlt⟩ (0 : Fin 2) * 20000 ≤ (i 0).val ∧ (i 0).val < win1_7.index ⟨(i 0).val / 20000, hlt⟩ (0 : Fin 2) * 20000 + 20000
    rw [e14]
    show (i 0).val / 20000 * 20000 ≤ (i 0).val ∧ (i 0).val < (i 0).val / 20000 * 20000 + 20000
    omega
  | ⟨1, _⟩ =>
    show win1_7.index ⟨(i 0).val / 20000, hlt⟩ (1 : Fin 2) * 32 ≤ (i 1).val ∧ (i 1).val < win1_7.index ⟨(i 0).val / 20000, hlt⟩ (1 : Fin 2) * 32 + 32
    rw [e15]
    omega

/-- THE ARRAY after region 1: `G1` of the arrays the region found. -/
theorem final1 (c : Dev nD) :
    (dat1 V c).arrAt 7 cfg1.N = G1 (V c main_v39) (V c main_arg8) (V c main_v40) (V c main_arg10) (V c main_v41) (V c main_v42) (V c main_v43) :=
  (dat1 V c).arrAt_eq_of_cover 7 _ (fun t _ => flushed1 V c t) cover1

/-- The printed index maps of region 2's windows, decided over the 50 points: the first operand's and the result's
    windows move one block of rows per point, every other window stays. -/
theorem idx_facts2 : ∀ t : Fin cfg2.N, win2_0.index t (0 : Fin 2) = win2_9.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = t.val
    ∧ win2_9.index t (1 : Fin 2) = 0 :=
  (by decide +kernel : ∀ t : Fin grid2.N, _)

/-- The first operand's block at point `t` holds rows `20000·t …` of its array. -/
theorem iblk2_0_eq (c : Dev nD) (t : Fin cfg2.N) (p : Fin 20000) (k : Fin 32) (r : Fin 1000000)
    (hr : r.val = win2_9.index t (0 : Fin 2) * 20000 + p.val) :
    (iblk2 V c 0 t : FVec Ideal S20000x32 .f32) (ix2 p k) = (V c main_v58 : FVec Ideal S1000000x32 .f32) (ix2 r k) := by
  obtain ⟨e0, e1, e2, e3, e4, e5, e6, e7, e8, e9, e10, e11, e12, e13, e14, e15, e16, e17, e18, e19⟩ := idx_facts2 t
  unfold iblk2
  rw [View.read_apply]
  show V c main_v58 _ = V c main_v58 _
  refine congrArg (V c main_v58) (funext fun a => Fin.ext ?_)
  match a with
  | ⟨0, _⟩ => show win2_0.index t (0 : Fin 2) * 20000 + 1 * p.val = r.val; rw [e0, hr]; omega
  | ⟨1, _⟩ => show win2_0.index t (1 : Fin 2) * 32 + 1 * k.val = k.val; rw [e1]; omega

/-- Window 1's block at any point is its whole array. -/
theorem iblk2_1_eq (c : Dev nD) (t : Fin cfg2.N) :
    (iblk2 V c 1 t : FVec Ideal S32x32 .f32) = V c main_arg14 := by
  obtain ⟨e0, e1, e2, e3, e4, e5, e6, e7, e8, e9, e10, e11, e12, e13, e14, e15, e16, e17, e18, e19⟩ := idx_facts2 t
  funext y
  unfold iblk2
  rw [View.read_apply]
  show V c main_arg14 _ = V c main_arg14 y
  refine congrArg (V c main_arg14) (funext fun a => Fin.ext ?_)
  match a with
  | ⟨0, _⟩ => show win2_1.index t (0 : Fin 2) * 32 + 1 * (y 0).val = (y 0).val; rw [e2]; omega
  | ⟨1, _⟩ => show win2_1.index t (1 : Fin 2) * 32 + 1 * (y 1).val = (y 1).val; rw [e3]; omega

/-- Window 2's block at any point is its whole array. -/
theorem iblk2_2_eq (c : Dev nD) (t : Fin cfg2.N) :
    (iblk2 V c 2 t : FVec Ideal S1x32 .f32) = V c main_v59 := by
  obtain ⟨e0, e1, e2, e3, e4, e5, e6, e7, e8, e9, e10, e11, e12, e13, e14, e15, e16, e17, e18, e19⟩ := idx_facts2 t
  funext y
  unfold iblk2
  rw [View.read_apply]
  show V c main_v59 _ = V c main_v59 y
  refine congrArg (V c main_v59) (funext fun a => Fin.ext ?_)
  match a with
  | ⟨0, _⟩ => show win2_2.index t (0 : Fin 2) * 1 + 1 * (y 0).val = (y 0).val; rw [e4]; omega
  | ⟨1, _⟩ => show win2_2.index t (1 : Fin 2) * 32 + 1 * (y 1).val = (y 1).val; rw [e5]; omega

/-- Window 3's block at any point is its whole array. -/
theorem iblk2_3_eq (c : Dev nD) (t : Fin cfg2.N) :
    (iblk2 V c 3 t : FVec Ideal S32x32 .f32) = V c main_arg16 := by
  obtain ⟨e0, e1, e2, e3, e4, e5, e6, e7, e8, e9, e10, e11, e12, e13, e14, e15, e16, e17, e18, e19⟩ := idx_facts2 t
  funext y
  unfold iblk2
  rw [View.read_apply]
  show V c main_arg16 _ = V c main_arg16 y
  refine congrArg (V c main_arg16) (funext fun a => Fin.ext ?_)
  match a with
  | ⟨0, _⟩ => show win2_3.index t (0 : Fin 2) * 32 + 1 * (y 0).val = (y 0).val; rw [e6]; omega
  | ⟨1, _⟩ => show win2_3.index t (1 : Fin 2) * 32 + 1 * (y 1).val = (y 1).val; rw [e7]; omega

/-- Window 4's block at any point is its whole array. -/
theorem iblk2_4_eq (c : Dev nD) (t : Fin cfg2.N) :
    (iblk2 V c 4 t : FVec Ideal S1x32 .f32) = V c main_v60 := by
  obtain ⟨e0, e1, e2, e3, e4, e5, e6, e7, e8, e9, e10, e11, e12, e13, e14, e15, e16, e17, e18, e19⟩ := idx_facts2 t
  funext y
  unfold iblk2
  rw [View.read_apply]
  show V c main_v60 _ = V c main_v60 y
  refine congrArg (V c main_v60) (funext fun a => Fin.ext ?_)
  match a with
  | ⟨0, _⟩ => show win2_4.index t (0 : Fin 2) * 1 + 1 * (y 0).val = (y 0).val; rw [e8]; omega
  | ⟨1, _⟩ => show win2_4.index t (1 : Fin 2) * 32 + 1 * (y 1).val = (y 1).val; rw [e9]; omega

/-- Window 5's block at any point is its whole array. -/
theorem iblk2_5_eq (c : Dev nD) (t : Fin cfg2.N) :
    (iblk2 V c 5 t : FVec Ideal S1x32 .f32) = V c main_v61 := by
  obtain ⟨e0, e1, e2, e3, e4, e5, e6, e7, e8, e9, e10, e11, e12, e13, e14, e15, e16, e17, e18, e19⟩ := idx_facts2 t
  funext y
  unfold iblk2
  rw [View.read_apply]
  show V c main_v61 _ = V c main_v61 y
  refine congrArg (V c main_v61) (funext fun a => Fin.ext ?_)
  match a with
  | ⟨0, _⟩ => show win2_5.index t (0 : Fin 2) * 1 + 1 * (y 0).val = (y 0).val; rw [e10]; omega
  | ⟨1, _⟩ => show win2_5.index t (1 : Fin 2) * 32 + 1 * (y 1).val = (y 1).val; rw [e11]; omega

/-- Window 6's block at any point is its whole array. -/
theorem iblk2_6_eq (c : Dev nD) (t : Fin cfg2.N) :
    (iblk2 V c 6 t : FVec Ideal S1x32 .f32) = V c main_v62 := by
  obtain ⟨e0, e1, e2, e3, e4, e5, e6, e7, e8, e9, e10, e11, e12, e13, e14, e15, e16, e17, e18, e19⟩ := idx_facts2 t
  funext y
  unfold iblk2
  rw [View.read_apply]
  show V c main_v62 _ = V c main_v62 y
  refine congrArg (V c main_v62) (funext fun a => Fin.ext ?_)
  match a with
  | ⟨0, _⟩ => show win2_6.index t (0 : Fin 2) * 1 + 1 * (y 0).val = (y 0).val; rw [e12]; omega
  | ⟨1, _⟩ => show win2_6.index t (1 : Fin 2) * 32 + 1 * (y 1).val = (y 1).val; rw [e13]; omega

/-- Window 7's block at any point is its whole array. -/
theorem iblk2_7_eq (c : Dev nD) (t : Fin cfg2.N) :
    (iblk2 V c 7 t : FVec Ideal S32x1 .f32) = V c main_arg20 := by
  obtain ⟨e0, e1, e2, e3, e4, e5, e6, e7, e8, e9, e10, e11, e12, e13, e14, e15, e16, e17, e18, e19⟩ := idx_facts2 t
  funext y
  unfold iblk2
  rw [View.read_apply]
  show V c main_arg20 _ = V c main_arg20 y
  refine congrArg (V c main_arg20) (funext fun a => Fin.ext ?_)
  match a with
  | ⟨0, _⟩ => show win2_7.index t (0 : Fin 2) * 32 + 1 * (y 0).val = (y 0).val; rw [e14]; omega
  | ⟨1, _⟩ => show win2_7.index t (1 : Fin 2) * 1 + 1 * (y 1).val = (y 1).val; rw [e15]; omega

/-- Window 8's block at any point is its whole array. -/
theorem iblk2_8_eq (c : Dev nD) (t : Fin cfg2.N) :
    (iblk2 V c 8 t : FVec Ideal S1x1 .f32) = V c main_v63 := by
  obtain ⟨e0, e1, e2, e3, e4, e5, e6, e7, e8, e9, e10, e11, e12, e13, e14, e15, e16, e17, e18, e19⟩ := idx_facts2 t
  funext y
  unfold iblk2
  rw [View.read_apply]
  show V c main_v63 _ = V c main_v63 y
  refine congrArg (V c main_v63) (funext fun a => Fin.ext ?_)
  match a with
  | ⟨0, _⟩ => show win2_8.index t (0 : Fin 2) * 1 + 1 * (y 0).val = (y 0).val; rw [e16]; omega
  | ⟨1, _⟩ => show win2_8.index t (1 : Fin 2) * 1 + 1 * (y 1).val = (y 1).val; rw [e17]; omega

set_option maxHeartbeats 1000000 in
/-- WHAT POINT `t` WRITES BACK is block `t` of `G2` of the arrays as the region finds them. -/
theorem flushed2 (c : Dev nD) (t : Fin cfg2.N) :
    (dat2 V c).flushed 9 t = ((cfg2.win 9).blk t).view.read (Elt Ideal)
      (G2 (V c main_v58) (V c main_arg14) (V c main_v59) (V c main_arg16) (V c main_v60) (V c main_v61) (V c main_v62) (V c main_arg20) (V c main_v63)) := by
  show (cfg2.win 9).cut (grid2.coords t) ((dat2 V c).after 9 t) = _
  rw [after2_9]
  unfold out2_9
  rw [View.canon_unit_zero hz]
  simp only [View.ld_unit_zero (S := S20000x32) hz, View.ld_unit_zero (S := S32x32) hz, View.ld_unit_zero (S := S1x32) hz, View.ld_unit_zero (S := S32x1) hz, View.ld_unit_zero (S := S1x1) hz]
  rw [KSpec.pay2_eq]
  obtain ⟨e0, e1, e2, e3, e4, e5, e6, e7, e8, e9, e10, e11, e12, e13, e14, e15, e16, e17, e18, e19⟩ := idx_facts2 t
  funext j
  refine blk2_eq (iblk2 V c 0 t) (iblk2 V c 1 t) (iblk2 V c 2 t) (iblk2 V c 3 t) (iblk2 V c 4 t) (iblk2 V c 5 t) (iblk2 V c 6 t) (iblk2 V c 7 t) (iblk2 V c 8 t) (V c main_v58) (V c main_arg14) (V c main_v59) (V c main_arg16) (V c main_v60) (V c main_v61) (V c main_v62) (V c main_arg20) (V c main_v63)
    (win2_9.index t (0 : Fin 2) * 20000)
    (fun p k r hr => iblk2_0_eq V c t p k r hr)
    (iblk2_1_eq V c t)
    (iblk2_2_eq V c t)
    (iblk2_3_eq V c t)
    (iblk2_4_eq V c t)
    (iblk2_5_eq V c t)
    (iblk2_6_eq V c t)
    (iblk2_7_eq V c t)
    (iblk2_8_eq V c t)
    j _ ?_ ?_
  · show win2_9.index t (0 : Fin 2) * 20000 + 1 * (j 0).val = win2_9.index t (0 : Fin 2) * 20000 + (j 0).val; omega
  · show win2_9.index t (1 : Fin 2) * 1 + 1 * (j 1).val = (j 1).val; rw [e19]; omega

/-- An index of the result array is in point `t`'s block iff each coordinate is in the block's range on its axis. -/
theorem mem_blk2 (t : Fin cfg2.N) (i : S1000000x1.Idx) :
    i ∈ ((cfg2.win 9).blk t).view.set ↔ ∀ a : Fin 2, win2_9.index t a * S20000x1.size a ≤ (i a).val ∧ (i a).val < win2_9.index t a * S20000x1.size a + S20000x1.size a := by
  show i ∈ ((View.whole main_v64).slice (win2_9.rect t)).set ↔ _
  rw [View.set_slice_whole, Rect.mem_set_unit]
  exact Iff.rfl

/-- The 50 blocks tile the result array: row `r` is in the block of point `r / 20000`. -/
theorem cover2 (i : S1000000x1.Idx) :
    ∃ t : Fin cfg2.N, (cfg2.win 9).flush t = true ∧ i ∈ ((cfg2.win 9).blk t).view.set := by
  have hi0 : (i 0).val < 1000000 := idx2_lt0 i
  have hi1 : (i 1).val < 1 := idx2_lt1 i
  have hN : cfg2.N = 50 := N_2
  have hlt : (i 0).val / 20000 < cfg2.N := by rw [hN]; omega
  obtain ⟨e0, e1, e2, e3, e4, e5, e6, e7, e8, e9, e10, e11, e12, e13, e14, e15, e16, e17, e18, e19⟩ := idx_facts2 ⟨(i 0).val / 20000, hlt⟩
  refine ⟨⟨(i 0).val / 20000, hlt⟩, flush2_9 _, ?_⟩
  rw [mem_blk2]
  intro a
  match a with
  | ⟨0, _⟩ =>
    show win2_9.index ⟨(i 0).val / 20000, hlt⟩ (0 : Fin 2) * 20000 ≤ (i 0).val ∧ (i 0).val < win2_9.index ⟨(i 0).val / 20000, hlt⟩ (0 : Fin 2) * 20000 + 20000
    rw [e18]
    show (i 0).val / 20000 * 20000 ≤ (i 0).val ∧ (i 0).val < (i 0).val / 20000 * 20000 + 20000
    omega
  | ⟨1, _⟩ =>
    show win2_9.index ⟨(i 0).val / 20000, hlt⟩ (1 : Fin 2) * 1 ≤ (i 1).val ∧ (i 1).val < win2_9.index ⟨(i 0).val / 20000, hlt⟩ (1 : Fin 2) * 1 + 1
    rw [e19]
    omega

/-- THE ARRAY after region 2: `G2` of the arrays the region found. -/
theorem final2 (c : Dev nD) :
    (dat2 V c).arrAt 9 cfg2.N = G2 (V c main_v58) (V c main_arg14) (V c main_v59) (V c main_arg16) (V c main_v60) (V c main_v61) (V c main_v62) (V c main_arg20) (V c main_v63) :=
  (dat2 V c).arrAt_eq_of_cover 9 _ (fun t _ => flushed2 V c t) cover2

end Cert.KernelIdeal.KBlocks

end
-- ==== Proof.KFinal.lean ====
/-
  The kernel's program's result as one closed term of its 22 arguments: the input network on every row, a round of
  message passing, the first block, a second round, the second block with its head, and the per-graph readout — each
  region's output array being its row network applied to the arrays the host operations before it prepared.
-/
import proofs.«146749_j85624468013347_2_alg».proof.Proof.KRun
import proofs.«146749_j85624468013347_2_alg».proof.Proof.KHost
import proofs.«146749_j85624468013347_2_alg».proof.Proof.KBlocks

set_option maxRecDepth 16384

noncomputable section

namespace Cert.KernelIdeal.KFinal

open Idealize.ShloMosaic Idealize.ShloMosaic.TcCoe Idealize.SL.Sem
open Cert.KernelIdeal Cert.KernelIdeal.Gen

/-- The result of the kernel's program on the 22 arguments. -/
def kResult
    (a0 : (⟨S1000000x64, .f32⟩ : BufTy).Contents (Elt Ideal)) (a1 : (⟨S4000000, .i32⟩ : BufTy).Contents (Elt Ideal))
    (a2 : (⟨S4000000, .i32⟩ : BufTy).Contents (Elt Ideal)) (a3 : (⟨S1000000, .i32⟩ : BufTy).Contents (Elt Ideal))
    (a4 : (⟨S64x32, .f32⟩ : BufTy).Contents (Elt Ideal)) (a5 : (⟨S32, .f32⟩ : BufTy).Contents (Elt Ideal))
    (a6 : (⟨S32, .f32⟩ : BufTy).Contents (Elt Ideal)) (a7 : (⟨S32, .f32⟩ : BufTy).Contents (Elt Ideal))
    (a8 : (⟨S32x32, .f32⟩ : BufTy).Contents (Elt Ideal)) (a9 : (⟨S32, .f32⟩ : BufTy).Contents (Elt Ideal))
    (a10 : (⟨S32x32, .f32⟩ : BufTy).Contents (Elt Ideal)) (a11 : (⟨S32, .f32⟩ : BufTy).Contents (Elt Ideal))
    (a12 : (⟨S32, .f32⟩ : BufTy).Contents (Elt Ideal)) (a13 : (⟨S32, .f32⟩ : BufTy).Contents (Elt Ideal))
    (a14 : (⟨S32x32, .f32⟩ : BufTy).Contents (Elt Ideal)) (a15 : (⟨S32, .f32⟩ : BufTy).Contents (Elt Ideal))
    (a16 : (⟨S32x32, .f32⟩ : BufTy).Contents (Elt Ideal)) (a17 : (⟨S32, .f32⟩ : BufTy).Contents (Elt Ideal))
    (a18 : (⟨S32, .f32⟩ : BufTy).Contents (Elt Ideal)) (a19 : (⟨S32, .f32⟩ : BufTy).Contents (Elt Ideal))
    (a20 : (⟨S32x1, .f32⟩ : BufTy).Contents (Elt Ideal)) (a21 : (⟨S1, .f32⟩ : BufTy).Contents (Elt Ideal)) :
    (⟨S1024x1, .f32⟩ : BufTy).Contents (Elt Ideal) :=
  Spec.readout
    (KBlocks.G2
      (Spec.msg
        (KBlocks.G1
          (Spec.msg (KBlocks.G0 a0 a4 (Spec.row a5) (Spec.row a6) (Spec.row a7)) (Spec.norm a1) (Spec.norm a2) a1 a2)
          a8 (Spec.row a9) a10 (Spec.row a11) (Spec.row a12) (Spec.row a13))
        (Spec.norm a1) (Spec.norm a2) a1 a2)
      a14 (Spec.row a15) a16 (Spec.row a17) (Spec.row a18) (Spec.row a19) a20 (Spec.row1 a21))
    a3

section Run
variable (m : (ℓ : Loc nD τ sig) → Buf (Elt Ideal) ℓ) (ρ : Dev nD → PrngReg)

/-- Region 0's output array: the input network on every row of the first argument. -/
theorem out0 (c : Dev nD) : Gen.W6 m ρ c (Proc.devRef .tc main_v25) = KBlocks.G0 (m ((c.tc : Thread nD τ).loc main_arg0)) (m ((c.tc : Thread nD τ).loc main_arg4)) (Spec.row (m ((c.tc : Thread nD τ).loc main_arg5))) (Spec.row (m ((c.tc : Thread nD τ).loc main_arg6))) (Spec.row (m ((c.tc : Thread nD τ).loc main_arg7))) := by
  rw [KHost.W6_v25 m ρ c, KBlocks.final0 (Gen.V5 m ρ) c, KHost.V5_arg0 m ρ c, KHost.V5_arg4 m ρ c, KHost.V5_v22 m ρ c,
    KHost.V5_v23 m ρ c, KHost.V5_v24 m ρ c]

/-- Region 1's output array: the first block on the first round's messages. -/
theorem out1 (c : Dev nD) : Gen.W8 m ρ c (Proc.devRef .tc main_v44) = KBlocks.G1 (Spec.msg (KBlocks.G0 (m ((c.tc : Thread nD τ).loc main_arg0)) (m ((c.tc : Thread nD τ).loc main_arg4)) (Spec.row (m ((c.tc : Thread nD τ).loc main_arg5))) (Spec.row (m ((c.tc : Thread nD τ).loc main_arg6))) (Spec.row (m ((c.tc : Thread nD τ).loc main_arg7)))) (Spec.norm (m ((c.tc : Thread nD τ).loc main_arg1))) (Spec.norm (m ((c.tc : Thread nD τ).loc main_arg2))) (m ((c.tc : Thread nD τ).loc main_arg1)) (m ((c.tc : Thread nD τ).loc main_arg2))) (m ((c.tc : Thread nD τ).loc main_arg8)) (Spec.row (m ((c.tc : Thread nD τ).loc main_arg9))) (m ((c.tc : Thread nD τ).loc main_arg10)) (Spec.row (m ((c.tc : Thread nD τ).loc main_arg11))) (Spec.row (m ((c.tc : Thread nD τ).loc main_arg12))) (Spec.row (m ((c.tc : Thread nD τ).loc main_arg13))) := by
  rw [KHost.W8_v44 m ρ c, KBlocks.final1 (Gen.V7 m ρ) c, KHost.V7_v39 m ρ c, out0 m ρ c, KHost.V7_arg8 m ρ c, KHost.V7_v40 m ρ c,
    KHost.V7_arg10 m ρ c, KHost.V7_v41 m ρ c, KHost.V7_v42 m ρ c, KHost.V7_v43 m ρ c]

/-- Region 2's output array: the second block and the head on the second round's messages. -/
theorem out2 (c : Dev nD) : Gen.W10 m ρ c (Proc.devRef .tc main_v64) = KBlocks.G2 (Spec.msg (KBlocks.G1 (Spec.msg (KBlocks.G0 (m ((c.tc : Thread nD τ).loc main_arg0)) (m ((c.tc : Thread nD τ).loc main_arg4)) (Spec.row (m ((c.tc : Thread nD τ).loc main_arg5))) (Spec.row (m ((c.tc : Thread nD τ).loc main_arg6))) (Spec.row (m ((c.tc : Thread nD τ).loc main_arg7)))) (Spec.norm (m ((c.tc : Thread nD τ).loc main_arg1))) (Spec.norm (m ((c.tc : Thread nD τ).loc main_arg2))) (m ((c.tc : Thread nD τ).loc main_arg1)) (m ((c.tc : Thread nD τ).loc main_arg2))) (m ((c.tc : Thread nD τ).loc main_arg8)) (Spec.row (m ((c.tc : Thread nD τ).loc main_arg9))) (m ((c.tc : Thread nD τ).loc main_arg10)) (Spec.row (m ((c.tc : Thread nD τ).loc main_arg11))) (Spec.row (m ((c.tc : Thread nD τ).loc main_arg12))) (Spec.row (m ((c.tc : Thread nD τ).loc main_arg13)))) (Spec.norm (m ((c.tc : Thread nD τ).loc main_arg1))) (Spec.norm (m ((c.tc : Thread nD τ).loc main_arg2))) (m ((c.tc : Thread nD τ).loc main_arg1)) (m ((c.tc : Thread nD τ).loc main_arg2))) (m ((c.tc : Thread nD τ).loc main_arg14)) (Spec.row (m ((c.tc : Thread nD τ).loc main_arg15))) (m ((c.tc : Thread nD τ).loc main_arg16)) (Spec.row (m ((c.tc : Thread nD τ).loc main_arg17))) (Spec.row (m ((c.tc : Thread nD τ).loc main_arg18))) (Spec.row (m ((c.tc : Thread nD τ).loc main_arg19))) (m ((c.tc : Thread nD τ).loc main_arg20)) (Spec.row1 (m ((c.tc : Thread nD τ).loc main_arg21))) := by
  rw [KHost.W10_v64 m ρ c, KBlocks.final2 (Gen.V9 m ρ) c, KHost.V9_v58 m ρ c, out1 m ρ c, KHost.V9_arg14 m ρ c, KHost.V9_v59 m ρ c,
    KHost.V9_arg16 m ρ c, KHost.V9_v60 m ρ c, KHost.V9_v61 m ρ c, KHost.V9_v62 m ρ c, KHost.V9_arg20 m ρ c, KHost.V9_v63 m ρ c]

/-- The result array at the last boundary is `kResult` of the launch contents of the arguments. -/
theorem W11_eq (c : Dev nD) : Gen.W11 m ρ c (Proc.devRef .tc main_v67) = kResult
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))
    (m ((c.tc : Thread nD τ).loc main_arg18)) (m ((c.tc : Thread nD τ).loc main_arg19)) (m ((c.tc : Thread nD τ).loc main_arg20))
    (m ((c.tc : Thread nD τ).loc main_arg21)) := by
  rw [KHost.W11_v67 m ρ c, out2 m ρ c]
  rfl

/-- The run with the result's value: every final state has the result array at `kResult` of the launch contents of
    the arguments, and the argument arrays as launched. -/
theorem run_val : θ_run defs (onTc (τ := τ) (main (F := Ideal))) ⟨m, fun _ => 0, ρ⟩ (fun r => ∀ c : Dev nD,
      r.2.mem ((c.tc : Thread nD τ).loc main_v67) = kResult
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16)) (m ((c.tc : Thread nD τ).loc main_arg17))
        (m ((c.tc : Thread nD τ).loc main_arg18)) (m ((c.tc : Thread nD τ).loc main_arg19)) (m ((c.tc : Thread nD τ).loc main_arg20))
        (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).1).trans (W11_eq m ρ c), (h c).2⟩) (KRun.run_val (F := Ideal) m ρ)

/-- info: 'Cert.KernelIdeal.KFinal.run_val' depends on axioms: [propext, Classical.choice, Quot.sound] -/
#guard_msgs in #print axioms run_val

end Run

end Cert.KernelIdeal.KFinal

end
-- ==== Proof.RefRun.lean ====
/-
  The reference program's @main as a list of its host operations, every module-local function inlined at its
  call site over that call's buffers, and its run: every weakly fair execution terminates with each buffer at
  the fold of the operations over the launch contents. The list is stated in seven consecutive stages
  (normalizers, input layer, message passing, block 1, message passing, block 2 with the head, readout).
-/
import proofs.«146749_j85624468013347_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stage by stage -/

/-- Degrees and the two normalizer columns: the edge count per source and per destination node (two sums of ones scattered by index), `1/√max(deg,1)` where the degree is positive and `0` elsewhere, each as an `[N,1]` column (`main_v13` for sources, `main_v20` for destinations). -/
abbrev opsA : List (HloOp τ sig (Elt F)) :=
  [
    StableHlo.nullary main_cst (constant S_ .f32 0x3F800000#32),
    StableHlo.unary main_cst main_v0 (broadcastInDim S4000000 ![] bcast_S_S4000000 : (⟨S_, .f32⟩ : BufTy).Contents (Elt F) → (⟨S4000000, .f32⟩ : BufTy).Contents (Elt F)),
    StableHlo.nullary main_cst_0 (constant S_ .f32 0x00000000#32),
    StableHlo.unary main_cst_0 main_v1 (broadcastInDim S1000000 ![] bcast_S_S1000000 : (⟨S_, .f32⟩ : BufTy).Contents (Elt F) → (⟨S1000000, .f32⟩ : BufTy).Contents (Elt F)),
    StableHlo.unary main_arg1 main_v2 (broadcastInDim S4000000x1 ![0] bcast_S4000000_S4000000x1_0 : (⟨S4000000, .i32⟩ : BufTy).Contents (Elt F) → (⟨S4000000x1, .i32⟩ : BufTy).Contents (Elt F)),
    StableHlo.ternary main_v1 main_v2 main_v0 main_v3 ((fun x i u => Host.scatterAdd scatter_S1000000_S4000000x1_S4000000_n_0_0_1 x i u) : (⟨S1000000, .f32⟩ : BufTy).Contents (Elt F) → (⟨S4000000x1, .i32⟩ : BufTy).Contents (Elt F) → (⟨S4000000, .f32⟩ : BufTy).Contents (Elt F) → (⟨S1000000, .f32⟩ : BufTy).Contents (Elt F)),
    StableHlo.nullary main_cst_1 (constant S_ .f32 0x00000000#32),
    StableHlo.unary main_cst_1 main_v4 (broadcastInDim S1000000 ![] bcast_S_S1000000 : (⟨S_, .f32⟩ : BufTy).Contents (Elt F) → (⟨S1000000, .f32⟩ : BufTy).Contents (Elt F)),
    StableHlo.unary main_arg2 main_v5 (broadcastInDim S4000000x1 ![0] bcast_S4000000_S4000000x1_0 : (⟨S4000000, .i32⟩ : BufTy).Contents (Elt F) → (⟨S4000000x1, .i32⟩ : BufTy).Contents (Elt F)),
    StableHlo.ternary main_v4 main_v5 main_v0 main_v6 ((fun x i u => Host.scatterAdd scatter_S1000000_S4000000x1_S4000000_n_0_0_1 x i u) : (⟨S1000000, .f32⟩ : BufTy).Contents (Elt F) → (⟨S4000000x1, .i32⟩ : BufTy).Contents (Elt F) → (⟨S4000000, .f32⟩ : BufTy).Contents (Elt F) → (⟨S1000000, .f32⟩ : BufTy).Contents (Elt F)),
    StableHlo.nullary main_cst_2 (constant S_ .f32 0x00000000#32),
    StableHlo.unary main_cst_2 main_v7 (broadcastInDim S1000000 ![] bcast_S_S1000000 : (⟨S_, .f32⟩ : BufTy).Contents (Elt F) → (⟨S1000000, .f32⟩ : BufTy).Contents (Elt F)),
    StableHlo.binary main_v3 main_v7 main_v8 (cmpf .ogt : (⟨S1000000, .f32⟩ : BufTy).Contents (Elt F) → (⟨S1000000, .f32⟩ : BufTy).Contents (Elt F) → (⟨S1000000, .i1⟩ : BufTy).Contents (Elt F)),
    StableHlo.nullary main_cst_3 (constant S_ .f32 0x3F800000#32),
    StableHlo.unary main_cst_3 main_v9 (broadcastInDim S1000000 ![] bcast_S_S1000000 : (⟨S_, .f32⟩ : BufTy).Contents (Elt F) → (⟨S1000000, .f32⟩ : BufTy).Contents (Elt F)),
    StableHlo.binary main_v3 main_v9 main_v10 (maximumf : (⟨S1000000, .f32⟩ : BufTy).Contents (Elt F) → (⟨S1000000, .f32⟩ : BufTy).Contents (Elt F) → (⟨S1000000, .f32⟩ : BufTy).Contents (Elt F)),
    StableHlo.unary main_v10 main_v11 (Host.rsqrt : (⟨S1000000, .f32⟩ : BufTy).Contents (Elt F) → (⟨S1000000, .f32⟩ : BufTy).Contents (Elt F)),
    StableHlo.nullary main_cst_4 (constant S_ .f32 0x00000000#32),
    StableHlo.TRef.unary (TRef.of main_cst_4 : TRef sig ⟨S_, .f32⟩) main_call0.v0 id,
    StableHlo.TRef.unary main_call0.v0 main_call0.v1 (broadcastInDim S1000000 ![] bcast_S_S1000000),
    StableHlo.TRef.ternary (TRef.of main_v8 : TRef sig ⟨S1000000, .i1⟩) (TRef.of main_v11 : TRef sig ⟨S1000000, .f32⟩) main_call0.v1 main_call0.v2 select,
    StableHlo.unary main_v12 main_v13 (broadcastInDim S1000000x1 ![0] bcast_S1000000_S1000000x1_0 : (⟨S1000000, .f32⟩ : BufTy).Contents (Elt F) → (⟨S1000000x1, .f32⟩ : BufTy).Contents (Elt F)),
    StableHlo.nullary main_cst_5 (constant S_ .f32 0x00000000#32),
    StableHlo.unary main_cst_5 main_v14 (broadcastInDim S1000000 ![] bcast_S_S1000000 : (⟨S_, .f32⟩ : BufTy).Contents (Elt F) → (⟨S1000000, .f32⟩ : BufTy).Contents (Elt F)),
    StableHlo.binary main_v6 main_v14 main_v15 (cmpf .ogt : (⟨S1000000, .f32⟩ : BufTy).Contents (Elt F) → (⟨S1000000, .f32⟩ : BufTy).Contents (Elt F) → (⟨S1000000, .i1⟩ : BufTy).Contents (Elt F)),
    StableHlo.nullary main_cst_6 (constant S_ .f32 0x3F800000#32),
    StableHlo.unary main_cst_6 main_v16 (broadcastInDim S1000000 ![] bcast_S_S1000000 : (⟨S_, .f32⟩ : BufTy).Contents (Elt F) → (⟨S1000000, .f32⟩ : BufTy).Contents (Elt F)),
    StableHlo.binary main_v6 main_v16 main_v17 (maximumf : (⟨S1000000, .f32⟩ : BufTy).Contents (Elt F) → (⟨S1000000, .f32⟩ : BufTy).Contents (Elt F) → (⟨S1000000, .f32⟩ : BufTy).Contents (Elt F)),
    StableHlo.unary main_v17 main_v18 (Host.rsqrt : (⟨S1000000, .f32⟩ : BufTy).Contents (Elt F) → (⟨S1000000, .f32⟩ : BufTy).Contents (Elt F)),
    StableHlo.nullary main_cst_7 (constant S_ .f32 0x00000000#32),
    StableHlo.TRef.unary (TRef.of main_cst_7 : TRef sig ⟨S_, .f32⟩) main_call1.v0 id,
    StableHlo.TRef.unary main_call1.v0 main_call1.v1 (broadcastInDim S1000000 ![] bcast_S_S1000000),
    StableHlo.TRef.ternary (TRef.of main_v15 : TRef sig ⟨S1000000, .i1⟩) (TRef.of main_v18 : TRef sig ⟨S1000000, .f32⟩) main_call1.v1 main_call1.v2 select,
    StableHlo.unary main_v19 main_v20 (broadcastInDim S1000000x1 ![0] bcast_S1000000_S1000000x1_0 : (⟨S1000000, .f32⟩ : BufTy).Contents (Elt F) → (⟨S1000000x1, .f32⟩ : BufTy).Contents (Elt F)) ]

/-- The input layer: `x·W + b`, layer normalization over the 32 features (mean, centred square mean, `rsqrt(var + ε)`, scale and shift), then `elu` (result `main_v49`). -/
abbrev opsB : List (HloOp τ sig (Elt F)) :=
  [
    StableHlo.binary main_arg0 main_arg4 main_v21 ((fun l r => Host.dotGeneral dot_S1000000x64_S64x32_S1000000x32_1_0_0_1_n_n none l r) : (⟨S1000000x64, .f32⟩ : BufTy).Contents (Elt F) → (⟨S64x32, .f32⟩ : BufTy).Contents (Elt F) → (⟨S1000000x32, .f32⟩ : BufTy).Contents (Elt F)),
    StableHlo.unary main_arg5 main_v22 (broadcastInDim S1x32 ![1] bcast_S32_S1x32_1 : (⟨S32, .f32⟩ : BufTy).Contents (Elt F) → (⟨S1x32, .f32⟩ : BufTy).Contents (Elt F)),
    StableHlo.unary main_v22 main_v23 (broadcastInDim S1000000x32 ![0, 1] bcast_S1x32_S1000000x32_0_1 : (⟨S1x32, .f32⟩ : BufTy).Contents (Elt F) → (⟨S1000000x32, .f32⟩ : BufTy).Contents (Elt F)),
    StableHlo.binary main_v21 main_v23 main_v24 (addf : (⟨S1000000x32, .f32⟩ : BufTy).Contents (Elt F) → (⟨S1000000x32, .f32⟩ : BufTy).Contents (Elt F) → (⟨S1000000x32, .f32⟩ : BufTy).Contents (Elt F)),
    StableHlo.nullary main_cst_8 (constant S_ .f32 0x00000000#32),
    StableHlo.binary main_v24 main_cst_8 main_v25 ((fun x v => Host.reduceAdd x v reducesTo_S1000000x32_S1000000_d1 h_S_) : (⟨S1000000x32, .f32⟩ : BufTy).Contents (Elt F) → (⟨S_, .f32⟩ : BufTy).Contents (Elt F) → (⟨S1000000, .f32⟩ : BufTy).Contents (Elt F)),
    StableHlo.unary main_v25 main_v26 (broadcastInDim S1000000x1 ![0] bcast_S1000000_S1000000x1_0 : (⟨S1000000, .f32⟩ : BufTy).Contents (Elt F) → (⟨S1000000x1, .f32⟩ : BufTy).Contents (Elt F)),
    StableHlo.nullary main_cst_9 (constant S_ .f32 0x42000000#32),
    StableHlo.unary main_cst_9 main_v27 (broadcastInDim S1000000x1 ![] bcast_S_S1000000x1 : (⟨S_, .f32⟩ : BufTy).Contents (Elt F) → (⟨S1000000x1, .f32⟩ : BufTy).Contents (Elt F)),
    StableHlo.binary main_v26 main_v27 main_v28 (Host.divf : (⟨S1000000x1, .f32⟩ : BufTy).Contents (Elt F) → (⟨S1000000x1, .f32⟩ : BufTy).Contents (Elt F) → (⟨S1000000x1, .f32⟩ : BufTy).Contents (Elt F)),
    StableHlo.unary main_v28 main_v29 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v24 main_v29 main_v30 (subf : (⟨S1000000x32, .f32⟩ : BufTy).Contents (Elt F) → (⟨S1000000x32, .f32⟩ : BufTy).Contents (Elt F) → (⟨S1000000x32, .f32⟩ : BufTy).Contents (Elt F)),
    StableHlo.binary main_v30 main_v30 main_v31 (mulf : (⟨S1000000x32, .f32⟩ : BufTy).Contents (Elt F) → (⟨S1000000x32, .f32⟩ : BufTy).Contents (Elt F) → (⟨S1000000x32, .f32⟩ : BufTy).Contents (Elt F)),
    StableHlo.nullary main_cst_10 (constant S_ .f32 0x00000000#32),
    StableHlo.binary main_v31 main_cst_10 main_v32 ((fun x v => Host.reduceAdd x v reducesTo_S1000000x32_S1000000_d1 h_S_) : (⟨S1000000x32, .f32⟩ : BufTy).Contents (Elt F) → (⟨S_, .f32⟩ : BufTy).Contents (Elt F) → (⟨S1000000, .f32⟩ : BufTy).Contents (Elt F)),
    StableHlo.unary main_v32 main_v33 (broadcastInDim S1000000x1 ![0] bcast_S1000000_S1000000x1_0 : (⟨S1000000, .f32⟩ : BufTy).Contents (Elt F) → (⟨S1000000x1, .f32⟩ : BufTy).Contents (Elt F)),
    StableHlo.nullary main_cst_11 (constant S_ .f32 0x42000000#32),
    StableHlo.unary main_cst_11 main_v34 (broadcastInDim S1000000x1 ![] bcast_S_S1000000x1 : (⟨S_, .f32⟩ : BufTy).Contents (Elt F) → (⟨S1000000x1, .f32⟩ : BufTy).Contents (Elt F)),
    StableHlo.binary main_v33 main_v34 main_v35 (Host.divf : (⟨S1000000x1, .f32⟩ : BufTy).Contents (Elt F) → (⟨S1000000x1, .f32⟩ : BufTy).Contents (Elt F) → (⟨S1000000x1, .f32⟩ : BufTy).Contents (Elt F)),
    StableHlo.unary main_v28 main_v36 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v24 main_v36 main_v37 (subf : (⟨S1000000x32, .f32⟩ : BufTy).Contents (Elt F) → (⟨S1000000x32, .f32⟩ : BufTy).Contents (Elt F) → (⟨S1000000x32, .f32⟩ : BufTy).Contents (Elt F)),
    StableHlo.nullary main_cst_12 (constant S_ .f32 0x3727C5AC#32),
    StableHlo.unary main_cst_12 main_v38 (broadcastInDim S1000000x1 ![] bcast_S_S1000000x1 : (⟨S_, .f32⟩ : BufTy).Contents (Elt F) → (⟨S1000000x1, .f32⟩ : BufTy).Contents (Elt F)),
    StableHlo.binary main_v35 main_v38 main_v39 (addf : (⟨S1000000x1, .f32⟩ : BufTy).Contents (Elt F) → (⟨S1000000x1, .f32⟩ : BufTy).Contents (Elt F) → (⟨S1000000x1, .f32⟩ : BufTy).Contents (Elt F)),
    StableHlo.unary main_v39 main_v40 (Host.rsqrt : (⟨S1000000x1, .f32⟩ : BufTy).Contents (Elt F) → (⟨S1000000x1, .f32⟩ : BufTy).Contents (Elt F)),
    StableHlo.unary main_v40 main_v41 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v37 main_v41 main_v42 (mulf : (⟨S1000000x32, .f32⟩ : BufTy).Contents (Elt F) → (⟨S1000000x32, .f32⟩ : BufTy).Contents (Elt F) → (⟨S1000000x32, .f32⟩ : BufTy).Contents (Elt F)),
    StableHlo.unary main_arg6 main_v43 (broadcastInDim S1x32 ![1] bcast_S32_S1x32_1 : (⟨S32, .f32⟩ : BufTy).Contents (Elt F) → (⟨S1x32, .f32⟩ : BufTy).Contents (Elt F)),
    StableHlo.unary main_v43 main_v44 (broadcastInDim S1000000x32 ![0, 1] bcast_S1x32_S1000000x32_0_1 : (⟨S1x32, .f32⟩ : BufTy).Contents (Elt F) → (⟨S1000000x32, .f32⟩ : BufTy).Contents (Elt F)),
    StableHlo.binary main_v42 main_v44 main_v45 (mulf : (⟨S1000000x32, .f32⟩ : BufTy).Contents (Elt F) → (⟨S1000000x32, .f32⟩ : BufTy).Contents (Elt F) → (⟨S1000000x32, .f32⟩ : BufTy).Contents (Elt F)),
    StableHlo.unary main_arg7 main_v46 (broadcastInDim S1x32 ![1] bcast_S32_S1x32_1 : (⟨S32, .f32⟩ : BufTy).Contents (Elt F) → (⟨S1x32, .f32⟩ : BufTy).Contents (Elt F)),
    StableHlo.unary main_v46 main_v47 (broadcastInDim S1000000x32 ![0, 1] bcast_S1x32_S1000000x32_0_1 : (⟨S1x32, .f32⟩ : BufTy).Contents (Elt F) → (⟨S1000000x32, .f32⟩ : BufTy).Contents (Elt F)),
    StableHlo.binary main_v45 main_v47 main_v48 (addf : (⟨S1000000x32, .f32⟩ : BufTy).Contents (Elt F) → (⟨S1000000x32, .f32⟩ : BufTy).Contents (Elt F) → (⟨S1000000x32, .f32⟩ : BufTy).Contents (Elt F)),
    StableHlo.TRef.nullary main_call2.cst (constant S_ .f32 0x00000000#32),
    StableHlo.TRef.unary main_call2.cst main_call2.v0 (broadcastInDim S1000000x32 ![] bcast_S_S1000000x32),
    StableHlo.TRef.binary (TRef.of main_v48 : TRef sig ⟨S1000000x32, .f32⟩) main_call2.v0 main_call2.v1 (cmpf .ogt),
    StableHlo.TRef.nullary main_call2.cst_0 (constant S_ .f32 0x00000000#32),
    StableHlo.TRef.unary main_call2.cst_0 main_call2.v2 (broadcastInDim S1000000x32 ![] bcast_S_S1000000x32),
    StableHlo.TRef.binary (TRef.of main_v48 : TRef sig ⟨S1000000x32, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S1000000x32 ![] bcast_S_S1000000x32),
    StableHlo.TRef.ternary main_call2.v3 main_call2.call0.v1 (TRef.of main_v48 : TRef sig ⟨S1000000x32, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S1000000x32 ![] bcast_S_S1000000x32),
    StableHlo.TRef.binary main_call2.v6 main_call2.v5 main_call2.v7 mulf,
    StableHlo.TRef.ternary main_call2.v1 (TRef.of main_v48 : TRef sig ⟨S1000000x32, .f32⟩) main_call2.v7 main_call2.call1.v0 select ]

/-- The first message passing: rows scaled by the source normalizer, gathered along the edges' sources (negative indices wrapped), summed into the edges' destinations, scaled by the destination normalizer (result `main_v63`). -/
abbrev opsC : List (HloOp τ sig (Elt F)) :=
  [
    StableHlo.unary main_v13 main_v50 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v49 main_v50 main_v51 (mulf : (⟨S1000000x32, .f32⟩ : BufTy).Contents (Elt F) → (⟨S1000000x32, .f32⟩ : BufTy).Contents (Elt F) → (⟨S1000000x32, .f32⟩ : BufTy).Contents (Elt F)),
    StableHlo.nullary main_c (constantI S_ 32 0#32),
    StableHlo.unary main_c main_v52 (broadcastInDim S4000000 ![] bcast_S_S4000000 : (⟨S_, .i32⟩ : BufTy).Contents (Elt F) → (⟨S4000000, .i32⟩ : BufTy).Contents (Elt F)),
    StableHlo.binary main_arg1 main_v52 main_v53 (cmpi .slt : (⟨S4000000, .i32⟩ : BufTy).Contents (Elt F) → (⟨S4000000, .i32⟩ : BufTy).Contents (Elt F) → (⟨S4000000, .i1⟩ : BufTy).Contents (Elt F)),
    StableHlo.nullary main_c_13 (constantI S_ 32 1000000#32),
    StableHlo.unary main_c_13 main_v54 (broadcastInDim S4000000 ![] bcast_S_S4000000 : (⟨S_, .i32⟩ : BufTy).Contents (Elt F) → (⟨S4000000, .i32⟩ : BufTy).Contents (Elt F)),
    StableHlo.binary main_arg1 main_v54 main_v55 (addi : (⟨S4000000, .i32⟩ : BufTy).Contents (Elt F) → (⟨S4000000, .i32⟩ : BufTy).Contents (Elt F) → (⟨S4000000, .i32⟩ : BufTy).Contents (Elt F)),
    StableHlo.ternary main_v53 main_v55 main_arg1 main_v56 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v56 main_v57 (broadcastInDim S4000000x1 ![0] bcast_S4000000_S4000000x1_0 : (⟨S4000000, .i32⟩ : BufTy).Contents (Elt F) → (⟨S4000000x1, .i32⟩ : BufTy).Contents (Elt F)),
    StableHlo.binary main_v51 main_v57 main_v58 ((fun x i => Host.gather gather_S1000000x32_S4000000x1_S4000000x32_1_0_n_n_0_1_132 x i) : (⟨S1000000x32, .f32⟩ : BufTy).Contents (Elt F) → (⟨S4000000x1, .i32⟩ : BufTy).Contents (Elt F) → (⟨S4000000x32, .f32⟩ : BufTy).Contents (Elt F)),
    StableHlo.nullary main_cst_14 (constant S_ .f32 0x00000000#32),
    StableHlo.unary main_cst_14 main_v59 (broadcastInDim S1000000x32 ![] bcast_S_S1000000x32 : (⟨S_, .f32⟩ : BufTy).Contents (Elt F) → (⟨S1000000x32, .f32⟩ : BufTy).Contents (Elt F)),
    StableHlo.unary main_arg2 main_v60 (broadcastInDim S4000000x1 ![0] bcast_S4000000_S4000000x1_0 : (⟨S4000000, .i32⟩ : BufTy).Contents (Elt F) → (⟨S4000000x1, .i32⟩ : BufTy).Contents (Elt F)),
    StableHlo.ternary main_v59 main_v60 main_v58 main_v61 ((fun x i u => Host.scatterAdd scatter_S1000000x32_S4000000x1_S4000000x32_1_0_0_1 x i u) : (⟨S1000000x32, .f32⟩ : BufTy).Contents (Elt F) → (⟨S4000000x1, .i32⟩ : BufTy).Contents (Elt F) → (⟨S4000000x32, .f32⟩ : BufTy).Contents (Elt F) → (⟨S1000000x32, .f32⟩ : BufTy).Contents (Elt F)),
    StableHlo.unary main_v20 main_v62 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v61 main_v62 main_v63 (mulf : (⟨S1000000x32, .f32⟩ : BufTy).Contents (Elt F) → (⟨S1000000x32, .f32⟩ : BufTy).Contents (Elt F) → (⟨S1000000x32, .f32⟩ : BufTy).Contents (Elt F)) ]

/-- Block 1: `h·Wc + bc`, `elu`, `·W + b`, layer normalization, `elu` (result `main_v97`). -/
abbrev opsD : List (HloOp τ sig (Elt F)) :=
  [
    StableHlo.binary main_v63 main_arg8 main_v64 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.unary main_arg9 main_v65 (broadcastInDim S1x32 ![1] bcast_S32_S1x32_1 : (⟨S32, .f32⟩ : BufTy).Contents (Elt F) → (⟨S1x32, .f32⟩ : BufTy).Contents (Elt F)),
    StableHlo.unary main_v65 main_v66 (broadcastInDim S1000000x32 ![0, 1] bcast_S1x32_S1000000x32_0_1 : (⟨S1x32, .f32⟩ : BufTy).Contents (Elt F) → (⟨S1000000x32, .f32⟩ : BufTy).Contents (Elt F)),
    StableHlo.binary main_v64 main_v66 main_v67 (addf : (⟨S1000000x32, .f32⟩ : BufTy).Contents (Elt F) → (⟨S1000000x32, .f32⟩ : BufTy).Contents (Elt F) → (⟨S1000000x32, .f32⟩ : BufTy).Contents (Elt F)),
    StableHlo.TRef.nullary main_call3.cst (constant S_ .f32 0x00000000#32),
    StableHlo.TRef.unary main_call3.cst main_call3.v0 (broadcastInDim S1000000x32 ![] bcast_S_S1000000x32),
    StableHlo.TRef.binary (TRef.of main_v67 : TRef sig ⟨S1000000x32, .f32⟩) main_call3.v0 main_call3.v1 (cmpf .ogt),
    StableHlo.TRef.nullary main_call3.cst_0 (constant S_ .f32 0x00000000#32),
    StableHlo.TRef.unary main_call3.cst_0 main_call3.v2 (broadcastInDim S1000000x32 ![] bcast_S_S1000000x32),
    StableHlo.TRef.binary (TRef.of main_v67 : TRef sig ⟨S1000000x32, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S1000000x32 ![] bcast_S_S1000000x32),
    StableHlo.TRef.ternary main_call3.v3 main_call3.call0.v1 (TRef.of main_v67 : TRef sig ⟨S1000000x32, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S1000000x32 ![] bcast_S_S1000000x32),
    StableHlo.TRef.binary main_call3.v6 main_call3.v5 main_call3.v7 mulf,
    StableHlo.TRef.ternary main_call3.v1 (TRef.of main_v67 : TRef sig ⟨S1000000x32, .f32⟩) main_call3.v7 main_call3.call1.v0 select,
    StableHlo.binary main_v68 main_arg10 main_v69 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.unary main_arg11 main_v70 (broadcastInDim S1x32 ![1] bcast_S32_S1x32_1 : (⟨S32, .f32⟩ : BufTy).Contents (Elt F) → (⟨S1x32, .f32⟩ : BufTy).Contents (Elt F)),
    StableHlo.unary main_v70 main_v71 (broadcastInDim S1000000x32 ![0, 1] bcast_S1x32_S1000000x32_0_1 : (⟨S1x32, .f32⟩ : BufTy).Contents (Elt F) → (⟨S1000000x32, .f32⟩ : BufTy).Contents (Elt F)),
    StableHlo.binary main_v69 main_v71 main_v72 (addf : (⟨S1000000x32, .f32⟩ : BufTy).Contents (Elt F) → (⟨S1000000x32, .f32⟩ : BufTy).Contents (Elt F) → (⟨S1000000x32, .f32⟩ : BufTy).Contents (Elt F)),
    StableHlo.nullary main_cst_15 (constant S_ .f32 0x00000000#32),
    StableHlo.binary main_v72 main_cst_15 main_v73 ((fun x v => Host.reduceAdd x v reducesTo_S1000000x32_S1000000_d1 h_S_) : (⟨S1000000x32, .f32⟩ : BufTy).Contents (Elt F) → (⟨S_, .f32⟩ : BufTy).Contents (Elt F) → (⟨S1000000, .f32⟩ : BufTy).Contents (Elt F)),
    StableHlo.unary main_v73 main_v74 (broadcastInDim S1000000x1 ![0] bcast_S1000000_S1000000x1_0 : (⟨S1000000, .f32⟩ : BufTy).Contents (Elt F) → (⟨S1000000x1, .f32⟩ : BufTy).Contents (Elt F)),
    StableHlo.nullary main_cst_16 (constant S_ .f32 0x42000000#32),
    StableHlo.unary main_cst_16 main_v75 (broadcastInDim S1000000x1 ![] bcast_S_S1000000x1 : (⟨S_, .f32⟩ : BufTy).Contents (Elt F) → (⟨S1000000x1, .f32⟩ : BufTy).Contents (Elt F)),
    StableHlo.binary main_v74 main_v75 main_v76 (Host.divf : (⟨S1000000x1, .f32⟩ : BufTy).Contents (Elt F) → (⟨S1000000x1, .f32⟩ : BufTy).Contents (Elt F) → (⟨S1000000x1, .f32⟩ : BufTy).Contents (Elt F)),
    StableHlo.unary main_v76 main_v77 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v72 main_v77 main_v78 (subf : (⟨S1000000x32, .f32⟩ : BufTy).Contents (Elt F) → (⟨S1000000x32, .f32⟩ : BufTy).Contents (Elt F) → (⟨S1000000x32, .f32⟩ : BufTy).Contents (Elt F)),
    StableHlo.binary main_v78 main_v78 main_v79 (mulf : (⟨S1000000x32, .f32⟩ : BufTy).Contents (Elt F) → (⟨S1000000x32, .f32⟩ : BufTy).Contents (Elt F) → (⟨S1000000x32, .f32⟩ : BufTy).Contents (Elt F)),
    StableHlo.nullary main_cst_17 (constant S_ .f32 0x00000000#32),
    StableHlo.binary main_v79 main_cst_17 main_v80 ((fun x v => Host.reduceAdd x v reducesTo_S1000000x32_S1000000_d1 h_S_) : (⟨S1000000x32, .f32⟩ : BufTy).Contents (Elt F) → (⟨S_, .f32⟩ : BufTy).Contents (Elt F) → (⟨S1000000, .f32⟩ : BufTy).Contents (Elt F)),
    StableHlo.unary main_v80 main_v81 (broadcastInDim S1000000x1 ![0] bcast_S1000000_S1000000x1_0 : (⟨S1000000, .f32⟩ : BufTy).Contents (Elt F) → (⟨S1000000x1, .f32⟩ : BufTy).Contents (Elt F)),
    StableHlo.nullary main_cst_18 (constant S_ .f32 0x42000000#32),
    StableHlo.unary main_cst_18 main_v82 (broadcastInDim S1000000x1 ![] bcast_S_S1000000x1 : (⟨S_, .f32⟩ : BufTy).Contents (Elt F) → (⟨S1000000x1, .f32⟩ : BufTy).Contents (Elt F)),
    StableHlo.binary main_v81 main_v82 main_v83 (Host.divf : (⟨S1000000x1, .f32⟩ : BufTy).Contents (Elt F) → (⟨S1000000x1, .f32⟩ : BufTy).Contents (Elt F) → (⟨S1000000x1, .f32⟩ : BufTy).Contents (Elt F)),
    StableHlo.unary main_v76 main_v84 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v72 main_v84 main_v85 (subf : (⟨S1000000x32, .f32⟩ : BufTy).Contents (Elt F) → (⟨S1000000x32, .f32⟩ : BufTy).Contents (Elt F) → (⟨S1000000x32, .f32⟩ : BufTy).Contents (Elt F)),
    StableHlo.nullary main_cst_19 (constant S_ .f32 0x3727C5AC#32),
    StableHlo.unary main_cst_19 main_v86 (broadcastInDim S1000000x1 ![] bcast_S_S1000000x1 : (⟨S_, .f32⟩ : BufTy).Contents (Elt F) → (⟨S1000000x1, .f32⟩ : BufTy).Contents (Elt F)),
    StableHlo.binary main_v83 main_v86 main_v87 (addf : (⟨S1000000x1, .f32⟩ : BufTy).Contents (Elt F) → (⟨S1000000x1, .f32⟩ : BufTy).Contents (Elt F) → (⟨S1000000x1, .f32⟩ : BufTy).Contents (Elt F)),
    StableHlo.unary main_v87 main_v88 (Host.rsqrt : (⟨S1000000x1, .f32⟩ : BufTy).Contents (Elt F) → (⟨S1000000x1, .f32⟩ : BufTy).Contents (Elt F)),
    StableHlo.unary main_v88 main_v89 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v85 main_v89 main_v90 (mulf : (⟨S1000000x32, .f32⟩ : BufTy).Contents (Elt F) → (⟨S1000000x32, .f32⟩ : BufTy).Contents (Elt F) → (⟨S1000000x32, .f32⟩ : BufTy).Contents (Elt F)),
    StableHlo.unary main_arg12 main_v91 (broadcastInDim S1x32 ![1] bcast_S32_S1x32_1 : (⟨S32, .f32⟩ : BufTy).Contents (Elt F) → (⟨S1x32, .f32⟩ : BufTy).Contents (Elt F)),
    StableHlo.unary main_v91 main_v92 (broadcastInDim S1000000x32 ![0, 1] bcast_S1x32_S1000000x32_0_1 : (⟨S1x32, .f32⟩ : BufTy).Contents (Elt F) → (⟨S1000000x32, .f32⟩ : BufTy).Contents (Elt F)),
    StableHlo.binary main_v90 main_v92 main_v93 (mulf : (⟨S1000000x32, .f32⟩ : BufTy).Contents (Elt F) → (⟨S1000000x32, .f32⟩ : BufTy).Contents (Elt F) → (⟨S1000000x32, .f32⟩ : BufTy).Contents (Elt F)),
    StableHlo.unary main_arg13 main_v94 (broadcastInDim S1x32 ![1] bcast_S32_S1x32_1 : (⟨S32, .f32⟩ : BufTy).Contents (Elt F) → (⟨S1x32, .f32⟩ : BufTy).Contents (Elt F)),
    StableHlo.unary main_v94 main_v95 (broadcastInDim S1000000x32 ![0, 1] bcast_S1x32_S1000000x32_0_1 : (⟨S1x32, .f32⟩ : BufTy).Contents (Elt F) → (⟨S1000000x32, .f32⟩ : BufTy).Contents (Elt F)),
    StableHlo.binary main_v93 main_v95 main_v96 (addf : (⟨S1000000x32, .f32⟩ : BufTy).Contents (Elt F) → (⟨S1000000x32, .f32⟩ : BufTy).Contents (Elt F) → (⟨S1000000x32, .f32⟩ : BufTy).Contents (Elt F)),
    StableHlo.TRef.nullary main_call4.cst (constant S_ .f32 0x00000000#32),
    StableHlo.TRef.unary main_call4.cst main_call4.v0 (broadcastInDim S1000000x32 ![] bcast_S_S1000000x32),
    StableHlo.TRef.binary (TRef.of main_v96 : TRef sig ⟨S1000000x32, .f32⟩) main_call4.v0 main_call4.v1 (cmpf .ogt),
    StableHlo.TRef.nullary main_call4.cst_0 (constant S_ .f32 0x00000000#32),
    StableHlo.TRef.unary main_call4.cst_0 main_call4.v2 (broadcastInDim S1000000x32 ![] bcast_S_S1000000x32),
    StableHlo.TRef.binary (TRef.of main_v96 : TRef sig ⟨S1000000x32, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S1000000x32 ![] bcast_S_S1000000x32),
    StableHlo.TRef.ternary main_call4.v3 main_call4.call0.v1 (TRef.of main_v96 : TRef sig ⟨S1000000x32, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S1000000x32 ![] bcast_S_S1000000x32),
    StableHlo.TRef.binary main_call4.v6 main_call4.v5 main_call4.v7 mulf,
    StableHlo.TRef.ternary main_call4.v1 (TRef.of main_v96 : TRef sig ⟨S1000000x32, .f32⟩) main_call4.v7 main_call4.call1.v0 select ]

/-- The second message passing, the same shape as the first (result `main_v111`). -/
abbrev opsE : List (HloOp τ sig (Elt F)) :=
  [
    StableHlo.unary main_v13 main_v98 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v97 main_v98 main_v99 (mulf : (⟨S1000000x32, .f32⟩ : BufTy).Contents (Elt F) → (⟨S1000000x32, .f32⟩ : BufTy).Contents (Elt F) → (⟨S1000000x32, .f32⟩ : BufTy).Contents (Elt F)),
    StableHlo.nullary main_c_20 (constantI S_ 32 0#32),
    StableHlo.unary main_c_20 main_v100 (broadcastInDim S4000000 ![] bcast_S_S4000000 : (⟨S_, .i32⟩ : BufTy).Contents (Elt F) → (⟨S4000000, .i32⟩ : BufTy).Contents (Elt F)),
    StableHlo.binary main_arg1 main_v100 main_v101 (cmpi .slt : (⟨S4000000, .i32⟩ : BufTy).Contents (Elt F) → (⟨S4000000, .i32⟩ : BufTy).Contents (Elt F) → (⟨S4000000, .i1⟩ : BufTy).Contents (Elt F)),
    StableHlo.nullary main_c_21 (constantI S_ 32 1000000#32),
    StableHlo.unary main_c_21 main_v102 (broadcastInDim S4000000 ![] bcast_S_S4000000 : (⟨S_, .i32⟩ : BufTy).Contents (Elt F) → (⟨S4000000, .i32⟩ : BufTy).Contents (Elt F)),
    StableHlo.binary main_arg1 main_v102 main_v103 (addi : (⟨S4000000, .i32⟩ : BufTy).Contents (Elt F) → (⟨S4000000, .i32⟩ : BufTy).Contents (Elt F) → (⟨S4000000, .i32⟩ : BufTy).Contents (Elt F)),
    StableHlo.ternary main_v101 main_v103 main_arg1 main_v104 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v104 main_v105 (broadcastInDim S4000000x1 ![0] bcast_S4000000_S4000000x1_0 : (⟨S4000000, .i32⟩ : BufTy).Contents (Elt F) → (⟨S4000000x1, .i32⟩ : BufTy).Contents (Elt F)),
    StableHlo.binary main_v99 main_v105 main_v106 ((fun x i => Host.gather gather_S1000000x32_S4000000x1_S4000000x32_1_0_n_n_0_1_132 x i) : (⟨S1000000x32, .f32⟩ : BufTy).Contents (Elt F) → (⟨S4000000x1, .i32⟩ : BufTy).Contents (Elt F) → (⟨S4000000x32, .f32⟩ : BufTy).Contents (Elt F)),
    StableHlo.nullary main_cst_22 (constant S_ .f32 0x00000000#32),
    StableHlo.unary main_cst_22 main_v107 (broadcastInDim S1000000x32 ![] bcast_S_S1000000x32 : (⟨S_, .f32⟩ : BufTy).Contents (Elt F) → (⟨S1000000x32, .f32⟩ : BufTy).Contents (Elt F)),
    StableHlo.unary main_arg2 main_v108 (broadcastInDim S4000000x1 ![0] bcast_S4000000_S4000000x1_0 : (⟨S4000000, .i32⟩ : BufTy).Contents (Elt F) → (⟨S4000000x1, .i32⟩ : BufTy).Contents (Elt F)),
    StableHlo.ternary main_v107 main_v108 main_v106 main_v109 ((fun x i u => Host.scatterAdd scatter_S1000000x32_S4000000x1_S4000000x32_1_0_0_1 x i u) : (⟨S1000000x32, .f32⟩ : BufTy).Contents (Elt F) → (⟨S4000000x1, .i32⟩ : BufTy).Contents (Elt F) → (⟨S4000000x32, .f32⟩ : BufTy).Contents (Elt F) → (⟨S1000000x32, .f32⟩ : BufTy).Contents (Elt F)),
    StableHlo.unary main_v20 main_v110 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v109 main_v110 main_v111 (mulf : (⟨S1000000x32, .f32⟩ : BufTy).Contents (Elt F) → (⟨S1000000x32, .f32⟩ : BufTy).Contents (Elt F) → (⟨S1000000x32, .f32⟩ : BufTy).Contents (Elt F)) ]

/-- Block 2 and the head: `h·Wc + bc`, `elu`, `·W + b`, layer normalization, `elu`, then `·Wout + bout` and `elu` on the `[N,1]` column (result `main_v150`). -/
abbrev opsF : List (HloOp τ sig (Elt F)) :=
  [
    StableHlo.binary main_v111 main_arg14 main_v112 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.unary main_arg15 main_v113 (broadcastInDim S1x32 ![1] bcast_S32_S1x32_1 : (⟨S32, .f32⟩ : BufTy).Contents (Elt F) → (⟨S1x32, .f32⟩ : BufTy).Contents (Elt F)),
    StableHlo.unary main_v113 main_v114 (broadcastInDim S1000000x32 ![0, 1] bcast_S1x32_S1000000x32_0_1 : (⟨S1x32, .f32⟩ : BufTy).Contents (Elt F) → (⟨S1000000x32, .f32⟩ : BufTy).Contents (Elt F)),
    StableHlo.binary main_v112 main_v114 main_v115 (addf : (⟨S1000000x32, .f32⟩ : BufTy).Contents (Elt F) → (⟨S1000000x32, .f32⟩ : BufTy).Contents (Elt F) → (⟨S1000000x32, .f32⟩ : BufTy).Contents (Elt F)),
    StableHlo.TRef.nullary main_call5.cst (constant S_ .f32 0x00000000#32),
    StableHlo.TRef.unary main_call5.cst main_call5.v0 (broadcastInDim S1000000x32 ![] bcast_S_S1000000x32),
    StableHlo.TRef.binary (TRef.of main_v115 : TRef sig ⟨S1000000x32, .f32⟩) main_call5.v0 main_call5.v1 (cmpf .ogt),
    StableHlo.TRef.nullary main_call5.cst_0 (constant S_ .f32 0x00000000#32),
    StableHlo.TRef.unary main_call5.cst_0 main_call5.v2 (broadcastInDim S1000000x32 ![] bcast_S_S1000000x32),
    StableHlo.TRef.binary (TRef.of main_v115 : TRef sig ⟨S1000000x32, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S1000000x32 ![] bcast_S_S1000000x32),
    StableHlo.TRef.ternary main_call5.v3 main_call5.call0.v1 (TRef.of main_v115 : TRef sig ⟨S1000000x32, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S1000000x32 ![] bcast_S_S1000000x32),
    StableHlo.TRef.binary main_call5.v6 main_call5.v5 main_call5.v7 mulf,
    StableHlo.TRef.ternary main_call5.v1 (TRef.of main_v115 : TRef sig ⟨S1000000x32, .f32⟩) main_call5.v7 main_call5.call1.v0 select,
    StableHlo.binary main_v116 main_arg16 main_v117 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.unary main_arg17 main_v118 (broadcastInDim S1x32 ![1] bcast_S32_S1x32_1 : (⟨S32, .f32⟩ : BufTy).Contents (Elt F) → (⟨S1x32, .f32⟩ : BufTy).Contents (Elt F)),
    StableHlo.unary main_v118 main_v119 (broadcastInDim S1000000x32 ![0, 1] bcast_S1x32_S1000000x32_0_1 : (⟨S1x32, .f32⟩ : BufTy).Contents (Elt F) → (⟨S1000000x32, .f32⟩ : BufTy).Contents (Elt F)),
    StableHlo.binary main_v117 main_v119 main_v120 (addf : (⟨S1000000x32, .f32⟩ : BufTy).Contents (Elt F) → (⟨S1000000x32, .f32⟩ : BufTy).Contents (Elt F) → (⟨S1000000x32, .f32⟩ : BufTy).Contents (Elt F)),
    StableHlo.nullary main_cst_23 (constant S_ .f32 0x00000000#32),
    StableHlo.binary main_v120 main_cst_23 main_v121 ((fun x v => Host.reduceAdd x v reducesTo_S1000000x32_S1000000_d1 h_S_) : (⟨S1000000x32, .f32⟩ : BufTy).Contents (Elt F) → (⟨S_, .f32⟩ : BufTy).Contents (Elt F) → (⟨S1000000, .f32⟩ : BufTy).Contents (Elt F)),
    StableHlo.unary main_v121 main_v122 (broadcastInDim S1000000x1 ![0] bcast_S1000000_S1000000x1_0 : (⟨S1000000, .f32⟩ : BufTy).Contents (Elt F) → (⟨S1000000x1, .f32⟩ : BufTy).Contents (Elt F)),
    StableHlo.nullary main_cst_24 (constant S_ .f32 0x42000000#32),
    StableHlo.unary main_cst_24 main_v123 (broadcastInDim S1000000x1 ![] bcast_S_S1000000x1 : (⟨S_, .f32⟩ : BufTy).Contents (Elt F) → (⟨S1000000x1, .f32⟩ : BufTy).Contents (Elt F)),
    StableHlo.binary main_v122 main_v123 main_v124 (Host.divf : (⟨S1000000x1, .f32⟩ : BufTy).Contents (Elt F) → (⟨S1000000x1, .f32⟩ : BufTy).Contents (Elt F) → (⟨S1000000x1, .f32⟩ : BufTy).Contents (Elt F)),
    StableHlo.unary main_v124 main_v125 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v120 main_v125 main_v126 (subf : (⟨S1000000x32, .f32⟩ : BufTy).Contents (Elt F) → (⟨S1000000x32, .f32⟩ : BufTy).Contents (Elt F) → (⟨S1000000x32, .f32⟩ : BufTy).Contents (Elt F)),
    StableHlo.binary main_v126 main_v126 main_v127 (mulf : (⟨S1000000x32, .f32⟩ : BufTy).Contents (Elt F) → (⟨S1000000x32, .f32⟩ : BufTy).Contents (Elt F) → (⟨S1000000x32, .f32⟩ : BufTy).Contents (Elt F)),
    StableHlo.nullary main_cst_25 (constant S_ .f32 0x00000000#32),
    StableHlo.binary main_v127 main_cst_25 main_v128 ((fun x v => Host.reduceAdd x v reducesTo_S1000000x32_S1000000_d1 h_S_) : (⟨S1000000x32, .f32⟩ : BufTy).Contents (Elt F) → (⟨S_, .f32⟩ : BufTy).Contents (Elt F) → (⟨S1000000, .f32⟩ : BufTy).Contents (Elt F)),
    StableHlo.unary main_v128 main_v129 (broadcastInDim S1000000x1 ![0] bcast_S1000000_S1000000x1_0 : (⟨S1000000, .f32⟩ : BufTy).Contents (Elt F) → (⟨S1000000x1, .f32⟩ : BufTy).Contents (Elt F)),
    StableHlo.nullary main_cst_26 (constant S_ .f32 0x42000000#32),
    StableHlo.unary main_cst_26 main_v130 (broadcastInDim S1000000x1 ![] bcast_S_S1000000x1 : (⟨S_, .f32⟩ : BufTy).Contents (Elt F) → (⟨S1000000x1, .f32⟩ : BufTy).Contents (Elt F)),
    StableHlo.binary main_v129 main_v130 main_v131 (Host.divf : (⟨S1000000x1, .f32⟩ : BufTy).Contents (Elt F) → (⟨S1000000x1, .f32⟩ : BufTy).Contents (Elt F) → (⟨S1000000x1, .f32⟩ : BufTy).Contents (Elt F)),
    StableHlo.unary main_v124 main_v132 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v120 main_v132 main_v133 (subf : (⟨S1000000x32, .f32⟩ : BufTy).Contents (Elt F) → (⟨S1000000x32, .f32⟩ : BufTy).Contents (Elt F) → (⟨S1000000x32, .f32⟩ : BufTy).Contents (Elt F)),
    StableHlo.nullary main_cst_27 (constant S_ .f32 0x3727C5AC#32),
    StableHlo.unary main_cst_27 main_v134 (broadcastInDim S1000000x1 ![] bcast_S_S1000000x1 : (⟨S_, .f32⟩ : BufTy).Contents (Elt F) → (⟨S1000000x1, .f32⟩ : BufTy).Contents (Elt F)),
    StableHlo.binary main_v131 main_v134 main_v135 (addf : (⟨S1000000x1, .f32⟩ : BufTy).Contents (Elt F) → (⟨S1000000x1, .f32⟩ : BufTy).Contents (Elt F) → (⟨S1000000x1, .f32⟩ : BufTy).Contents (Elt F)),
    StableHlo.unary main_v135 main_v136 (Host.rsqrt : (⟨S1000000x1, .f32⟩ : BufTy).Contents (Elt F) → (⟨S1000000x1, .f32⟩ : BufTy).Contents (Elt F)),
    StableHlo.unary main_v136 main_v137 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v133 main_v137 main_v138 (mulf : (⟨S1000000x32, .f32⟩ : BufTy).Contents (Elt F) → (⟨S1000000x32, .f32⟩ : BufTy).Contents (Elt F) → (⟨S1000000x32, .f32⟩ : BufTy).Contents (Elt F)),
    StableHlo.unary main_arg18 main_v139 (broadcastInDim S1x32 ![1] bcast_S32_S1x32_1 : (⟨S32, .f32⟩ : BufTy).Contents (Elt F) → (⟨S1x32, .f32⟩ : BufTy).Contents (Elt F)),
    StableHlo.unary main_v139 main_v140 (broadcastInDim S1000000x32 ![0, 1] bcast_S1x32_S1000000x32_0_1 : (⟨S1x32, .f32⟩ : BufTy).Contents (Elt F) → (⟨S1000000x32, .f32⟩ : BufTy).Contents (Elt F)),
    StableHlo.binary main_v138 main_v140 main_v141 (mulf : (⟨S1000000x32, .f32⟩ : BufTy).Contents (Elt F) → (⟨S1000000x32, .f32⟩ : BufTy).Contents (Elt F) → (⟨S1000000x32, .f32⟩ : BufTy).Contents (Elt F)),
    StableHlo.unary main_arg19 main_v142 (broadcastInDim S1x32 ![1] bcast_S32_S1x32_1 : (⟨S32, .f32⟩ : BufTy).Contents (Elt F) → (⟨S1x32, .f32⟩ : BufTy).Contents (Elt F)),
    StableHlo.unary main_v142 main_v143 (broadcastInDim S1000000x32 ![0, 1] bcast_S1x32_S1000000x32_0_1 : (⟨S1x32, .f32⟩ : BufTy).Contents (Elt F) → (⟨S1000000x32, .f32⟩ : BufTy).Contents (Elt F)),
    StableHlo.binary main_v141 main_v143 main_v144 (addf : (⟨S1000000x32, .f32⟩ : BufTy).Contents (Elt F) → (⟨S1000000x32, .f32⟩ : BufTy).Contents (Elt F) → (⟨S1000000x32, .f32⟩ : BufTy).Contents (Elt F)),
    StableHlo.TRef.nullary main_call6.cst (constant S_ .f32 0x00000000#32),
    StableHlo.TRef.unary main_call6.cst main_call6.v0 (broadcastInDim S1000000x32 ![] bcast_S_S1000000x32),
    StableHlo.TRef.binary (TRef.of main_v144 : TRef sig ⟨S1000000x32, .f32⟩) main_call6.v0 main_call6.v1 (cmpf .ogt),
    StableHlo.TRef.nullary main_call6.cst_0 (constant S_ .f32 0x00000000#32),
    StableHlo.TRef.unary main_call6.cst_0 main_call6.v2 (broadcastInDim S1000000x32 ![] bcast_S_S1000000x32),
    StableHlo.TRef.binary (TRef.of main_v144 : TRef sig ⟨S1000000x32, .f32⟩) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S1000000x32 ![] bcast_S_S1000000x32),
    StableHlo.TRef.ternary main_call6.v3 main_call6.call0.v1 (TRef.of main_v144 : TRef sig ⟨S1000000x32, .f32⟩) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S1000000x32 ![] bcast_S_S1000000x32),
    StableHlo.TRef.binary main_call6.v6 main_call6.v5 main_call6.v7 mulf,
    StableHlo.TRef.ternary main_call6.v1 (TRef.of main_v144 : TRef sig ⟨S1000000x32, .f32⟩) main_call6.v7 main_call6.call1.v0 select,
    StableHlo.binary main_v145 main_arg20 main_v146 ((fun l r => Host.dotGeneral dot_S1000000x32_S32x1_S1000000x1_1_0_0_1_n_n none l r) : (⟨S1000000x32, .f32⟩ : BufTy).Contents (Elt F) → (⟨S32x1, .f32⟩ : BufTy).Contents (Elt F) → (⟨S1000000x1, .f32⟩ : BufTy).Contents (Elt F)),
    StableHlo.unary main_arg21 main_v147 (broadcastInDim S1x1 ![1] bcast_S1_S1x1_1 : (⟨S1, .f32⟩ : BufTy).Contents (Elt F) → (⟨S1x1, .f32⟩ : BufTy).Contents (Elt F)),
    StableHlo.unary main_v147 main_v148 (broadcastInDim S1000000x1 ![0, 1] bcast_S1x1_S1000000x1_0_1 : (⟨S1x1, .f32⟩ : BufTy).Contents (Elt F) → (⟨S1000000x1, .f32⟩ : BufTy).Contents (Elt F)),
    StableHlo.binary main_v146 main_v148 main_v149 (addf : (⟨S1000000x1, .f32⟩ : BufTy).Contents (Elt F) → (⟨S1000000x1, .f32⟩ : BufTy).Contents (Elt F) → (⟨S1000000x1, .f32⟩ : BufTy).Contents (Elt F)),
    StableHlo.TRef.nullary main_call7.cst (constant S_ .f32 0x00000000#32),
    StableHlo.TRef.unary main_call7.cst main_call7.v0 (broadcastInDim S1000000x1 ![] bcast_S_S1000000x1),
    StableHlo.TRef.binary (TRef.of main_v149 : TRef sig ⟨S1000000x1, .f32⟩) main_call7.v0 main_call7.v1 (cmpf .ogt),
    StableHlo.TRef.nullary main_call7.cst_0 (constant S_ .f32 0x00000000#32),
    StableHlo.TRef.unary main_call7.cst_0 main_call7.v2 (broadcastInDim S1000000x1 ![] bcast_S_S1000000x1),
    StableHlo.TRef.binary (TRef.of main_v149 : TRef sig ⟨S1000000x1, .f32⟩) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S1000000x1 ![] bcast_S_S1000000x1),
    StableHlo.TRef.ternary main_call7.v3 main_call7.call0.v1 (TRef.of main_v149 : TRef sig ⟨S1000000x1, .f32⟩) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S1000000x1 ![] bcast_S_S1000000x1),
    StableHlo.TRef.binary main_call7.v6 main_call7.v5 main_call7.v7 mulf,
    StableHlo.TRef.ternary main_call7.v1 (TRef.of main_v149 : TRef sig ⟨S1000000x1, .f32⟩) main_call7.v7 main_call7.call1.v0 select ]

/-- The readout: the node values summed into their graphs' rows of a zero `[1024,1]` table (result `main_v153`). -/
abbrev opsG : List (HloOp τ sig (Elt F)) :=
  [
    StableHlo.nullary main_cst_28 (constant S_ .f32 0x00000000#32),
    StableHlo.unary main_cst_28 main_v151 (broadcastInDim S1024x1 ![] bcast_S_S1024x1 : (⟨S_, .f32⟩ : BufTy).Contents (Elt F) → (⟨S1024x1, .f32⟩ : BufTy).Contents (Elt F)),
    StableHlo.unary main_arg3 main_v152 (broadcastInDim S1000000x1 ![0] bcast_S1000000_S1000000x1_0 : (⟨S1000000, .i32⟩ : BufTy).Contents (Elt F) → (⟨S1000000x1, .i32⟩ : BufTy).Contents (Elt F)),
    StableHlo.ternary main_v151 main_v152 main_v150 main_v153 ((fun x i u => Host.scatterAdd scatter_S1024x1_S1000000x1_S1000000x1_1_0_0_1 x i u) : (⟨S1024x1, .f32⟩ : BufTy).Contents (Elt F) → (⟨S1000000x1, .i32⟩ : BufTy).Contents (Elt F) → (⟨S1000000x1, .f32⟩ : BufTy).Contents (Elt F) → (⟨S1024x1, .f32⟩ : BufTy).Contents (Elt F)) ]

/-- @main's 273 operations, in order. -/
abbrev ops : List (HloOp τ sig (Elt F)) := opsA ++ opsB ++ opsC ++ opsD ++ opsE ++ opsF ++ opsG

/-! ## @main is that line

@main is printed in four windows; each window is the line of its own operations once the functions' bodies are
unfolded at their calls and sequencing is reassociated, and the four lines in order are the seven stages in order. -/

/-- The operations of @main's first window. -/
private abbrev w0 : List (HloOp τ sig (Elt F)) :=
  [
    StableHlo.nullary main_cst (constant S_ .f32 0x3F800000#32),
    StableHlo.unary main_cst main_v0 (broadcastInDim S4000000 ![] bcast_S_S4000000 : (⟨S_, .f32⟩ : BufTy).Contents (Elt F) → (⟨S4000000, .f32⟩ : BufTy).Contents (Elt F)),
    StableHlo.nullary main_cst_0 (constant S_ .f32 0x00000000#32),
    StableHlo.unary main_cst_0 main_v1 (broadcastInDim S1000000 ![] bcast_S_S1000000 : (⟨S_, .f32⟩ : BufTy).Contents (Elt F) → (⟨S1000000, .f32⟩ : BufTy).Contents (Elt F)),
    StableHlo.unary main_arg1 main_v2 (broadcastInDim S4000000x1 ![0] bcast_S4000000_S4000000x1_0 : (⟨S4000000, .i32⟩ : BufTy).Contents (Elt F) → (⟨S4000000x1, .i32⟩ : BufTy).Contents (Elt F)),
    StableHlo.ternary main_v1 main_v2 main_v0 main_v3 ((fun x i u => Host.scatterAdd scatter_S1000000_S4000000x1_S4000000_n_0_0_1 x i u) : (⟨S1000000, .f32⟩ : BufTy).Contents (Elt F) → (⟨S4000000x1, .i32⟩ : BufTy).Contents (Elt F) → (⟨S4000000, .f32⟩ : BufTy).Contents (Elt F) → (⟨S1000000, .f32⟩ : BufTy).Contents (Elt F)),
    StableHlo.nullary main_cst_1 (constant S_ .f32 0x00000000#32),
    StableHlo.unary main_cst_1 main_v4 (broadcastInDim S1000000 ![] bcast_S_S1000000 : (⟨S_, .f32⟩ : BufTy).Contents (Elt F) → (⟨S1000000, .f32⟩ : BufTy).Contents (Elt F)),
    StableHlo.unary main_arg2 main_v5 (broadcastInDim S4000000x1 ![0] bcast_S4000000_S4000000x1_0 : (⟨S4000000, .i32⟩ : BufTy).Contents (Elt F) → (⟨S4000000x1, .i32⟩ : BufTy).Contents (Elt F)),
    StableHlo.ternary main_v4 main_v5 main_v0 main_v6 ((fun x i u => Host.scatterAdd scatter_S1000000_S4000000x1_S4000000_n_0_0_1 x i u) : (⟨S1000000, .f32⟩ : BufTy).Contents (Elt F) → (⟨S4000000x1, .i32⟩ : BufTy).Contents (Elt F) → (⟨S4000000, .f32⟩ : BufTy).Contents (Elt F) → (⟨S1000000, .f32⟩ : BufTy).Contents (Elt F)),
    StableHlo.nullary main_cst_2 (constant S_ .f32 0x00000000#32),
    StableHlo.unary main_cst_2 main_v7 (broadcastInDim S1000000 ![] bcast_S_S1000000 : (⟨S_, .f32⟩ : BufTy).Contents (Elt F) → (⟨S1000000, .f32⟩ : BufTy).Contents (Elt F)),
    StableHlo.binary main_v3 main_v7 main_v8 (cmpf .ogt : (⟨S1000000, .f32⟩ : BufTy).Contents (Elt F) → (⟨S1000000, .f32⟩ : BufTy).Contents (Elt F) → (⟨S1000000, .i1⟩ : BufTy).Contents (Elt F)),
    StableHlo.nullary main_cst_3 (constant S_ .f32 0x3F800000#32),
    StableHlo.unary main_cst_3 main_v9 (broadcastInDim S1000000 ![] bcast_S_S1000000 : (⟨S_, .f32⟩ : BufTy).Contents (Elt F) → (⟨S1000000, .f32⟩ : BufTy).Contents (Elt F)),
    StableHlo.binary main_v3 main_v9 main_v10 (maximumf : (⟨S1000000, .f32⟩ : BufTy).Contents (Elt F) → (⟨S1000000, .f32⟩ : BufTy).Contents (Elt F) → (⟨S1000000, .f32⟩ : BufTy).Contents (Elt F)),
    StableHlo.unary main_v10 main_v11 (Host.rsqrt : (⟨S1000000, .f32⟩ : BufTy).Contents (Elt F) → (⟨S1000000, .f32⟩ : BufTy).Contents (Elt F)),
    StableHlo.nullary main_cst_4 (constant S_ .f32 0x00000000#32),
    StableHlo.TRef.unary (TRef.of main_cst_4 : TRef sig ⟨S_, .f32⟩) main_call0.v0 id,
    StableHlo.TRef.unary main_call0.v0 main_call0.v1 (broadcastInDim S1000000 ![] bcast_S_S1000000),
    StableHlo.TRef.ternary (TRef.of main_v8 : TRef sig ⟨S1000000, .i1⟩) (TRef.of main_v11 : TRef sig ⟨S1000000, .f32⟩) main_call0.v1 main_call0.v2 select,
    StableHlo.unary main_v12 main_v13 (broadcastInDim S1000000x1 ![0] bcast_S1000000_S1000000x1_0 : (⟨S1000000, .f32⟩ : BufTy).Contents (Elt F) → (⟨S1000000x1, .f32⟩ : BufTy).Contents (Elt F)),
    StableHlo.nullary main_cst_5 (constant S_ .f32 0x00000000#32),
    StableHlo.unary main_cst_5 main_v14 (broadcastInDim S1000000 ![] bcast_S_S1000000 : (⟨S_, .f32⟩ : BufTy).Contents (Elt F) → (⟨S1000000, .f32⟩ : BufTy).Contents (Elt F)),
    StableHlo.binary main_v6 main_v14 main_v15 (cmpf .ogt : (⟨S1000000, .f32⟩ : BufTy).Contents (Elt F) → (⟨S1000000, .f32⟩ : BufTy).Contents (Elt F) → (⟨S1000000, .i1⟩ : BufTy).Contents (Elt F)),
    StableHlo.nullary main_cst_6 (constant S_ .f32 0x3F800000#32),
    StableHlo.unary main_cst_6 main_v16 (broadcastInDim S1000000 ![] bcast_S_S1000000 : (⟨S_, .f32⟩ : BufTy).Contents (Elt F) → (⟨S1000000, .f32⟩ : BufTy).Contents (Elt F)),
    StableHlo.binary main_v6 main_v16 main_v17 (maximumf : (⟨S1000000, .f32⟩ : BufTy).Contents (Elt F) → (⟨S1000000, .f32⟩ : BufTy).Contents (Elt F) → (⟨S1000000, .f32⟩ : BufTy).Contents (Elt F)),
    StableHlo.unary main_v17 main_v18 (Host.rsqrt : (⟨S1000000, .f32⟩ : BufTy).Contents (Elt F) → (⟨S1000000, .f32⟩ : BufTy).Contents (Elt F)),
    StableHlo.nullary main_cst_7 (constant S_ .f32 0x00000000#32),
    StableHlo.TRef.unary (TRef.of main_cst_7 : TRef sig ⟨S_, .f32⟩) main_call1.v0 id,
    StableHlo.TRef.unary main_call1.v0 main_call1.v1 (broadcastInDim S1000000 ![] bcast_S_S1000000),
    StableHlo.TRef.ternary (TRef.of main_v15 : TRef sig ⟨S1000000, .i1⟩) (TRef.of main_v18 : TRef sig ⟨S1000000, .f32⟩) main_call1.v1 main_call1.v2 select,
    StableHlo.unary main_v19 main_v20 (broadcastInDim S1000000x1 ![0] bcast_S1000000_S1000000x1_0 : (⟨S1000000, .f32⟩ : BufTy).Contents (Elt F) → (⟨S1000000x1, .f32⟩ : BufTy).Contents (Elt F)),
    StableHlo.binary main_arg0 main_arg4 main_v21 ((fun l r => Host.dotGeneral dot_S1000000x64_S64x32_S1000000x32_1_0_0_1_n_n none l r) : (⟨S1000000x64, .f32⟩ : BufTy).Contents (Elt F) → (⟨S64x32, .f32⟩ : BufTy).Contents (Elt F) → (⟨S1000000x32, .f32⟩ : BufTy).Contents (Elt F)),
    StableHlo.unary main_arg5 main_v22 (broadcastInDim S1x32 ![1] bcast_S32_S1x32_1 : (⟨S32, .f32⟩ : BufTy).Contents (Elt F) → (⟨S1x32, .f32⟩ : BufTy).Contents (Elt F)),
    StableHlo.unary main_v22 main_v23 (broadcastInDim S1000000x32 ![0, 1] bcast_S1x32_S1000000x32_0_1 : (⟨S1x32, .f32⟩ : BufTy).Contents (Elt F) → (⟨S1000000x32, .f32⟩ : BufTy).Contents (Elt F)),
    StableHlo.binary main_v21 main_v23 main_v24 (addf : (⟨S1000000x32, .f32⟩ : BufTy).Contents (Elt F) → (⟨S1000000x32, .f32⟩ : BufTy).Contents (Elt F) → (⟨S1000000x32, .f32⟩ : BufTy).Contents (Elt F)),
    StableHlo.nullary main_cst_8 (constant S_ .f32 0x00000000#32),
    StableHlo.binary main_v24 main_cst_8 main_v25 ((fun x v => Host.reduceAdd x v reducesTo_S1000000x32_S1000000_d1 h_S_) : (⟨S1000000x32, .f32⟩ : BufTy).Contents (Elt F) → (⟨S_, .f32⟩ : BufTy).Contents (Elt F) → (⟨S1000000, .f32⟩ : BufTy).Contents (Elt F)),
    StableHlo.unary main_v25 main_v26 (broadcastInDim S1000000x1 ![0] bcast_S1000000_S1000000x1_0 : (⟨S1000000, .f32⟩ : BufTy).Contents (Elt F) → (⟨S1000000x1, .f32⟩ : BufTy).Contents (Elt F)),
    StableHlo.nullary main_cst_9 (constant S_ .f32 0x42000000#32),
    StableHlo.unary main_cst_9 main_v27 (broadcastInDim S1000000x1 ![] bcast_S_S1000000x1 : (⟨S_, .f32⟩ : BufTy).Contents (Elt F) → (⟨S1000000x1, .f32⟩ : BufTy).Contents (Elt F)),
    StableHlo.binary main_v26 main_v27 main_v28 (Host.divf : (⟨S1000000x1, .f32⟩ : BufTy).Contents (Elt F) → (⟨S1000000x1, .f32⟩ : BufTy).Contents (Elt F) → (⟨S1000000x1, .f32⟩ : BufTy).Contents (Elt F)),
    StableHlo.unary main_v28 main_v29 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v24 main_v29 main_v30 (subf : (⟨S1000000x32, .f32⟩ : BufTy).Contents (Elt F) → (⟨S1000000x32, .f32⟩ : BufTy).Contents (Elt F) → (⟨S1000000x32, .f32⟩ : BufTy).Contents (Elt F)),
    StableHlo.binary main_v30 main_v30 main_v31 (mulf : (⟨S1000000x32, .f32⟩ : BufTy).Contents (Elt F) → (⟨S1000000x32, .f32⟩ : BufTy).Contents (Elt F) → (⟨S1000000x32, .f32⟩ : BufTy).Contents (Elt F)),
    StableHlo.nullary main_cst_10 (constant S_ .f32 0x00000000#32),
    StableHlo.binary main_v31 main_cst_10 main_v32 ((fun x v => Host.reduceAdd x v reducesTo_S1000000x32_S1000000_d1 h_S_) : (⟨S1000000x32, .f32⟩ : BufTy).Contents (Elt F) → (⟨S_, .f32⟩ : BufTy).Contents (Elt F) → (⟨S1000000, .f32⟩ : BufTy).Contents (Elt F)),
    StableHlo.unary main_v32 main_v33 (broadcastInDim S1000000x1 ![0] bcast_S1000000_S1000000x1_0 : (⟨S1000000, .f32⟩ : BufTy).Contents (Elt F) → (⟨S1000000x1, .f32⟩ : BufTy).Contents (Elt F)),
    StableHlo.nullary main_cst_11 (constant S_ .f32 0x42000000#32),
    StableHlo.unary main_cst_11 main_v34 (broadcastInDim S1000000x1 ![] bcast_S_S1000000x1 : (⟨S_, .f32⟩ : BufTy).Contents (Elt F) → (⟨S1000000x1, .f32⟩ : BufTy).Contents (Elt F)),
    StableHlo.binary main_v33 main_v34 main_v35 (Host.divf : (⟨S1000000x1, .f32⟩ : BufTy).Contents (Elt F) → (⟨S1000000x1, .f32⟩ : BufTy).Contents (Elt F) → (⟨S1000000x1, .f32⟩ : BufTy).Contents (Elt F)),
    StableHlo.unary main_v28 main_v36 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v24 main_v36 main_v37 (subf : (⟨S1000000x32, .f32⟩ : BufTy).Contents (Elt F) → (⟨S1000000x32, .f32⟩ : BufTy).Contents (Elt F) → (⟨S1000000x32, .f32⟩ : BufTy).Contents (Elt F)),
    StableHlo.nullary main_cst_12 (constant S_ .f32 0x3727C5AC#32),
    StableHlo.unary main_cst_12 main_v38 (broadcastInDim S1000000x1 ![] bcast_S_S1000000x1 : (⟨S_, .f32⟩ : BufTy).Contents (Elt F) → (⟨S1000000x1, .f32⟩ : BufTy).Contents (Elt F)),
    StableHlo.binary main_v35 main_v38 main_v39 (addf : (⟨S1000000x1, .f32⟩ : BufTy).Contents (Elt F) → (⟨S1000000x1, .f32⟩ : BufTy).Contents (Elt F) → (⟨S1000000x1, .f32⟩ : BufTy).Contents (Elt F)),
    StableHlo.unary main_v39 main_v40 (Host.rsqrt : (⟨S1000000x1, .f32⟩ : BufTy).Contents (Elt F) → (⟨S1000000x1, .f32⟩ : BufTy).Contents (Elt F)),
    StableHlo.unary main_v40 main_v41 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v37 main_v41 main_v42 (mulf : (⟨S1000000x32, .f32⟩ : BufTy).Contents (Elt F) → (⟨S1000000x32, .f32⟩ : BufTy).Contents (Elt F) → (⟨S1000000x32, .f32⟩ : BufTy).Contents (Elt F)),
    StableHlo.unary main_arg6 main_v43 (broadcastInDim S1x32 ![1] bcast_S32_S1x32_1 : (⟨S32, .f32⟩ : BufTy).Contents (Elt F) → (⟨S1x32, .f32⟩ : BufTy).Contents (Elt F)),
    StableHlo.unary main_v43 main_v44 (broadcastInDim S1000000x32 ![0, 1] bcast_S1x32_S1000000x32_0_1 : (⟨S1x32, .f32⟩ : BufTy).Contents (Elt F) → (⟨S1000000x32, .f32⟩ : BufTy).Contents (Elt F)),
    StableHlo.binary main_v42 main_v44 main_v45 (mulf : (⟨S1000000x32, .f32⟩ : BufTy).Contents (Elt F) → (⟨S1000000x32, .f32⟩ : BufTy).Contents (Elt F) → (⟨S1000000x32, .f32⟩ : BufTy).Contents (Elt F)) ]

/-- The operations of @main's second window. -/
private abbrev w1 : List (HloOp τ sig (Elt F)) :=
  [
    StableHlo.unary main_arg7 main_v46 (broadcastInDim S1x32 ![1] bcast_S32_S1x32_1 : (⟨S32, .f32⟩ : BufTy).Contents (Elt F) → (⟨S1x32, .f32⟩ : BufTy).Contents (Elt F)),
    StableHlo.unary main_v46 main_v47 (broadcastInDim S1000000x32 ![0, 1] bcast_S1x32_S1000000x32_0_1 : (⟨S1x32, .f32⟩ : BufTy).Contents (Elt F) → (⟨S1000000x32, .f32⟩ : BufTy).Contents (Elt F)),
    StableHlo.binary main_v45 main_v47 main_v48 (addf : (⟨S1000000x32, .f32⟩ : BufTy).Contents (Elt F) → (⟨S1000000x32, .f32⟩ : BufTy).Contents (Elt F) → (⟨S1000000x32, .f32⟩ : BufTy).Contents (Elt F)),
    StableHlo.TRef.nullary main_call2.cst (constant S_ .f32 0x00000000#32),
    StableHlo.TRef.unary main_call2.cst main_call2.v0 (broadcastInDim S1000000x32 ![] bcast_S_S1000000x32),
    StableHlo.TRef.binary (TRef.of main_v48 : TRef sig ⟨S1000000x32, .f32⟩) main_call2.v0 main_call2.v1 (cmpf .ogt),
    StableHlo.TRef.nullary main_call2.cst_0 (constant S_ .f32 0x00000000#32),
    StableHlo.TRef.unary main_call2.cst_0 main_call2.v2 (broadcastInDim S1000000x32 ![] bcast_S_S1000000x32),
    StableHlo.TRef.binary (TRef.of main_v48 : TRef sig ⟨S1000000x32, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S1000000x32 ![] bcast_S_S1000000x32),
    StableHlo.TRef.ternary main_call2.v3 main_call2.call0.v1 (TRef.of main_v48 : TRef sig ⟨S1000000x32, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S1000000x32 ![] bcast_S_S1000000x32),
    StableHlo.TRef.binary main_call2.v6 main_call2.v5 main_call2.v7 mulf,
    StableHlo.TRef.ternary main_call2.v1 (TRef.of main_v48 : TRef sig ⟨S1000000x32, .f32⟩) main_call2.v7 main_call2.call1.v0 select,
    StableHlo.unary main_v13 main_v50 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v49 main_v50 main_v51 (mulf : (⟨S1000000x32, .f32⟩ : BufTy).Contents (Elt F) → (⟨S1000000x32, .f32⟩ : BufTy).Contents (Elt F) → (⟨S1000000x32, .f32⟩ : BufTy).Contents (Elt F)),
    StableHlo.nullary main_c (constantI S_ 32 0#32),
    StableHlo.unary main_c main_v52 (broadcastInDim S4000000 ![] bcast_S_S4000000 : (⟨S_, .i32⟩ : BufTy).Contents (Elt F) → (⟨S4000000, .i32⟩ : BufTy).Contents (Elt F)),
    StableHlo.binary main_arg1 main_v52 main_v53 (cmpi .slt : (⟨S4000000, .i32⟩ : BufTy).Contents (Elt F) → (⟨S4000000, .i32⟩ : BufTy).Contents (Elt F) → (⟨S4000000, .i1⟩ : BufTy).Contents (Elt F)),
    StableHlo.nullary main_c_13 (constantI S_ 32 1000000#32),
    StableHlo.unary main_c_13 main_v54 (broadcastInDim S4000000 ![] bcast_S_S4000000 : (⟨S_, .i32⟩ : BufTy).Contents (Elt F) → (⟨S4000000, .i32⟩ : BufTy).Contents (Elt F)),
    StableHlo.binary main_arg1 main_v54 main_v55 (addi : (⟨S4000000, .i32⟩ : BufTy).Contents (Elt F) → (⟨S4000000, .i32⟩ : BufTy).Contents (Elt F) → (⟨S4000000, .i32⟩ : BufTy).Contents (Elt F)),
    StableHlo.ternary main_v53 main_v55 main_arg1 main_v56 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v56 main_v57 (broadcastInDim S4000000x1 ![0] bcast_S4000000_S4000000x1_0 : (⟨S4000000, .i32⟩ : BufTy).Contents (Elt F) → (⟨S4000000x1, .i32⟩ : BufTy).Contents (Elt F)),
    StableHlo.binary main_v51 main_v57 main_v58 ((fun x i => Host.gather gather_S1000000x32_S4000000x1_S4000000x32_1_0_n_n_0_1_132 x i) : (⟨S1000000x32, .f32⟩ : BufTy).Contents (Elt F) → (⟨S4000000x1, .i32⟩ : BufTy).Contents (Elt F) → (⟨S4000000x32, .f32⟩ : BufTy).Contents (Elt F)),
    StableHlo.nullary main_cst_14 (constant S_ .f32 0x00000000#32),
    StableHlo.unary main_cst_14 main_v59 (broadcastInDim S1000000x32 ![] bcast_S_S1000000x32 : (⟨S_, .f32⟩ : BufTy).Contents (Elt F) → (⟨S1000000x32, .f32⟩ : BufTy).Contents (Elt F)),
    StableHlo.unary main_arg2 main_v60 (broadcastInDim S4000000x1 ![0] bcast_S4000000_S4000000x1_0 : (⟨S4000000, .i32⟩ : BufTy).Contents (Elt F) → (⟨S4000000x1, .i32⟩ : BufTy).Contents (Elt F)),
    StableHlo.ternary main_v59 main_v60 main_v58 main_v61 ((fun x i u => Host.scatterAdd scatter_S1000000x32_S4000000x1_S4000000x32_1_0_0_1 x i u) : (⟨S1000000x32, .f32⟩ : BufTy).Contents (Elt F) → (⟨S4000000x1, .i32⟩ : BufTy).Contents (Elt F) → (⟨S4000000x32, .f32⟩ : BufTy).Contents (Elt F) → (⟨S1000000x32, .f32⟩ : BufTy).Contents (Elt F)),
    StableHlo.unary main_v20 main_v62 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v61 main_v62 main_v63 (mulf : (⟨S1000000x32, .f32⟩ : BufTy).Contents (Elt F) → (⟨S1000000x32, .f32⟩ : BufTy).Contents (Elt F) → (⟨S1000000x32, .f32⟩ : BufTy).Contents (Elt F)),
    StableHlo.binary main_v63 main_arg8 main_v64 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.unary main_arg9 main_v65 (broadcastInDim S1x32 ![1] bcast_S32_S1x32_1 : (⟨S32, .f32⟩ : BufTy).Contents (Elt F) → (⟨S1x32, .f32⟩ : BufTy).Contents (Elt F)),
    StableHlo.unary main_v65 main_v66 (broadcastInDim S1000000x32 ![0, 1] bcast_S1x32_S1000000x32_0_1 : (⟨S1x32, .f32⟩ : BufTy).Contents (Elt F) → (⟨S1000000x32, .f32⟩ : BufTy).Contents (Elt F)),
    StableHlo.binary main_v64 main_v66 main_v67 (addf : (⟨S1000000x32, .f32⟩ : BufTy).Contents (Elt F) → (⟨S1000000x32, .f32⟩ : BufTy).Contents (Elt F) → (⟨S1000000x32, .f32⟩ : BufTy).Contents (Elt F)),
    StableHlo.TRef.nullary main_call3.cst (constant S_ .f32 0x00000000#32),
    StableHlo.TRef.unary main_call3.cst main_call3.v0 (broadcastInDim S1000000x32 ![] bcast_S_S1000000x32),
    StableHlo.TRef.binary (TRef.of main_v67 : TRef sig ⟨S1000000x32, .f32⟩) main_call3.v0 main_call3.v1 (cmpf .ogt),
    StableHlo.TRef.nullary main_call3.cst_0 (constant S_ .f32 0x00000000#32),
    StableHlo.TRef.unary main_call3.cst_0 main_call3.v2 (broadcastInDim S1000000x32 ![] bcast_S_S1000000x32),
    StableHlo.TRef.binary (TRef.of main_v67 : TRef sig ⟨S1000000x32, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S1000000x32 ![] bcast_S_S1000000x32),
    StableHlo.TRef.ternary main_call3.v3 main_call3.call0.v1 (TRef.of main_v67 : TRef sig ⟨S1000000x32, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S1000000x32 ![] bcast_S_S1000000x32),
    StableHlo.TRef.binary main_call3.v6 main_call3.v5 main_call3.v7 mulf,
    StableHlo.TRef.ternary main_call3.v1 (TRef.of main_v67 : TRef sig ⟨S1000000x32, .f32⟩) main_call3.v7 main_call3.call1.v0 select,
    StableHlo.binary main_v68 main_arg10 main_v69 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.unary main_arg11 main_v70 (broadcastInDim S1x32 ![1] bcast_S32_S1x32_1 : (⟨S32, .f32⟩ : BufTy).Contents (Elt F) → (⟨S1x32, .f32⟩ : BufTy).Contents (Elt F)),
    StableHlo.unary main_v70 main_v71 (broadcastInDim S1000000x32 ![0, 1] bcast_S1x32_S1000000x32_0_1 : (⟨S1x32, .f32⟩ : BufTy).Contents (Elt F) → (⟨S1000000x32, .f32⟩ : BufTy).Contents (Elt F)),
    StableHlo.binary main_v69 main_v71 main_v72 (addf : (⟨S1000000x32, .f32⟩ : BufTy).Contents (Elt F) → (⟨S1000000x32, .f32⟩ : BufTy).Contents (Elt F) → (⟨S1000000x32, .f32⟩ : BufTy).Contents (Elt F)),
    StableHlo.nullary main_cst_15 (constant S_ .f32 0x00000000#32),
    StableHlo.binary main_v72 main_cst_15 main_v73 ((fun x v => Host.reduceAdd x v reducesTo_S1000000x32_S1000000_d1 h_S_) : (⟨S1000000x32, .f32⟩ : BufTy).Contents (Elt F) → (⟨S_, .f32⟩ : BufTy).Contents (Elt F) → (⟨S1000000, .f32⟩ : BufTy).Contents (Elt F)),
    StableHlo.unary main_v73 main_v74 (broadcastInDim S1000000x1 ![0] bcast_S1000000_S1000000x1_0 : (⟨S1000000, .f32⟩ : BufTy).Contents (Elt F) → (⟨S1000000x1, .f32⟩ : BufTy).Contents (Elt F)),
    StableHlo.nullary main_cst_16 (constant S_ .f32 0x42000000#32),
    StableHlo.unary main_cst_16 main_v75 (broadcastInDim S1000000x1 ![] bcast_S_S1000000x1 : (⟨S_, .f32⟩ : BufTy).Contents (Elt F) → (⟨S1000000x1, .f32⟩ : BufTy).Contents (Elt F)),
    StableHlo.binary main_v74 main_v75 main_v76 (Host.divf : (⟨S1000000x1, .f32⟩ : BufTy).Contents (Elt F) → (⟨S1000000x1, .f32⟩ : BufTy).Contents (Elt F) → (⟨S1000000x1, .f32⟩ : BufTy).Contents (Elt F)),
    StableHlo.unary main_v76 main_v77 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v72 main_v77 main_v78 (subf : (⟨S1000000x32, .f32⟩ : BufTy).Contents (Elt F) → (⟨S1000000x32, .f32⟩ : BufTy).Contents (Elt F) → (⟨S1000000x32, .f32⟩ : BufTy).Contents (Elt F)),
    StableHlo.binary main_v78 main_v78 main_v79 (mulf : (⟨S1000000x32, .f32⟩ : BufTy).Contents (Elt F) → (⟨S1000000x32, .f32⟩ : BufTy).Contents (Elt F) → (⟨S1000000x32, .f32⟩ : BufTy).Contents (Elt F)),
    StableHlo.nullary main_cst_17 (constant S_ .f32 0x00000000#32),
    StableHlo.binary main_v79 main_cst_17 main_v80 ((fun x v => Host.reduceAdd x v reducesTo_S1000000x32_S1000000_d1 h_S_) : (⟨S1000000x32, .f32⟩ : BufTy).Contents (Elt F) → (⟨S_, .f32⟩ : BufTy).Contents (Elt F) → (⟨S1000000, .f32⟩ : BufTy).Contents (Elt F)),
    StableHlo.unary main_v80 main_v81 (broadcastInDim S1000000x1 ![0] bcast_S1000000_S1000000x1_0 : (⟨S1000000, .f32⟩ : BufTy).Contents (Elt F) → (⟨S1000000x1, .f32⟩ : BufTy).Contents (Elt F)),
    StableHlo.nullary main_cst_18 (constant S_ .f32 0x42000000#32),
    StableHlo.unary main_cst_18 main_v82 (broadcastInDim S1000000x1 ![] bcast_S_S1000000x1 : (⟨S_, .f32⟩ : BufTy).Contents (Elt F) → (⟨S1000000x1, .f32⟩ : BufTy).Contents (Elt F)),
    StableHlo.binary main_v81 main_v82 main_v83 (Host.divf : (⟨S1000000x1, .f32⟩ : BufTy).Contents (Elt F) → (⟨S1000000x1, .f32⟩ : BufTy).Contents (Elt F) → (⟨S1000000x1, .f32⟩ : BufTy).Contents (Elt F)),
    StableHlo.unary main_v76 main_v84 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v72 main_v84 main_v85 (subf : (⟨S1000000x32, .f32⟩ : BufTy).Contents (Elt F) → (⟨S1000000x32, .f32⟩ : BufTy).Contents (Elt F) → (⟨S1000000x32, .f32⟩ : BufTy).Contents (Elt F)),
    StableHlo.nullary main_cst_19 (constant S_ .f32 0x3727C5AC#32),
    StableHlo.unary main_cst_19 main_v86 (broadcastInDim S1000000x1 ![] bcast_S_S1000000x1 : (⟨S_, .f32⟩ : BufTy).Contents (Elt F) → (⟨S1000000x1, .f32⟩ : BufTy).Contents (Elt F)),
    StableHlo.binary main_v83 main_v86 main_v87 (addf : (⟨S1000000x1, .f32⟩ : BufTy).Contents (Elt F) → (⟨S1000000x1, .f32⟩ : BufTy).Contents (Elt F) → (⟨S1000000x1, .f32⟩ : BufTy).Contents (Elt F)),
    StableHlo.unary main_v87 main_v88 (Host.rsqrt : (⟨S1000000x1, .f32⟩ : BufTy).Contents (Elt F) → (⟨S1000000x1, .f32⟩ : BufTy).Contents (Elt F)),
    StableHlo.unary main_v88 main_v89 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v85 main_v89 main_v90 (mulf : (⟨S1000000x32, .f32⟩ : BufTy).Contents (Elt F) → (⟨S1000000x32, .f32⟩ : BufTy).Contents (Elt F) → (⟨S1000000x32, .f32⟩ : BufTy).Contents (Elt F)),
    StableHlo.unary main_arg12 main_v91 (broadcastInDim S1x32 ![1] bcast_S32_S1x32_1 : (⟨S32, .f32⟩ : BufTy).Contents (Elt F) → (⟨S1x32, .f32⟩ : BufTy).Contents (Elt F)),
    StableHlo.unary main_v91 main_v92 (broadcastInDim S1000000x32 ![0, 1] bcast_S1x32_S1000000x32_0_1 : (⟨S1x32, .f32⟩ : BufTy).Contents (Elt F) → (⟨S1000000x32, .f32⟩ : BufTy).Contents (Elt F)),
    StableHlo.binary main_v90 main_v92 main_v93 (mulf : (⟨S1000000x32, .f32⟩ : BufTy).Contents (Elt F) → (⟨S1000000x32, .f32⟩ : BufTy).Contents (Elt F) → (⟨S1000000x32, .f32⟩ : BufTy).Contents (Elt F)),
    StableHlo.unary main_arg13 main_v94 (broadcastInDim S1x32 ![1] bcast_S32_S1x32_1 : (⟨S32, .f32⟩ : BufTy).Contents (Elt F) → (⟨S1x32, .f32⟩ : BufTy).Contents (Elt F)),
    StableHlo.unary main_v94 main_v95 (broadcastInDim S1000000x32 ![0, 1] bcast_S1x32_S1000000x32_0_1 : (⟨S1x32, .f32⟩ : BufTy).Contents (Elt F) → (⟨S1000000x32, .f32⟩ : BufTy).Contents (Elt F)),
    StableHlo.binary main_v93 main_v95 main_v96 (addf : (⟨S1000000x32, .f32⟩ : BufTy).Contents (Elt F) → (⟨S1000000x32, .f32⟩ : BufTy).Contents (Elt F) → (⟨S1000000x32, .f32⟩ : BufTy).Contents (Elt F)),
    StableHlo.TRef.nullary main_call4.cst (constant S_ .f32 0x00000000#32),
    StableHlo.TRef.unary main_call4.cst main_call4.v0 (broadcastInDim S1000000x32 ![] bcast_S_S1000000x32),
    StableHlo.TRef.binary (TRef.of main_v96 : TRef sig ⟨S1000000x32, .f32⟩) main_call4.v0 main_call4.v1 (cmpf .ogt),
    StableHlo.TRef.nullary main_call4.cst_0 (constant S_ .f32 0x00000000#32),
    StableHlo.TRef.unary main_call4.cst_0 main_call4.v2 (broadcastInDim S1000000x32 ![] bcast_S_S1000000x32),
    StableHlo.TRef.binary (TRef.of main_v96 : TRef sig ⟨S1000000x32, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S1000000x32 ![] bcast_S_S1000000x32),
    StableHlo.TRef.ternary main_call4.v3 main_call4.call0.v1 (TRef.of main_v96 : TRef sig ⟨S1000000x32, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S1000000x32 ![] bcast_S_S1000000x32),
    StableHlo.TRef.binary main_call4.v6 main_call4.v5 main_call4.v7 mulf,
    StableHlo.TRef.ternary main_call4.v1 (TRef.of main_v96 : TRef sig ⟨S1000000x32, .f32⟩) main_call4.v7 main_call4.call1.v0 select ]

/-- The operations of @main's third window. -/
private abbrev w2 : List (HloOp τ sig (Elt F)) :=
  [
    StableHlo.unary main_v13 main_v98 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v97 main_v98 main_v99 (mulf : (⟨S1000000x32, .f32⟩ : BufTy).Contents (Elt F) → (⟨S1000000x32, .f32⟩ : BufTy).Contents (Elt F) → (⟨S1000000x32, .f32⟩ : BufTy).Contents (Elt F)),
    StableHlo.nullary main_c_20 (constantI S_ 32 0#32),
    StableHlo.unary main_c_20 main_v100 (broadcastInDim S4000000 ![] bcast_S_S4000000 : (⟨S_, .i32⟩ : BufTy).Contents (Elt F) → (⟨S4000000, .i32⟩ : BufTy).Contents (Elt F)),
    StableHlo.binary main_arg1 main_v100 main_v101 (cmpi .slt : (⟨S4000000, .i32⟩ : BufTy).Contents (Elt F) → (⟨S4000000, .i32⟩ : BufTy).Contents (Elt F) → (⟨S4000000, .i1⟩ : BufTy).Contents (Elt F)),
    StableHlo.nullary main_c_21 (constantI S_ 32 1000000#32),
    StableHlo.unary main_c_21 main_v102 (broadcastInDim S4000000 ![] bcast_S_S4000000 : (⟨S_, .i32⟩ : BufTy).Contents (Elt F) → (⟨S4000000, .i32⟩ : BufTy).Contents (Elt F)),
    StableHlo.binary main_arg1 main_v102 main_v103 (addi : (⟨S4000000, .i32⟩ : BufTy).Contents (Elt F) → (⟨S4000000, .i32⟩ : BufTy).Contents (Elt F) → (⟨S4000000, .i32⟩ : BufTy).Contents (Elt F)),
    StableHlo.ternary main_v101 main_v103 main_arg1 main_v104 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v104 main_v105 (broadcastInDim S4000000x1 ![0] bcast_S4000000_S4000000x1_0 : (⟨S4000000, .i32⟩ : BufTy).Contents (Elt F) → (⟨S4000000x1, .i32⟩ : BufTy).Contents (Elt F)),
    StableHlo.binary main_v99 main_v105 main_v106 ((fun x i => Host.gather gather_S1000000x32_S4000000x1_S4000000x32_1_0_n_n_0_1_132 x i) : (⟨S1000000x32, .f32⟩ : BufTy).Contents (Elt F) → (⟨S4000000x1, .i32⟩ : BufTy).Contents (Elt F) → (⟨S4000000x32, .f32⟩ : BufTy).Contents (Elt F)),
    StableHlo.nullary main_cst_22 (constant S_ .f32 0x00000000#32),
    StableHlo.unary main_cst_22 main_v107 (broadcastInDim S1000000x32 ![] bcast_S_S1000000x32 : (⟨S_, .f32⟩ : BufTy).Contents (Elt F) → (⟨S1000000x32, .f32⟩ : BufTy).Contents (Elt F)),
    StableHlo.unary main_arg2 main_v108 (broadcastInDim S4000000x1 ![0] bcast_S4000000_S4000000x1_0 : (⟨S4000000, .i32⟩ : BufTy).Contents (Elt F) → (⟨S4000000x1, .i32⟩ : BufTy).Contents (Elt F)),
    StableHlo.ternary main_v107 main_v108 main_v106 main_v109 ((fun x i u => Host.scatterAdd scatter_S1000000x32_S4000000x1_S4000000x32_1_0_0_1 x i u) : (⟨S1000000x32, .f32⟩ : BufTy).Contents (Elt F) → (⟨S4000000x1, .i32⟩ : BufTy).Contents (Elt F) → (⟨S4000000x32, .f32⟩ : BufTy).Contents (Elt F) → (⟨S1000000x32, .f32⟩ : BufTy).Contents (Elt F)),
    StableHlo.unary main_v20 main_v110 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v109 main_v110 main_v111 (mulf : (⟨S1000000x32, .f32⟩ : BufTy).Contents (Elt F) → (⟨S1000000x32, .f32⟩ : BufTy).Contents (Elt F) → (⟨S1000000x32, .f32⟩ : BufTy).Contents (Elt F)),
    StableHlo.binary main_v111 main_arg14 main_v112 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.unary main_arg15 main_v113 (broadcastInDim S1x32 ![1] bcast_S32_S1x32_1 : (⟨S32, .f32⟩ : BufTy).Contents (Elt F) → (⟨S1x32, .f32⟩ : BufTy).Contents (Elt F)),
    StableHlo.unary main_v113 main_v114 (broadcastInDim S1000000x32 ![0, 1] bcast_S1x32_S1000000x32_0_1 : (⟨S1x32, .f32⟩ : BufTy).Contents (Elt F) → (⟨S1000000x32, .f32⟩ : BufTy).Contents (Elt F)),
    StableHlo.binary main_v112 main_v114 main_v115 (addf : (⟨S1000000x32, .f32⟩ : BufTy).Contents (Elt F) → (⟨S1000000x32, .f32⟩ : BufTy).Contents (Elt F) → (⟨S1000000x32, .f32⟩ : BufTy).Contents (Elt F)),
    StableHlo.TRef.nullary main_call5.cst (constant S_ .f32 0x00000000#32),
    StableHlo.TRef.unary main_call5.cst main_call5.v0 (broadcastInDim S1000000x32 ![] bcast_S_S1000000x32),
    StableHlo.TRef.binary (TRef.of main_v115 : TRef sig ⟨S1000000x32, .f32⟩) main_call5.v0 main_call5.v1 (cmpf .ogt),
    StableHlo.TRef.nullary main_call5.cst_0 (constant S_ .f32 0x00000000#32),
    StableHlo.TRef.unary main_call5.cst_0 main_call5.v2 (broadcastInDim S1000000x32 ![] bcast_S_S1000000x32),
    StableHlo.TRef.binary (TRef.of main_v115 : TRef sig ⟨S1000000x32, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S1000000x32 ![] bcast_S_S1000000x32),
    StableHlo.TRef.ternary main_call5.v3 main_call5.call0.v1 (TRef.of main_v115 : TRef sig ⟨S1000000x32, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S1000000x32 ![] bcast_S_S1000000x32),
    StableHlo.TRef.binary main_call5.v6 main_call5.v5 main_call5.v7 mulf,
    StableHlo.TRef.ternary main_call5.v1 (TRef.of main_v115 : TRef sig ⟨S1000000x32, .f32⟩) main_call5.v7 main_call5.call1.v0 select,
    StableHlo.binary main_v116 main_arg16 main_v117 ((fun l r => Host.dotGeneral dot_S1000000x32_S32x32_S1000000x32_1_0_0_1_n_n none l r) : (⟨S1000000x32, .f32⟩ : BufTy).Contents (Elt F) → (⟨S32x32, .f32⟩ : BufTy).Contents (Elt F) → (⟨S1000000x32, .f32⟩ : BufTy).Contents (Elt F)),
    StableHlo.unary main_arg17 main_v118 (broadcastInDim S1x32 ![1] bcast_S32_S1x32_1 : (⟨S32, .f32⟩ : BufTy).Contents (Elt F) → (⟨S1x32, .f32⟩ : BufTy).Contents (Elt F)),
    StableHlo.unary main_v118 main_v119 (broadcastInDim S1000000x32 ![0, 1] bcast_S1x32_S1000000x32_0_1 : (⟨S1x32, .f32⟩ : BufTy).Contents (Elt F) → (⟨S1000000x32, .f32⟩ : BufTy).Contents (Elt F)),
    StableHlo.binary main_v117 main_v119 main_v120 (addf : (⟨S1000000x32, .f32⟩ : BufTy).Contents (Elt F) → (⟨S1000000x32, .f32⟩ : BufTy).Contents (Elt F) → (⟨S1000000x32, .f32⟩ : BufTy).Contents (Elt F)),
    StableHlo.nullary main_cst_23 (constant S_ .f32 0x00000000#32),
    StableHlo.binary main_v120 main_cst_23 main_v121 ((fun x v => Host.reduceAdd x v reducesTo_S1000000x32_S1000000_d1 h_S_) : (⟨S1000000x32, .f32⟩ : BufTy).Contents (Elt F) → (⟨S_, .f32⟩ : BufTy).Contents (Elt F) → (⟨S1000000, .f32⟩ : BufTy).Contents (Elt F)),
    StableHlo.unary main_v121 main_v122 (broadcastInDim S1000000x1 ![0] bcast_S1000000_S1000000x1_0 : (⟨S1000000, .f32⟩ : BufTy).Contents (Elt F) → (⟨S1000000x1, .f32⟩ : BufTy).Contents (Elt F)),
    StableHlo.nullary main_cst_24 (constant S_ .f32 0x42000000#32),
    StableHlo.unary main_cst_24 main_v123 (broadcastInDim S1000000x1 ![] bcast_S_S1000000x1 : (⟨S_, .f32⟩ : BufTy).Contents (Elt F) → (⟨S1000000x1, .f32⟩ : BufTy).Contents (Elt F)),
    StableHlo.binary main_v122 main_v123 main_v124 (Host.divf : (⟨S1000000x1, .f32⟩ : BufTy).Contents (Elt F) → (⟨S1000000x1, .f32⟩ : BufTy).Contents (Elt F) → (⟨S1000000x1, .f32⟩ : BufTy).Contents (Elt F)),
    StableHlo.unary main_v124 main_v125 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v120 main_v125 main_v126 (subf : (⟨S1000000x32, .f32⟩ : BufTy).Contents (Elt F) → (⟨S1000000x32, .f32⟩ : BufTy).Contents (Elt F) → (⟨S1000000x32, .f32⟩ : BufTy).Contents (Elt F)),
    StableHlo.binary main_v126 main_v126 main_v127 (mulf : (⟨S1000000x32, .f32⟩ : BufTy).Contents (Elt F) → (⟨S1000000x32, .f32⟩ : BufTy).Contents (Elt F) → (⟨S1000000x32, .f32⟩ : BufTy).Contents (Elt F)),
    StableHlo.nullary main_cst_25 (constant S_ .f32 0x00000000#32),
    StableHlo.binary main_v127 main_cst_25 main_v128 ((fun x v => Host.reduceAdd x v reducesTo_S1000000x32_S1000000_d1 h_S_) : (⟨S1000000x32, .f32⟩ : BufTy).Contents (Elt F) → (⟨S_, .f32⟩ : BufTy).Contents (Elt F) → (⟨S1000000, .f32⟩ : BufTy).Contents (Elt F)),
    StableHlo.unary main_v128 main_v129 (broadcastInDim S1000000x1 ![0] bcast_S1000000_S1000000x1_0 : (⟨S1000000, .f32⟩ : BufTy).Contents (Elt F) → (⟨S1000000x1, .f32⟩ : BufTy).Contents (Elt F)),
    StableHlo.nullary main_cst_26 (constant S_ .f32 0x42000000#32),
    StableHlo.unary main_cst_26 main_v130 (broadcastInDim S1000000x1 ![] bcast_S_S1000000x1 : (⟨S_, .f32⟩ : BufTy).Contents (Elt F) → (⟨S1000000x1, .f32⟩ : BufTy).Contents (Elt F)),
    StableHlo.binary main_v129 main_v130 main_v131 (Host.divf : (⟨S1000000x1, .f32⟩ : BufTy).Contents (Elt F) → (⟨S1000000x1, .f32⟩ : BufTy).Contents (Elt F) → (⟨S1000000x1, .f32⟩ : BufTy).Contents (Elt F)),
    StableHlo.unary main_v124 main_v132 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v120 main_v132 main_v133 (subf : (⟨S1000000x32, .f32⟩ : BufTy).Contents (Elt F) → (⟨S1000000x32, .f32⟩ : BufTy).Contents (Elt F) → (⟨S1000000x32, .f32⟩ : BufTy).Contents (Elt F)),
    StableHlo.nullary main_cst_27 (constant S_ .f32 0x3727C5AC#32),
    StableHlo.unary main_cst_27 main_v134 (broadcastInDim S1000000x1 ![] bcast_S_S1000000x1 : (⟨S_, .f32⟩ : BufTy).Contents (Elt F) → (⟨S1000000x1, .f32⟩ : BufTy).Contents (Elt F)),
    StableHlo.binary main_v131 main_v134 main_v135 (addf : (⟨S1000000x1, .f32⟩ : BufTy).Contents (Elt F) → (⟨S1000000x1, .f32⟩ : BufTy).Contents (Elt F) → (⟨S1000000x1, .f32⟩ : BufTy).Contents (Elt F)),
    StableHlo.unary main_v135 main_v136 (Host.rsqrt : (⟨S1000000x1, .f32⟩ : BufTy).Contents (Elt F) → (⟨S1000000x1, .f32⟩ : BufTy).Contents (Elt F)),
    StableHlo.unary main_v136 main_v137 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v133 main_v137 main_v138 (mulf : (⟨S1000000x32, .f32⟩ : BufTy).Contents (Elt F) → (⟨S1000000x32, .f32⟩ : BufTy).Contents (Elt F) → (⟨S1000000x32, .f32⟩ : BufTy).Contents (Elt F)),
    StableHlo.unary main_arg18 main_v139 (broadcastInDim S1x32 ![1] bcast_S32_S1x32_1 : (⟨S32, .f32⟩ : BufTy).Contents (Elt F) → (⟨S1x32, .f32⟩ : BufTy).Contents (Elt F)),
    StableHlo.unary main_v139 main_v140 (broadcastInDim S1000000x32 ![0, 1] bcast_S1x32_S1000000x32_0_1 : (⟨S1x32, .f32⟩ : BufTy).Contents (Elt F) → (⟨S1000000x32, .f32⟩ : BufTy).Contents (Elt F)),
    StableHlo.binary main_v138 main_v140 main_v141 (mulf : (⟨S1000000x32, .f32⟩ : BufTy).Contents (Elt F) → (⟨S1000000x32, .f32⟩ : BufTy).Contents (Elt F) → (⟨S1000000x32, .f32⟩ : BufTy).Contents (Elt F)),
    StableHlo.unary main_arg19 main_v142 (broadcastInDim S1x32 ![1] bcast_S32_S1x32_1 : (⟨S32, .f32⟩ : BufTy).Contents (Elt F) → (⟨S1x32, .f32⟩ : BufTy).Contents (Elt F)),
    StableHlo.unary main_v142 main_v143 (broadcastInDim S1000000x32 ![0, 1] bcast_S1x32_S1000000x32_0_1 : (⟨S1x32, .f32⟩ : BufTy).Contents (Elt F) → (⟨S1000000x32, .f32⟩ : BufTy).Contents (Elt F)),
    StableHlo.binary main_v141 main_v143 main_v144 (addf : (⟨S1000000x32, .f32⟩ : BufTy).Contents (Elt F) → (⟨S1000000x32, .f32⟩ : BufTy).Contents (Elt F) → (⟨S1000000x32, .f32⟩ : BufTy).Contents (Elt F)),
    StableHlo.TRef.nullary main_call6.cst (constant S_ .f32 0x00000000#32),
    StableHlo.TRef.unary main_call6.cst main_call6.v0 (broadcastInDim S1000000x32 ![] bcast_S_S1000000x32),
    StableHlo.TRef.binary (TRef.of main_v144 : TRef sig ⟨S1000000x32, .f32⟩) main_call6.v0 main_call6.v1 (cmpf .ogt),
    StableHlo.TRef.nullary main_call6.cst_0 (constant S_ .f32 0x00000000#32),
    StableHlo.TRef.unary main_call6.cst_0 main_call6.v2 (broadcastInDim S1000000x32 ![] bcast_S_S1000000x32),
    StableHlo.TRef.binary (TRef.of main_v144 : TRef sig ⟨S1000000x32, .f32⟩) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S1000000x32 ![] bcast_S_S1000000x32),
    StableHlo.TRef.ternary main_call6.v3 main_call6.call0.v1 (TRef.of main_v144 : TRef sig ⟨S1000000x32, .f32⟩) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S1000000x32 ![] bcast_S_S1000000x32),
    StableHlo.TRef.binary main_call6.v6 main_call6.v5 main_call6.v7 mulf,
    StableHlo.TRef.ternary main_call6.v1 (TRef.of main_v144 : TRef sig ⟨S1000000x32, .f32⟩) main_call6.v7 main_call6.call1.v0 select,
    StableHlo.binary main_v145 main_arg20 main_v146 ((fun l r => Host.dotGeneral dot_S1000000x32_S32x1_S1000000x1_1_0_0_1_n_n none l r) : (⟨S1000000x32, .f32⟩ : BufTy).Contents (Elt F) → (⟨S32x1, .f32⟩ : BufTy).Contents (Elt F) → (⟨S1000000x1, .f32⟩ : BufTy).Contents (Elt F)),
    StableHlo.unary main_arg21 main_v147 (broadcastInDim S1x1 ![1] bcast_S1_S1x1_1 : (⟨S1, .f32⟩ : BufTy).Contents (Elt F) → (⟨S1x1, .f32⟩ : BufTy).Contents (Elt F)),
    StableHlo.unary main_v147 main_v148 (broadcastInDim S1000000x1 ![0, 1] bcast_S1x1_S1000000x1_0_1 : (⟨S1x1, .f32⟩ : BufTy).Contents (Elt F) → (⟨S1000000x1, .f32⟩ : BufTy).Contents (Elt F)),
    StableHlo.binary main_v146 main_v148 main_v149 (addf : (⟨S1000000x1, .f32⟩ : BufTy).Contents (Elt F) → (⟨S1000000x1, .f32⟩ : BufTy).Contents (Elt F) → (⟨S1000000x1, .f32⟩ : BufTy).Contents (Elt F)) ]

/-- The operations of @main's fourth window. -/
private abbrev w3 : List (HloOp τ sig (Elt F)) :=
  [
    StableHlo.TRef.nullary main_call7.cst (constant S_ .f32 0x00000000#32),
    StableHlo.TRef.unary main_call7.cst main_call7.v0 (broadcastInDim S1000000x1 ![] bcast_S_S1000000x1),
    StableHlo.TRef.binary (TRef.of main_v149 : TRef sig ⟨S1000000x1, .f32⟩) main_call7.v0 main_call7.v1 (cmpf .ogt),
    StableHlo.TRef.nullary main_call7.cst_0 (constant S_ .f32 0x00000000#32),
    StableHlo.TRef.unary main_call7.cst_0 main_call7.v2 (broadcastInDim S1000000x1 ![] bcast_S_S1000000x1),
    StableHlo.TRef.binary (TRef.of main_v149 : TRef sig ⟨S1000000x1, .f32⟩) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S1000000x1 ![] bcast_S_S1000000x1),
    StableHlo.TRef.ternary main_call7.v3 main_call7.call0.v1 (TRef.of main_v149 : TRef sig ⟨S1000000x1, .f32⟩) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S1000000x1 ![] bcast_S_S1000000x1),
    StableHlo.TRef.binary main_call7.v6 main_call7.v5 main_call7.v7 mulf,
    StableHlo.TRef.ternary main_call7.v1 (TRef.of main_v149 : TRef sig ⟨S1000000x1, .f32⟩) main_call7.v7 main_call7.call1.v0 select,
    StableHlo.nullary main_cst_28 (constant S_ .f32 0x00000000#32),
    StableHlo.unary main_cst_28 main_v151 (broadcastInDim S1024x1 ![] bcast_S_S1024x1 : (⟨S_, .f32⟩ : BufTy).Contents (Elt F) → (⟨S1024x1, .f32⟩ : BufTy).Contents (Elt F)),
    StableHlo.unary main_arg3 main_v152 (broadcastInDim S1000000x1 ![0] bcast_S1000000_S1000000x1_0 : (⟨S1000000, .i32⟩ : BufTy).Contents (Elt F) → (⟨S1000000x1, .i32⟩ : BufTy).Contents (Elt F)),
    StableHlo.ternary main_v151 main_v152 main_v150 main_v153 ((fun x i u => Host.scatterAdd scatter_S1024x1_S1000000x1_S1000000x1_1_0_0_1 x i u) : (⟨S1024x1, .f32⟩ : BufTy).Contents (Elt F) → (⟨S1000000x1, .i32⟩ : BufTy).Contents (Elt F) → (⟨S1000000x1, .f32⟩ : BufTy).Contents (Elt F) → (⟨S1024x1, .f32⟩ : BufTy).Contents (Elt F)) ]

set_option maxRecDepth 8192 in
set_option maxHeartbeats 4000000 in
/-- The first window is the line of its operations: the functions' definitions unfolded at their calls, both
    sides are one chain of steps once sequencing is reassociated. -/
private theorem w0_eq (c : Dev nD) : main_part0 (F := F) c = seq w0 := by
  simp only [main_part0, fn_where.body, seq, bind_assoc, pure_bind]
  rfl

set_option maxRecDepth 8192 in
set_option maxHeartbeats 4000000 in
/-- The second window is the line of its operations: the functions' definitions unfolded at their calls, both
    sides are one chain of steps once sequencing is reassociated. -/
private theorem w1_eq (c : Dev nD) : main_part1 (F := F) c = seq w1 := by
  simp only [main_part1, fn_elu.body, fn_where_0.body, fn_where_1.body, seq, bind_assoc, pure_bind]

set_option maxRecDepth 8192 in
set_option maxHeartbeats 4000000 in
/-- The third window is the line of its operations: the functions' definitions unfolded at their calls, both
    sides are one chain of steps once sequencing is reassociated. -/
private theorem w2_eq (c : Dev nD) : main_part2 (F := F) c = seq w2 := by
  simp only [main_part2, fn_elu.body, fn_where_0.body, fn_where_1.body, seq, bind_assoc, pure_bind]
  rfl

set_option maxRecDepth 8192 in
set_option maxHeartbeats 4000000 in
/-- The fourth window is the line of its operations: the functions' definitions unfolded at their calls, both
    sides are one chain of steps once sequencing is reassociated. -/
private theorem w3_eq (c : Dev nD) : main_part3 (F := F) c = seq w3 := by
  simp only [main_part3, fn_elu_2.body, fn_where_3.body, fn_where_4.body, seq, bind_assoc, pure_bind]

/-- The seven stages in order are the four windows in order: the same operations, cut at other places. -/
private theorem ops_windows : (ops : List (HloOp τ sig (Elt F))) = w0 ++ (w1 ++ (w2 ++ w3)) := rfl

/-- @main is the line of the seven stages' operations. -/
theorem main_eq (c : Dev nD) : main (F := F) c = seq ops := by
  rw [ops_windows, seq_append, seq_append, seq_append, ← w0_eq c, ← w1_eq c, ← w2_eq c, ← w3_eq c]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., unary_bufs_sub .., nullary_bufs_sub ..,
    unary_bufs_sub .., unary_bufs_sub .., ternary_bufs_sub .., unary_bufs_sub .., nullary_bufs_sub .., unary_bufs_sub ..,
    binary_bufs_sub .., nullary_bufs_sub .., unary_bufs_sub .., binary_bufs_sub .., unary_bufs_sub .., nullary_bufs_sub ..,
    unary_bufs_sub .., unary_bufs_sub .., ternary_bufs_sub .., unary_bufs_sub ..⟩

theorem opsB_sub : (opsB : List (HloOp τ sig (Elt F))).Forall fun op => op.bufs ⊆ tcRefs τ sig :=
  ⟨binary_bufs_sub .., unary_bufs_sub .., unary_bufs_sub .., binary_bufs_sub .., nullary_bufs_sub .., binary_bufs_sub ..,
    unary_bufs_sub .., nullary_bufs_sub .., unary_bufs_sub .., binary_bufs_sub .., unary_bufs_sub .., binary_bufs_sub ..,
    binary_bufs_sub .., nullary_bufs_sub .., binary_bufs_sub .., unary_bufs_sub .., nullary_bufs_sub .., unary_bufs_sub ..,
    binary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

theorem opsC_sub : (opsC : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., binary_bufs_sub ..⟩

theorem opsD_sub : (opsD : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩

theorem opsE_sub : (opsE : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., binary_bufs_sub ..⟩

theorem opsF_sub : (opsF : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩

theorem opsG_sub : (opsG : List (HloOp τ sig (Elt F))).Forall fun op => op.bufs ⊆ tcRefs τ sig :=
  ⟨nullary_bufs_sub .., unary_bufs_sub .., unary_bufs_sub .., ternary_bufs_sub ..⟩

/-- Every operation touches TensorCore references only. -/
theorem ops_sub : (ops : List (HloOp τ sig (Elt F))).Forall fun op => op.bufs ⊆ tcRefs τ sig :=
  List.forall_append.2 ⟨List.forall_append.2 ⟨List.forall_append.2 ⟨List.forall_append.2 ⟨List.forall_append.2
    ⟨List.forall_append.2 ⟨opsA_sub, opsB_sub⟩, opsC_sub⟩, opsD_sub⟩, opsE_sub⟩, opsF_sub⟩, opsG_sub⟩

private theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

private theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

private theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl⟩

private theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩

private theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl⟩

private theorem opsF_fresh : (opsF : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

private theorem opsG_fresh : (opsG : List (HloOp τ sig (Elt F))).Forall fun op => op.fresh = ∅ :=
  ⟨rfl, rfl, rfl, rfl⟩

/-- Every operation determines its results: none leaves a buffer at contents it does not choose. -/
theorem ops_fresh : ∀ op ∈ (ops : List (HloOp τ sig (Elt F))), op.fresh = ∅ :=
  List.forall_iff_forall_mem.1 (List.forall_append.2 ⟨List.forall_append.2 ⟨List.forall_append.2 ⟨List.forall_append.2
    ⟨List.forall_append.2 ⟨List.forall_append.2 ⟨opsA_fresh, opsB_fresh⟩, opsC_fresh⟩, opsD_fresh⟩, opsE_fresh⟩, opsF_fresh⟩, opsG_fresh⟩)

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefSpec.lean ====
/-
  The reference's value as closed terms of its own host operations, stage by stage: the degree normalizers, the
  input network (a dense layer, layer normalization over the 32 features of a row, ELU), one round of message passing,
  the two blocks (dense + ELU, then dense + layer normalization + ELU; the second followed by the one-column head and
  its ELU) and the per-graph readout. Each definition composes the operations in the order @main applies them.
-/
import proofs.«146749_j85624468013347_2_alg».proof.Proof.Gen.ReferenceIdeal

noncomputable section

namespace Cert.ReferenceIdeal.RefSpec

open Idealize.ShloMosaic Cert.ReferenceIdeal Cert.ReferenceIdeal.Gen

variable {F : FTy → Type} [FloatOps F]

/-- The degree normalizer of one endpoint vector `e` of the edge list, as a column: the number of edges
    ending at each node (a scatter-add of ones), `d ↦ 1/√(max d 1)` where the count is positive and `0` elsewhere. -/
def norm (e : (⟨S4000000, .i32⟩ : BufTy).Contents (Elt F)) : (⟨S1000000x1, .f32⟩ : BufTy).Contents (Elt F) :=
  broadcastInDim S1000000x1 ![0] bcast_S1000000_S1000000x1_0
    (select
      (cmpf .ogt
        (Host.scatterAdd scatter_S1000000_S4000000x1_S4000000_n_0_0_1
          (broadcastInDim S1000000 ![] bcast_S_S1000000 (constant (F := F) S_ .f32 0x00000000#32))
          (broadcastInDim S4000000x1 ![0] bcast_S4000000_S4000000x1_0 e)
          (broadcastInDim S4000000 ![] bcast_S_S4000000 (constant (F := F) S_ .f32 0x3F800000#32)))
        (broadcastInDim S1000000 ![] bcast_S_S1000000 (constant (F := F) S_ .f32 0x00000000#32)))
      (Host.rsqrt (maximumf
        (Host.scatterAdd scatter_S1000000_S4000000x1_S4000000_n_0_0_1
          (broadcastInDim S1000000 ![] bcast_S_S1000000 (constant (F := F) S_ .f32 0x00000000#32))
          (broadcastInDim S4000000x1 ![0] bcast_S4000000_S4000000x1_0 e)
          (broadcastInDim S4000000 ![] bcast_S_S4000000 (constant (F := F) S_ .f32 0x3F800000#32)))
        (broadcastInDim S1000000 ![] bcast_S_S1000000 (constant (F := F) S_ .f32 0x3F800000#32))))
      (broadcastInDim S1000000 ![] bcast_S_S1000000 (id (constant (F := F) S_ .f32 0x00000000#32))))

/-- One round of message passing: scale the rows of `h` by the source normalizer, gather the rows at the
    edges' sources (a negative index wrapped once), scatter-add them at the edges' destinations, scale by the
    destination normalizer. -/
def msg (h : (⟨S1000000x32, .f32⟩ : BufTy).Contents (Elt F)) (ns nd : (⟨S1000000x1, .f32⟩ : BufTy).Contents (Elt F))
    (src dst : (⟨S4000000, .i32⟩ : BufTy).Contents (Elt F)) : (⟨S1000000x32, .f32⟩ : BufTy).Contents (Elt F) :=
  mulf
    (Host.scatterAdd scatter_S1000000x32_S4000000x1_S4000000x32_1_0_0_1
      (broadcastInDim S1000000x32 ![] bcast_S_S1000000x32 (constant (F := F) S_ .f32 0x00000000#32))
      (broadcastInDim S4000000x1 ![0] bcast_S4000000_S4000000x1_0 dst)
      (Host.gather gather_S1000000x32_S4000000x1_S4000000x32_1_0_n_n_0_1_132
        (mulf h (broadcastInDim S1000000x32 ![0, 1] bcast_S1000000x1_S1000000x32_0_1 ns))
        (broadcastInDim S4000000x1 ![0] bcast_S4000000_S4000000x1_0
          (select (cmpi .slt src (broadcastInDim S4000000 ![] bcast_S_S4000000 (constantI S_ 32 0#32)))
            (addi src (broadcastInDim S4000000 ![] bcast_S_S4000000 (constantI S_ 32 1000000#32))) src))))
    (broadcastInDim S1000000x32 ![0, 1] bcast_S1000000x1_S1000000x32_0_1 nd)

/-- The per-graph readout: the node values scatter-added at their graph ids. -/
def readout (o : (⟨S1000000x1, .f32⟩ : BufTy).Contents (Elt F)) (gid : (⟨S1000000, .i32⟩ : BufTy).Contents (Elt F)) :
    (⟨S1024x1, .f32⟩ : BufTy).Contents (Elt F) :=
  Host.scatterAdd scatter_S1024x1_S1000000x1_S1000000x1_1_0_0_1
    (broadcastInDim S1024x1 ![] bcast_S_S1024x1 (constant (F := F) S_ .f32 0x00000000#32))
    (broadcastInDim S1000000x1 ![0] bcast_S1000000_S1000000x1_0 gid) o

/-- A vector of 32 features as every row of an [N, 32] array. -/
def rows (b : (⟨S32, .f32⟩ : BufTy).Contents (Elt F)) : (⟨S1000000x32, .f32⟩ : BufTy).Contents (Elt F) :=
  broadcastInDim S1000000x32 ![0, 1] bcast_S1x32_S1000000x32_0_1 (broadcastInDim S1x32 ![1] bcast_S32_S1x32_1 b)

/-- ELU on an [N, 32] array: `z` where `z > 0`, `1 · expm1 z` elsewhere (the argument of `expm1` cleared to `0` where `z > 0`). -/
def elu (z : (⟨S1000000x32, .f32⟩ : BufTy).Contents (Elt F)) : (⟨S1000000x32, .f32⟩ : BufTy).Contents (Elt F) :=
  select (cmpf .ogt z (broadcastInDim S1000000x32 ![] bcast_S_S1000000x32 (constant (F := F) S_ .f32 0x00000000#32))) z
    (mulf (broadcastInDim S1000000x32 ![] bcast_S_S1000000x32 (constant (F := F) S_ .f32 0x3F800000#32))
      (Host.expm1 (select (cmpf .ogt z (broadcastInDim S1000000x32 ![] bcast_S_S1000000x32 (constant (F := F) S_ .f32 0x00000000#32)))
        (broadcastInDim S1000000x32 ![] bcast_S_S1000000x32 (id (constant (F := F) S_ .f32 0x00000000#32))) z)))

/-- ELU on an [N, 1] array. -/
def elu1 (z : (⟨S1000000x1, .f32⟩ : BufTy).Contents (Elt F)) : (⟨S1000000x1, .f32⟩ : BufTy).Contents (Elt F) :=
  select (cmpf .ogt z (broadcastInDim S1000000x1 ![] bcast_S_S1000000x1 (constant (F := F) S_ .f32 0x00000000#32))) z
    (mulf (broadcastInDim S1000000x1 ![] bcast_S_S1000000x1 (constant (F := F) S_ .f32 0x3F800000#32))
      (Host.expm1 (select (cmpf .ogt z (broadcastInDim S1000000x1 ![] bcast_S_S1000000x1 (constant (F := F) S_ .f32 0x00000000#32)))
        (broadcastInDim S1000000x1 ![] bcast_S_S1000000x1 (id (constant (F := F) S_ .f32 0x00000000#32))) z)))

/-- The input dense layer: `x · w + b`, 64 features to 32. -/
def dense0 (x : (⟨S1000000x64, .f32⟩ : BufTy).Contents (Elt F)) (w : (⟨S64x32, .f32⟩ : BufTy).Contents (Elt F))
    (b : (⟨S32, .f32⟩ : BufTy).Contents (Elt F)) : (⟨S1000000x32, .f32⟩ : BufTy).Contents (Elt F) :=
  addf (Host.dotGeneral dot_S1000000x64_S64x32_S1000000x32_1_0_0_1_n_n none x w) (rows b)

/-- A dense layer `x · w + b`, 32 features to 32. -/
def dense (x : (⟨S1000000x32, .f32⟩ : BufTy).Contents (Elt F)) (w : (⟨S32x32, .f32⟩ : BufTy).Contents (Elt F))
    (b : (⟨S32, .f32⟩ : BufTy).Contents (Elt F)) : (⟨S1000000x32, .f32⟩ : BufTy).Contents (Elt F) :=
  addf (Host.dotGeneral dot_S1000000x32_S32x32_S1000000x32_1_0_0_1_n_n none x w) (rows b)

/-- The head `x · w + b`, 32 features to one. -/
def denseOut (x : (⟨S1000000x32, .f32⟩ : BufTy).Contents (Elt F)) (w : (⟨S32x1, .f32⟩ : BufTy).Contents (Elt F))
    (b : (⟨S1, .f32⟩ : BufTy).Contents (Elt F)) : (⟨S1000000x1, .f32⟩ : BufTy).Contents (Elt F) :=
  addf (Host.dotGeneral dot_S1000000x32_S32x1_S1000000x1_1_0_0_1_n_n none x w)
    (broadcastInDim S1000000x1 ![0, 1] bcast_S1x1_S1000000x1_0_1 (broadcastInDim S1x1 ![1] bcast_S1_S1x1_1 b))

/-- The mean of each row's 32 entries, as a column. -/
def rowMean (y : (⟨S1000000x32, .f32⟩ : BufTy).Contents (Elt F)) : (⟨S1000000x1, .f32⟩ : BufTy).Contents (Elt F) :=
  Host.divf
    (broadcastInDim S1000000x1 ![0] bcast_S1000000_S1000000x1_0
      (Host.reduceAdd y (constant (F := F) S_ .f32 0x00000000#32) reducesTo_S1000000x32_S1000000_d1 h_S_))
    (broadcastInDim S1000000x1 ![] bcast_S_S1000000x1 (constant (F := F) S_ .f32 0x42000000#32))

/-- Layer normalization of each row: `(y − μ) · rsqrt (var + ε) · g + be`, `μ` the row's mean, `var` the mean of the
    squared deviations. -/
def ln (y : (⟨S1000000x32, .f32⟩ : BufTy).Contents (Elt F)) (g be : (⟨S32, .f32⟩ : BufTy).Contents (Elt F)) :
    (⟨S1000000x32, .f32⟩ : BufTy).Contents (Elt F) :=
  addf
    (mulf
      (mulf (subf y (broadcastInDim S1000000x32 ![0, 1] bcast_S1000000x1_S1000000x32_0_1 (rowMean y)))
        (broadcastInDim S1000000x32 ![0, 1] bcast_S1000000x1_S1000000x32_0_1
          (Host.rsqrt (addf
            (rowMean (mulf (subf y (broadcastInDim S1000000x32 ![0, 1] bcast_S1000000x1_S1000000x32_0_1 (rowMean y)))
              (subf y (broadcastInDim S1000000x32 ![0, 1] bcast_S1000000x1_S1000000x32_0_1 (rowMean y)))))
            (broadcastInDim S1000000x1 ![] bcast_S_S1000000x1 (constant (F := F) S_ .f32 0x3727C5AC#32))))))
      (rows g))
    (rows be)

/-- The input network. -/
def mlp0 (x : (⟨S1000000x64, .f32⟩ : BufTy).Contents (Elt F)) (w : (⟨S64x32, .f32⟩ : BufTy).Contents (Elt F))
    (b g be : (⟨S32, .f32⟩ : BufTy).Contents (Elt F)) : (⟨S1000000x32, .f32⟩ : BufTy).Contents (Elt F) :=
  elu (ln (dense0 x w b) g be)

/-- A block: dense + ELU, then dense + layer normalization + ELU. -/
def blk (x : (⟨S1000000x32, .f32⟩ : BufTy).Contents (Elt F)) (wc : (⟨S32x32, .f32⟩ : BufTy).Contents (Elt F))
    (bc : (⟨S32, .f32⟩ : BufTy).Contents (Elt F)) (w : (⟨S32x32, .f32⟩ : BufTy).Contents (Elt F))
    (b g be : (⟨S32, .f32⟩ : BufTy).Contents (Elt F)) : (⟨S1000000x32, .f32⟩ : BufTy).Contents (Elt F) :=
  elu (ln (dense (elu (dense x wc bc)) w b) g be)

/-- The second block followed by the head and its ELU. -/
def blk2 (x : (⟨S1000000x32, .f32⟩ : BufTy).Contents (Elt F)) (wc : (⟨S32x32, .f32⟩ : BufTy).Contents (Elt F))
    (bc : (⟨S32, .f32⟩ : BufTy).Contents (Elt F)) (w : (⟨S32x32, .f32⟩ : BufTy).Contents (Elt F))
    (b g be : (⟨S32, .f32⟩ : BufTy).Contents (Elt F)) (wout : (⟨S32x1, .f32⟩ : BufTy).Contents (Elt F))
    (bout : (⟨S1, .f32⟩ : BufTy).Contents (Elt F)) : (⟨S1000000x1, .f32⟩ : BufTy).Contents (Elt F) :=
  elu1 (denseOut (blk x wc bc w b g be) wout bout)

end Cert.ReferenceIdeal.RefSpec

end
-- ==== Proof.RefStages.lean ====
/-
  The reference's value, stage by stage: what each of the seven stages of @main's line leaves in its result buffer, as the
  closed term of the stage's inputs (RefSpec), that no stage writes an argument or a buffer a later stage still reads, and the
  composition: the output buffer after the whole line is the readout of the network applied to the arguments' contents.
-/
import proofs.«146749_j85624468013347_2_alg».proof.Proof.RefRun
import proofs.«146749_j85624468013347_2_alg».proof.Proof.RefSpec

noncomputable section

namespace Cert.ReferenceIdeal.RefStages

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- A line run after another is the two in order. -/
theorem after_append (a b : List (HloOp τ sig (Elt F))) (V : Valuation τ sig (Elt F)) :
    after (a ++ b) V = after b (after a V) := by
  induction a generalizing V with
  | nil => rfl
  | cons op l ih => simp only [List.cons_append, after_cons, ih]

/-! ## What each stage writes, and so what it keeps -/

/-- The buffers stage A's operations write, in order. -/
abbrev opsA_W : List (Ref sig .tc) :=
  [main_cst, main_v0, main_cst_0, main_v1, main_v2, main_v3, main_cst_1, main_v4,
   main_v5, main_v6, main_cst_2, main_v7, main_v8, main_cst_3, main_v9, main_v10,
   main_v11, main_cst_4, main_call0.v0.ref, main_call0.v1.ref, main_call0.v2.ref, main_v13, main_cst_5, main_v14,
   main_v15, main_cst_6, main_v16, main_v17, main_v18, main_cst_7, main_call1.v0.ref, main_call1.v1.ref,
   main_call1.v2.ref, main_v20]

set_option maxRecDepth 8192 in
set_option maxHeartbeats 4000000 in
theorem opsA_writes : (opsA : List (HloOp τ sig (Elt F))).Forall fun op =>
    op.writes ⊆ (opsA_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stage A does not write keeps its contents through it. -/
theorem opsA_keep (V : Valuation τ sig (Elt F)) (r : Ref sig .tc) (h : r ∉ opsA_W) :
    after opsA V (Proc.devRef .tc r) = V (Proc.devRef .tc r) :=
  after_of_writes_sub opsA V opsA_writes h

/-- The buffers stage B's operations write, in order. -/
abbrev opsB_W : List (Ref sig .tc) :=
  [main_v21, main_v22, main_v23, main_v24, main_cst_8, main_v25, main_v26, main_cst_9,
   main_v27, main_v28, main_v29, main_v30, main_v31, main_cst_10, main_v32, main_v33,
   main_cst_11, main_v34, main_v35, main_v36, main_v37, main_cst_12, main_v38, main_v39,
   main_v40, main_v41, main_v42, main_v43, main_v44, main_v45, main_v46, main_v47,
   main_v48, main_call2.cst.ref, main_call2.v0.ref, main_call2.v1.ref, main_call2.cst_0.ref, main_call2.v2.ref, main_call2.v3.ref, main_call2.cst_1.ref,
   main_call2.call0.v0.ref, main_call2.call0.v1.ref, main_call2.call0.v2.ref, main_call2.v5.ref, main_call2.cst_2.ref, main_call2.v6.ref, main_call2.v7.ref, main_call2.call1.v0.ref]

set_option maxRecDepth 8192 in
set_option maxHeartbeats 4000000 in
theorem opsB_writes : (opsB : List (HloOp τ sig (Elt F))).Forall fun op =>
    op.writes ⊆ (opsB_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stage B does not write keeps its contents through it. -/
theorem opsB_keep (V : Valuation τ sig (Elt F)) (r : Ref sig .tc) (h : r ∉ opsB_W) :
    after opsB V (Proc.devRef .tc r) = V (Proc.devRef .tc r) :=
  after_of_writes_sub opsB V opsB_writes h

/-- The buffers stage C's operations write, in order. -/
abbrev opsC_W : List (Ref sig .tc) :=
  [main_v50, main_v51, main_c, main_v52, main_v53, main_c_13, main_v54, main_v55,
   main_v56, main_v57, main_v58, main_cst_14, main_v59, main_v60, main_v61, main_v62,
   main_v63]

set_option maxRecDepth 8192 in
set_option maxHeartbeats 4000000 in
theorem opsC_writes : (opsC : List (HloOp τ sig (Elt F))).Forall fun op =>
    op.writes ⊆ (opsC_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stage C does not write keeps its contents through it. -/
theorem opsC_keep (V : Valuation τ sig (Elt F)) (r : Ref sig .tc) (h : r ∉ opsC_W) :
    after opsC V (Proc.devRef .tc r) = V (Proc.devRef .tc r) :=
  after_of_writes_sub opsC V opsC_writes h

/-- The buffers stage D's operations write, in order. -/
abbrev opsD_W : List (Ref sig .tc) :=
  [main_v64, main_v65, main_v66, main_v67, main_call3.cst.ref, main_call3.v0.ref, main_call3.v1.ref, main_call3.cst_0.ref,
   main_call3.v2.ref, main_call3.v3.ref, main_call3.cst_1.ref, main_call3.call0.v0.ref, main_call3.call0.v1.ref, main_call3.call0.v2.ref, main_call3.v5.ref, main_call3.cst_2.ref,
   main_call3.v6.ref, main_call3.v7.ref, main_call3.call1.v0.ref, main_v69, main_v70, main_v71, main_v72, main_cst_15,
   main_v73, main_v74, main_cst_16, main_v75, main_v76, main_v77, main_v78, main_v79,
   main_cst_17, main_v80, main_v81, main_cst_18, main_v82, main_v83, main_v84, main_v85,
   main_cst_19, main_v86, main_v87, main_v88, main_v89, main_v90, main_v91, main_v92,
   main_v93, main_v94, main_v95, main_v96, main_call4.cst.ref, main_call4.v0.ref, main_call4.v1.ref, main_call4.cst_0.ref,
   main_call4.v2.ref, main_call4.v3.ref, main_call4.cst_1.ref, main_call4.call0.v0.ref, main_call4.call0.v1.ref, main_call4.call0.v2.ref, main_call4.v5.ref, main_call4.cst_2.ref,
   main_call4.v6.ref, main_call4.v7.ref, main_call4.call1.v0.ref]

set_option maxRecDepth 8192 in
set_option maxHeartbeats 4000000 in
theorem opsD_writes : (opsD : List (HloOp τ sig (Elt F))).Forall fun op =>
    op.writes ⊆ (opsD_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stage D does not write keeps its contents through it. -/
theorem opsD_keep (V : Valuation τ sig (Elt F)) (r : Ref sig .tc) (h : r ∉ opsD_W) :
    after opsD V (Proc.devRef .tc r) = V (Proc.devRef .tc r) :=
  after_of_writes_sub opsD V opsD_writes h

/-- The buffers stage E's operations write, in order. -/
abbrev opsE_W : List (Ref sig .tc) :=
  [main_v98, main_v99, main_c_20, main_v100, main_v101, main_c_21, main_v102, main_v103,
   main_v104, main_v105, main_v106, main_cst_22, main_v107, main_v108, main_v109, main_v110,
   main_v111]

set_option maxRecDepth 8192 in
set_option maxHeartbeats 4000000 in
theorem opsE_writes : (opsE : List (HloOp τ sig (Elt F))).Forall fun op =>
    op.writes ⊆ (opsE_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stage E does not write keeps its contents through it. -/
theorem opsE_keep (V : Valuation τ sig (Elt F)) (r : Ref sig .tc) (h : r ∉ opsE_W) :
    after opsE V (Proc.devRef .tc r) = V (Proc.devRef .tc r) :=
  after_of_writes_sub opsE V opsE_writes h

/-- The buffers stage F's operations write, in order. -/
abbrev opsF_W : List (Ref sig .tc) :=
  [main_v112, main_v113, main_v114, main_v115, main_call5.cst.ref, main_call5.v0.ref, main_call5.v1.ref, main_call5.cst_0.ref,
   main_call5.v2.ref, main_call5.v3.ref, main_call5.cst_1.ref, main_call5.call0.v0.ref, main_call5.call0.v1.ref, main_call5.call0.v2.ref, main_call5.v5.ref, main_call5.cst_2.ref,
   main_call5.v6.ref, main_call5.v7.ref, main_call5.call1.v0.ref, main_v117, main_v118, main_v119, main_v120, main_cst_23,
   main_v121, main_v122, main_cst_24, main_v123, main_v124, main_v125, main_v126, main_v127,
   main_cst_25, main_v128, main_v129, main_cst_26, main_v130, main_v131, main_v132, main_v133,
   main_cst_27, main_v134, main_v135, main_v136, main_v137, main_v138, main_v139, main_v140,
   main_v141, main_v142, main_v143, main_v144, main_call6.cst.ref, main_call6.v0.ref, main_call6.v1.ref, main_call6.cst_0.ref,
   main_call6.v2.ref, main_call6.v3.ref, main_call6.cst_1.ref, main_call6.call0.v0.ref, main_call6.call0.v1.ref, main_call6.call0.v2.ref, main_call6.v5.ref, main_call6.cst_2.ref,
   main_call6.v6.ref, main_call6.v7.ref, main_call6.call1.v0.ref, main_v146, main_v147, main_v148, main_v149, main_call7.cst.ref,
   main_call7.v0.ref, main_call7.v1.ref, main_call7.cst_0.ref, main_call7.v2.ref, main_call7.v3.ref, main_call7.cst_1.ref, main_call7.call0.v0.ref, main_call7.call0.v1.ref,
   main_call7.call0.v2.ref, main_call7.v5.ref, main_call7.cst_2.ref, main_call7.v6.ref, main_call7.v7.ref, main_call7.call1.v0.ref]

set_option maxRecDepth 8192 in
set_option maxHeartbeats 4000000 in
theorem opsF_writes : (opsF : List (HloOp τ sig (Elt F))).Forall fun op =>
    op.writes ⊆ (opsF_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stage F does not write keeps its contents through it. -/
theorem opsF_keep (V : Valuation τ sig (Elt F)) (r : Ref sig .tc) (h : r ∉ opsF_W) :
    after opsF V (Proc.devRef .tc r) = V (Proc.devRef .tc r) :=
  after_of_writes_sub opsF V opsF_writes h

/-- The buffers stage G's operations write, in order. -/
abbrev opsG_W : List (Ref sig .tc) :=
  [main_cst_28, main_v151, main_v152, main_v153]

set_option maxRecDepth 8192 in
set_option maxHeartbeats 4000000 in
theorem opsG_writes : (opsG : List (HloOp τ sig (Elt F))).Forall fun op =>
    op.writes ⊆ (opsG_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stage G does not write keeps its contents through it. -/
theorem opsG_keep (V : Valuation τ sig (Elt F)) (r : Ref sig .tc) (h : r ∉ opsG_W) :
    after opsG V (Proc.devRef .tc r) = V (Proc.devRef .tc r) :=
  after_of_writes_sub opsG V opsG_writes h

/-- @main's 22 arguments. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

set_option maxRecDepth 8192 in
/-- Stage A writes no argument. -/
theorem args_notin_A : ∀ r ∈ argRefs, r ∉ opsA_W := by decide

set_option maxRecDepth 8192 in
/-- Stage B writes no argument. -/
theorem args_notin_B : ∀ r ∈ argRefs, r ∉ opsB_W := by decide

set_option maxRecDepth 8192 in
/-- Stage C writes no argument. -/
theorem args_notin_C : ∀ r ∈ argRefs, r ∉ opsC_W := by decide

set_option maxRecDepth 8192 in
/-- Stage D writes no argument. -/
theorem args_notin_D : ∀ r ∈ argRefs, r ∉ opsD_W := by decide

set_option maxRecDepth 8192 in
/-- Stage E writes no argument. -/
theorem args_notin_E : ∀ r ∈ argRefs, r ∉ opsE_W := by decide

set_option maxRecDepth 8192 in
/-- Stage F writes no argument. -/
theorem args_notin_F : ∀ r ∈ argRefs, r ∉ opsF_W := by decide

set_option maxRecDepth 8192 in
/-- Stage G writes no argument. -/
theorem args_notin_G : ∀ r ∈ argRefs, r ∉ opsG_W := by decide

/-! ## Each stage's result

The fold over a stage's operations at its result buffer, each operation's result read at its own buffer and passed over
at every other, is the stage's closed term of what the stage's input buffers held before it. -/

set_option maxRecDepth 8192 in
set_option maxHeartbeats 4000000 in
theorem opsA_v13 (V : Valuation τ sig (Elt F)) :
    after opsA V (main_v13 : DevRef τ sig)
      = RefSpec.norm (V (main_arg1 : DevRef τ sig)) := by
  simp only [opsA]
  after_results_simp
  rfl

set_option maxRecDepth 8192 in
set_option maxHeartbeats 4000000 in
theorem opsA_v20 (V : Valuation τ sig (Elt F)) :
    after opsA V (main_v20 : DevRef τ sig)
      = RefSpec.norm (V (main_arg2 : DevRef τ sig)) := by
  simp only [opsA]
  after_results_simp
  rfl

set_option maxRecDepth 8192 in
set_option maxHeartbeats 4000000 in
theorem opsB_res (V : Valuation τ sig (Elt F)) :
    after opsB V (main_v49 : DevRef τ sig)
      = RefSpec.mlp0 (V (main_arg0 : DevRef τ sig)) (V (main_arg4 : DevRef τ sig)) (V (main_arg5 : DevRef τ sig)) (V (main_arg6 : DevRef τ sig)) (V (main_arg7 : DevRef τ sig)) := by
  simp only [opsB]
  after_results_simp
  rfl

set_option maxRecDepth 8192 in
set_option maxHeartbeats 4000000 in
theorem opsC_res (V : Valuation τ sig (Elt F)) :
    after opsC V (main_v63 : DevRef τ sig)
      = RefSpec.msg (V (main_v49 : DevRef τ sig)) (V (main_v13 : DevRef τ sig)) (V (main_v20 : DevRef τ sig)) (V (main_arg1 : DevRef τ sig)) (V (main_arg2 : DevRef τ sig)) := by
  simp only [opsC]
  after_results_simp
  rfl

set_option maxRecDepth 8192 in
set_option maxHeartbeats 4000000 in
theorem opsD_res (V : Valuation τ sig (Elt F)) :
    after opsD V (main_v97 : DevRef τ sig)
      = RefSpec.blk (V (main_v63 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  simp only [opsD]
  after_results_simp
  rfl

set_option maxRecDepth 8192 in
set_option maxHeartbeats 4000000 in
theorem opsE_res (V : Valuation τ sig (Elt F)) :
    after opsE V (main_v111 : DevRef τ sig)
      = RefSpec.msg (V (main_v97 : DevRef τ sig)) (V (main_v13 : DevRef τ sig)) (V (main_v20 : DevRef τ sig)) (V (main_arg1 : DevRef τ sig)) (V (main_arg2 : DevRef τ sig)) := by
  simp only [opsE]
  after_results_simp
  rfl

set_option maxRecDepth 8192 in
set_option maxHeartbeats 4000000 in
theorem opsF_res (V : Valuation τ sig (Elt F)) :
    after opsF V (main_v150 : DevRef τ sig)
      = RefSpec.blk2 (V (main_v111 : DevRef τ sig))
          (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) := by
  simp only [opsF]
  after_results_simp
  rfl

set_option maxRecDepth 8192 in
set_option maxHeartbeats 4000000 in
theorem opsG_res (V : Valuation τ sig (Elt F)) :
    after opsG V (main_v153 : DevRef τ sig)
      = RefSpec.readout (V (main_v150 : DevRef τ sig)) (V (main_arg3 : DevRef τ sig)) := by
  simp only [opsG]
  after_results_simp
  rfl

/-! ## The stages composed

`VA V`, …, `VG V` are the contents after the first stage, the first two, …, all seven. No stage writes an argument, so each
holds the arguments at their initial contents; the two normalizer columns are kept from the first stage to the last that
reads them; each stage's result is its term of the earlier results. -/

/-- The contents after stage A. -/
def VA (V : Valuation τ sig (Elt F)) : Valuation τ sig (Elt F) := after opsA V
/-- The contents after stages A–B. -/
def VB (V : Valuation τ sig (Elt F)) : Valuation τ sig (Elt F) := after opsB (VA V)
/-- The contents after stages A–C. -/
def VC (V : Valuation τ sig (Elt F)) : Valuation τ sig (Elt F) := after opsC (VB V)
/-- The contents after stages A–D. -/
def VD (V : Valuation τ sig (Elt F)) : Valuation τ sig (Elt F) := after opsD (VC V)
/-- The contents after stages A–E. -/
def VE (V : Valuation τ sig (Elt F)) : Valuation τ sig (Elt F) := after opsE (VD V)
/-- The contents after stages A–F. -/
def VF (V : Valuation τ sig (Elt F)) : Valuation τ sig (Elt F) := after opsF (VE V)
/-- The contents after stages A–G. -/
def VG (V : Valuation τ sig (Elt F)) : Valuation τ sig (Elt F) := after opsG (VF V)

/-- The whole line is the seven stages in order. -/
theorem after_ops (V : Valuation τ sig (Elt F)) : after ops V = VG V := by
  simp only [ops, after_append]
  rfl

theorem VA_arg (V : Valuation τ sig (Elt F)) {r : Ref sig .tc} (h : r ∈ argRefs) :
    VA V (Proc.devRef .tc r) = V (Proc.devRef .tc r) :=
  opsA_keep V r (args_notin_A r h)
theorem VB_arg (V : Valuation τ sig (Elt F)) {r : Ref sig .tc} (h : r ∈ argRefs) :
    VB V (Proc.devRef .tc r) = V (Proc.devRef .tc r) :=
  (opsB_keep (VA V) r (args_notin_B r h)).trans (VA_arg V h)
theorem VC_arg (V : Valuation τ sig (Elt F)) {r : Ref sig .tc} (h : r ∈ argRefs) :
    VC V (Proc.devRef .tc r) = V (Proc.devRef .tc r) :=
  (opsC_keep (VB V) r (args_notin_C r h)).trans (VB_arg V h)
theorem VD_arg (V : Valuation τ sig (Elt F)) {r : Ref sig .tc} (h : r ∈ argRefs) :
    VD V (Proc.devRef .tc r) = V (Proc.devRef .tc r) :=
  (opsD_keep (VC V) r (args_notin_D r h)).trans (VC_arg V h)
theorem VE_arg (V : Valuation τ sig (Elt F)) {r : Ref sig .tc} (h : r ∈ argRefs) :
    VE V (Proc.devRef .tc r) = V (Proc.devRef .tc r) :=
  (opsE_keep (VD V) r (args_notin_E r h)).trans (VD_arg V h)
theorem VF_arg (V : Valuation τ sig (Elt F)) {r : Ref sig .tc} (h : r ∈ argRefs) :
    VF V (Proc.devRef .tc r) = V (Proc.devRef .tc r) :=
  (opsF_keep (VE V) r (args_notin_F r h)).trans (VE_arg V h)
theorem VG_arg (V : Valuation τ sig (Elt F)) {r : Ref sig .tc} (h : r ∈ argRefs) :
    VG V (Proc.devRef .tc r) = V (Proc.devRef .tc r) :=
  (opsG_keep (VF V) r (args_notin_G r h)).trans (VF_arg V h)

/-- The source normalizer column, of the edges' sources. -/
abbrev nSrc (V : Valuation τ sig (Elt F)) := RefSpec.norm (V (main_arg1 : DevRef τ sig))
/-- The destination normalizer column, of the edges' destinations. -/
abbrev nDst (V : Valuation τ sig (Elt F)) := RefSpec.norm (V (main_arg2 : DevRef τ sig))
/-- The input network's output. -/
abbrev s1 (V : Valuation τ sig (Elt F)) := RefSpec.mlp0 (V (main_arg0 : DevRef τ sig)) (V (main_arg4 : DevRef τ sig)) (V (main_arg5 : DevRef τ sig)) (V (main_arg6 : DevRef τ sig)) (V (main_arg7 : DevRef τ sig))
/-- After the first message passing. -/
abbrev s2 (V : Valuation τ sig (Elt F)) := RefSpec.msg (s1 V) (nSrc V) (nDst V) (V (main_arg1 : DevRef τ sig)) (V (main_arg2 : DevRef τ sig))
/-- After block 1. -/
abbrev s3 (V : Valuation τ sig (Elt F)) := RefSpec.blk (s2 V) (V (main_arg8 : DevRef τ sig)) (V (main_arg9 : DevRef τ sig)) (V (main_arg10 : DevRef τ sig)) (V (main_arg11 : DevRef τ sig)) (V (main_arg12 : DevRef τ sig)) (V (main_arg13 : DevRef τ sig))
/-- After the second message passing. -/
abbrev s4 (V : Valuation τ sig (Elt F)) := RefSpec.msg (s3 V) (nSrc V) (nDst V) (V (main_arg1 : DevRef τ sig)) (V (main_arg2 : DevRef τ sig))
/-- After block 2 and the head. -/
abbrev s5 (V : Valuation τ sig (Elt F)) := RefSpec.blk2 (s4 V) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig))

theorem VA_v13 (V : Valuation τ sig (Elt F)) : VA V (main_v13 : DevRef τ sig) = nSrc V := opsA_v13 V
theorem VA_v20 (V : Valuation τ sig (Elt F)) : VA V (main_v20 : DevRef τ sig) = nDst V := opsA_v20 V
theorem VB_v13 (V : Valuation τ sig (Elt F)) : VB V (main_v13 : DevRef τ sig) = nSrc V :=
  (opsB_keep (VA V) main_v13 (by decide)).trans (VA_v13 V)
theorem VB_v20 (V : Valuation τ sig (Elt F)) : VB V (main_v20 : DevRef τ sig) = nDst V :=
  (opsB_keep (VA V) main_v20 (by decide)).trans (VA_v20 V)
theorem VC_v13 (V : Valuation τ sig (Elt F)) : VC V (main_v13 : DevRef τ sig) = nSrc V :=
  (opsC_keep (VB V) main_v13 (by decide)).trans (VB_v13 V)
theorem VC_v20 (V : Valuation τ sig (Elt F)) : VC V (main_v20 : DevRef τ sig) = nDst V :=
  (opsC_keep (VB V) main_v20 (by decide)).trans (VB_v20 V)
theorem VD_v13 (V : Valuation τ sig (Elt F)) : VD V (main_v13 : DevRef τ sig) = nSrc V :=
  (opsD_keep (VC V) main_v13 (by decide)).trans (VC_v13 V)
theorem VD_v20 (V : Valuation τ sig (Elt F)) : VD V (main_v20 : DevRef τ sig) = nDst V :=
  (opsD_keep (VC V) main_v20 (by decide)).trans (VC_v20 V)
theorem VE_v13 (V : Valuation τ sig (Elt F)) : VE V (main_v13 : DevRef τ sig) = nSrc V :=
  (opsE_keep (VD V) main_v13 (by decide)).trans (VD_v13 V)
theorem VE_v20 (V : Valuation τ sig (Elt F)) : VE V (main_v20 : DevRef τ sig) = nDst V :=
  (opsE_keep (VD V) main_v20 (by decide)).trans (VD_v20 V)

theorem VB_v49 (V : Valuation τ sig (Elt F)) : VB V (main_v49 : DevRef τ sig) = s1 V := by
  rw [show VB V = after opsB (VA V) from rfl, opsB_res, VA_arg V (r := main_arg0) (by decide), VA_arg V (r := main_arg4) (by decide), VA_arg V (r := main_arg5) (by decide), VA_arg V (r := main_arg6) (by decide), VA_arg V (r := main_arg7) (by decide)]
theorem VC_v63 (V : Valuation τ sig (Elt F)) : VC V (main_v63 : DevRef τ sig) = s2 V := by
  rw [show VC V = after opsC (VB V) from rfl, opsC_res, VB_v49, VB_v13, VB_v20, VB_arg V (r := main_arg1) (by decide), VB_arg V (r := main_arg2) (by decide)]
theorem VD_v97 (V : Valuation τ sig (Elt F)) : VD V (main_v97 : DevRef τ sig) = s3 V := by
  rw [show VD V = after opsD (VC V) from rfl, opsD_res, VC_v63, VC_arg V (r := main_arg8) (by decide), VC_arg V (r := main_arg9) (by decide), VC_arg V (r := main_arg10) (by decide), VC_arg V (r := main_arg11) (by decide), VC_arg V (r := main_arg12) (by decide), VC_arg V (r := main_arg13) (by decide)]
theorem VE_v111 (V : Valuation τ sig (Elt F)) : VE V (main_v111 : DevRef τ sig) = s4 V := by
  rw [show VE V = after opsE (VD V) from rfl, opsE_res, VD_v97, VD_v13, VD_v20, VD_arg V (r := main_arg1) (by decide), VD_arg V (r := main_arg2) (by decide)]
theorem VF_v150 (V : Valuation τ sig (Elt F)) : VF V (main_v150 : DevRef τ sig) = s5 V := by
  rw [show VF V = after opsF (VE V) from rfl, opsF_res, VE_v111, VE_arg V (r := main_arg14) (by decide), VE_arg V (r := main_arg15) (by decide), VE_arg V (r := main_arg16) (by decide), VE_arg V (r := main_arg17) (by decide), VE_arg V (r := main_arg18) (by decide), VE_arg V (r := main_arg19) (by decide), VE_arg V (r := main_arg20) (by decide), VE_arg V (r := main_arg21) (by decide)]
theorem VG_v153 (V : Valuation τ sig (Elt F)) : VG V (main_v153 : DevRef τ sig) = RefSpec.readout (s5 V) (V (main_arg3 : DevRef τ sig)) := by
  rw [show VG V = after opsG (VF V) from rfl, opsG_res, VF_v150, VF_arg V (r := main_arg3) (by decide)]

/-- The output buffer after the whole line: the readout, over the graph ids, of the network applied to the features, the
    edge list and the weights the arguments held at the start. -/
theorem out_eq (V : Valuation τ sig (Elt F)) :
    after ops V (main_v153 : DevRef τ sig)
      = RefSpec.readout
          (RefSpec.blk2
            (RefSpec.msg
              (RefSpec.blk
                (RefSpec.msg
                  (RefSpec.mlp0 (V (main_arg0 : DevRef τ sig)) (V (main_arg4 : DevRef τ sig)) (V (main_arg5 : DevRef τ sig)) (V (main_arg6 : DevRef τ sig)) (V (main_arg7 : DevRef τ sig)))
                  (RefSpec.norm (V (main_arg1 : DevRef τ sig))) (RefSpec.norm (V (main_arg2 : DevRef τ sig))) (V (main_arg1 : DevRef τ sig)) (V (main_arg2 : DevRef τ sig)))
                (V (main_arg8 : DevRef τ sig)) (V (main_arg9 : DevRef τ sig)) (V (main_arg10 : DevRef τ sig)) (V (main_arg11 : DevRef τ sig)) (V (main_arg12 : DevRef τ sig)) (V (main_arg13 : DevRef τ sig)))
              (RefSpec.norm (V (main_arg1 : DevRef τ sig))) (RefSpec.norm (V (main_arg2 : DevRef τ sig))) (V (main_arg1 : DevRef τ sig)) (V (main_arg2 : DevRef τ sig)))
            (V (main_arg14 : DevRef τ sig)) (V (main_arg15 : DevRef τ sig)) (V (main_arg16 : DevRef τ sig)) (V (main_arg17 : DevRef τ sig))
            (V (main_arg18 : DevRef τ sig)) (V (main_arg19 : DevRef τ sig)) (V (main_arg20 : DevRef τ sig)) (V (main_arg21 : DevRef τ sig)))
          (V (main_arg3 : DevRef τ sig)) := by
  rw [after_ops]
  exact VG_v153 V

/-- Every argument holds after the whole line what it held before it. -/
theorem args_eq (V : Valuation τ sig (Elt F)) {r : Ref sig .tc} (h : r ∈ argRefs) :
    after ops V (Proc.devRef .tc r) = V (Proc.devRef .tc r) := by
  rw [after_ops]
  exact VG_arg V h

theorem arg0_eq (V : Valuation τ sig (Elt F)) : after ops V (main_arg0 : DevRef τ sig) = (V (main_arg0 : DevRef τ sig)) := args_eq V (by decide)
theorem arg1_eq (V : Valuation τ sig (Elt F)) : after ops V (main_arg1 : DevRef τ sig) = (V (main_arg1 : DevRef τ sig)) := args_eq V (by decide)
theorem arg2_eq (V : Valuation τ sig (Elt F)) : after ops V (main_arg2 : DevRef τ sig) = (V (main_arg2 : DevRef τ sig)) := args_eq V (by decide)
theorem arg3_eq (V : Valuation τ sig (Elt F)) : after ops V (main_arg3 : DevRef τ sig) = (V (main_arg3 : DevRef τ sig)) := args_eq V (by decide)
theorem arg4_eq (V : Valuation τ sig (Elt F)) : after ops V (main_arg4 : DevRef τ sig) = (V (main_arg4 : DevRef τ sig)) := args_eq V (by decide)
theorem arg5_eq (V : Valuation τ sig (Elt F)) : after ops V (main_arg5 : DevRef τ sig) = (V (main_arg5 : DevRef τ sig)) := args_eq V (by decide)
theorem arg6_eq (V : Valuation τ sig (Elt F)) : after ops V (main_arg6 : DevRef τ sig) = (V (main_arg6 : DevRef τ sig)) := args_eq V (by decide)
theorem arg7_eq (V : Valuation τ sig (Elt F)) : after ops V (main_arg7 : DevRef τ sig) = (V (main_arg7 : DevRef τ sig)) := args_eq V (by decide)
theorem arg8_eq (V : Valuation τ sig (Elt F)) : after ops V (main_arg8 : DevRef τ sig) = (V (main_arg8 : DevRef τ sig)) := args_eq V (by decide)
theorem arg9_eq (V : Valuation τ sig (Elt F)) : after ops V (main_arg9 : DevRef τ sig) = (V (main_arg9 : DevRef τ sig)) := args_eq V (by decide)
theorem arg10_eq (V : Valuation τ sig (Elt F)) : after ops V (main_arg10 : DevRef τ sig) = (V (main_arg10 : DevRef τ sig)) := args_eq V (by decide)
theorem arg11_eq (V : Valuation τ sig (Elt F)) : after ops V (main_arg11 : DevRef τ sig) = (V (main_arg11 : DevRef τ sig)) := args_eq V (by decide)
theorem arg12_eq (V : Valuation τ sig (Elt F)) : after ops V (main_arg12 : DevRef τ sig) = (V (main_arg12 : DevRef τ sig)) := args_eq V (by decide)
theorem arg13_eq (V : Valuation τ sig (Elt F)) : after ops V (main_arg13 : DevRef τ sig) = (V (main_arg13 : DevRef τ sig)) := args_eq V (by decide)
theorem arg14_eq (V : Valuation τ sig (Elt F)) : after ops V (main_arg14 : DevRef τ sig) = (V (main_arg14 : DevRef τ sig)) := args_eq V (by decide)
theorem arg15_eq (V : Valuation τ sig (Elt F)) : after ops V (main_arg15 : DevRef τ sig) = (V (main_arg15 : DevRef τ sig)) := args_eq V (by decide)
theorem arg16_eq (V : Valuation τ sig (Elt F)) : after ops V (main_arg16 : DevRef τ sig) = (V (main_arg16 : DevRef τ sig)) := args_eq V (by decide)
theorem arg17_eq (V : Valuation τ sig (Elt F)) : after ops V (main_arg17 : DevRef τ sig) = (V (main_arg17 : DevRef τ sig)) := args_eq V (by decide)
theorem arg18_eq (V : Valuation τ sig (Elt F)) : after ops V (main_arg18 : DevRef τ sig) = (V (main_arg18 : DevRef τ sig)) := args_eq V (by decide)
theorem arg19_eq (V : Valuation τ sig (Elt F)) : after ops V (main_arg19 : DevRef τ sig) = (V (main_arg19 : DevRef τ sig)) := args_eq V (by decide)
theorem arg20_eq (V : Valuation τ sig (Elt F)) : after ops V (main_arg20 : DevRef τ sig) = (V (main_arg20 : DevRef τ sig)) := args_eq V (by decide)
theorem arg21_eq (V : Valuation τ sig (Elt F)) : after ops V (main_arg21 : DevRef τ sig) = (V (main_arg21 : DevRef τ sig)) := args_eq V (by decide)

end Cert.ReferenceIdeal.RefStages

end
-- ==== Proof.RefFinal.lean ====
/-
  The reference's run, read at its output: every weakly fair execution of @main terminates with the output buffer at
  `refResult` of what the 22 argument buffers held at the start — the per-graph readout of the network (input layer, two
  rounds of normalized message passing each followed by a block, the one-column head) — and with the arguments unchanged.
-/
import proofs.«146749_j85624468013347_2_alg».proof.Proof.RefStages

noncomputable section

namespace Cert.ReferenceIdeal.RefFinal

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RefStages

variable {F : FTy → Type} [FloatOps F]

/-- The reference's output as a function of its 22 arguments: node features `a0`, the edges' sources `a1` and destinations
    `a2`, the nodes' graph ids `a3`, and the weights `a4` … `a21`. -/
def refResult
    (a0 : (⟨S1000000x64, .f32⟩ : BufTy).Contents (Elt F)) (a1 : (⟨S4000000, .i32⟩ : BufTy).Contents (Elt F)) (a2 : (⟨S4000000, .i32⟩ : BufTy).Contents (Elt F)) (a3 : (⟨S1000000, .i32⟩ : BufTy).Contents (Elt F))
    (a4 : (⟨S64x32, .f32⟩ : BufTy).Contents (Elt F)) (a5 : (⟨S32, .f32⟩ : BufTy).Contents (Elt F)) (a6 : (⟨S32, .f32⟩ : BufTy).Contents (Elt F)) (a7 : (⟨S32, .f32⟩ : BufTy).Contents (Elt F))
    (a8 : (⟨S32x32, .f32⟩ : BufTy).Contents (Elt F)) (a9 : (⟨S32, .f32⟩ : BufTy).Contents (Elt F)) (a10 : (⟨S32x32, .f32⟩ : BufTy).Contents (Elt F))
    (a11 : (⟨S32, .f32⟩ : BufTy).Contents (Elt F)) (a12 : (⟨S32, .f32⟩ : BufTy).Contents (Elt F)) (a13 : (⟨S32, .f32⟩ : BufTy).Contents (Elt F))
    (a14 : (⟨S32x32, .f32⟩ : BufTy).Contents (Elt F)) (a15 : (⟨S32, .f32⟩ : BufTy).Contents (Elt F)) (a16 : (⟨S32x32, .f32⟩ : BufTy).Contents (Elt F))
    (a17 : (⟨S32, .f32⟩ : BufTy).Contents (Elt F)) (a18 : (⟨S32, .f32⟩ : BufTy).Contents (Elt F)) (a19 : (⟨S32, .f32⟩ : BufTy).Contents (Elt F))
    (a20 : (⟨S32x1, .f32⟩ : BufTy).Contents (Elt F)) (a21 : (⟨S1, .f32⟩ : BufTy).Contents (Elt F)) :
    (⟨S1024x1, .f32⟩ : BufTy).Contents (Elt F) :=
  RefSpec.readout
    (RefSpec.blk2
      (RefSpec.msg
        (RefSpec.blk
          (RefSpec.msg (RefSpec.mlp0 a0 a4 a5 a6 a7) (RefSpec.norm a1) (RefSpec.norm a2) a1 a2)
          a8 a9 a10 a11 a12 a13)
        (RefSpec.norm a1) (RefSpec.norm a2) a1 a2)
      a14 a15 a16 a17 a18 a19 a20 a21)
    a3

/-- On every device, for any float values, from any memory with zero counters: every weakly fair execution of @main
    terminates with the output buffer at `refResult` of the arguments' initial contents and each argument unchanged. -/
theorem run_val (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v153)
          = refResult (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
              (m ((c.tc : Thread nD τ).loc main_arg15))
              (m ((c.tc : Thread nD τ).loc main_arg16))
              (m ((c.tc : Thread nD τ).loc main_arg17))
              (m ((c.tc : Thread nD τ).loc main_arg18))
              (m ((c.tc : Thread nD τ).loc main_arg19))
              (m ((c.tc : Thread nD τ).loc main_arg20))
              (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c =>
      ⟨(h c main_v153).trans (out_eq (launchContents m c)),
       (h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c)),
       (h c main_arg5).trans (arg5_eq (launchContents m c)),
       (h c main_arg6).trans (arg6_eq (launchContents m c)),
       (h c main_arg7).trans (arg7_eq (launchContents m c)),
       (h c main_arg8).trans (arg8_eq (launchContents m c)),
       (h c main_arg9).trans (arg9_eq (launchContents m c)),
       (h c main_arg10).trans (arg10_eq (launchContents m c)),
       (h c main_arg11).trans (arg11_eq (launchContents m c)),
       (h c main_arg12).trans (arg12_eq (launchContents m c)),
       (h c main_arg13).trans (arg13_eq (launchContents m c)),
       (h c main_arg14).trans (arg14_eq (launchContents m c)),
       (h c main_arg15).trans (arg15_eq (launchContents m c)),
       (h c main_arg16).trans (arg16_eq (launchContents m c)),
       (h c main_arg17).trans (arg17_eq (launchContents m c)),
       (h c main_arg18).trans (arg18_eq (launchContents m c)),
       (h c main_arg19).trans (arg19_eq (launchContents m c)),
       (h c main_arg20).trans (arg20_eq (launchContents m c)),
       (h c main_arg21).trans (arg21_eq (launchContents m c))⟩)
    (run_main m ρ)

/-- The same run, read at the arguments only: each ends at what it held at the start. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => (h c).2) (run_val m ρ)

end Cert.ReferenceIdeal.RefFinal

end
-- ==== Proof.RefIdx.lean ====
/-
  The reference's stages read at an index: row `r`, column `q` of each stage's array is the row network of `Math`
  applied to row `r` of the stage's operand — the host's matrix product is the sum over the shared coordinate, its
  float sum the initial zero plus the sum over the 32 columns, the broadcasts are read where they put their operand,
  and `1 · expm1` of the cleared argument is `exp − 1` where the argument is not positive.
-/
import proofs.«146749_j85624468013347_2_alg».proof.Proof.RefSpec
import proofs.«146749_j85624468013347_2_alg».proof.Proof.Math
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReferenceIdeal.RefIdx

open Idealize.ShloMosaic Idealize.ShloMosaic.ValueIdx Cert.ReferenceIdeal Cert.ReferenceIdeal.Gen Cert.ReferenceIdeal.RefSpec

/-- A feature vector laid along every row reads, at `(r, q)`, the vector at `q`. -/
theorem rows_apply (b : FVec Ideal S32 .f32) (r : Fin 1000000) (q : Fin 32) : rows (F := Ideal) b (ix2 r q) = b (ix1 q) := by
  unfold rows
  rw [broadcastInDim_apply _ _ _ (ix2 r q) (ix2 (0 : Fin 1) q) (fun a => by match a with | ⟨0, _⟩ => rfl | ⟨1, _⟩ => rfl)]
  exact broadcastInDim_apply _ _ _ (ix2 (0 : Fin 1) q) (ix1 q) (fun a => by match a with | ⟨0, _⟩ => rfl)

/-- A column laid along the 32 columns reads, at `(r, q)`, the column at `r`. -/
theorem cols_apply (c : FVec Ideal S1000000x1 .f32) (r : Fin 1000000) (q : Fin 32) :
    broadcastInDim S1000000x32 ![0, 1] bcast_S1000000x1_S1000000x32_0_1 c (ix2 r q) = c (ix2 r (0 : Fin 1)) :=
  broadcastInDim_apply _ _ _ (ix2 r q) (ix2 r (0 : Fin 1)) (fun a => by match a with | ⟨0, _⟩ => rfl | ⟨1, _⟩ => rfl)

/-- A vector over the rows as a column reads, at `(r, 0)`, the vector at `r`. -/
theorem col_apply (v : FVec Ideal S1000000 .f32) (r : Fin 1000000) :
    broadcastInDim S1000000x1 ![0] bcast_S1000000_S1000000x1_0 v (ix2 r (0 : Fin 1)) = v (ix1 r) :=
  broadcastInDim_apply _ _ _ (ix2 r (0 : Fin 1)) (ix1 r) (fun a => by match a with | ⟨0, _⟩ => rfl)

/-- The host's sum over the 32 columns, as a column, is at row `r` the sum of the row's entries. -/
theorem rowSum_apply (y : FVec Ideal S1000000x32 .f32) (r : Fin 1000000) :
    broadcastInDim S1000000x1 ![0] bcast_S1000000_S1000000x1_0
        (Host.reduceAdd y (constant (F := Ideal) S_ .f32 0x00000000#32) reducesTo_S1000000x32_S1000000_d1 h_S_) (ix2 r (0 : Fin 1))
      = ∑ k : Fin 32, y (ix2 r k) := by
  rw [col_apply, hostReduceAdd_apply, Ideal.hostReduceAdd_single reducesTo_S1000000x32_S1000000_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

theorem mm0_l0 (i : (⟨2, ![1000000, 32]⟩ : Shape).Idx) (q : dot_S1000000x64_S64x32_S1000000x32_1_0_0_1_n_n.contr.Idx) : (dot_S1000000x64_S64x32_S1000000x32_1_0_0_1_n_n.lhsIdx i q 0).val = (i 0).val := by
  unfold DotDims.lhsIdx
  rw [dif_neg (show ¬(0 : Fin S1000000x64.rank) ∈ dot_S1000000x64_S64x32_S1000000x32_1_0_0_1_n_n.lhsBatch by decide), dif_pos (show (0 : Fin S1000000x64.rank) ∈ dot_S1000000x64_S64x32_S1000000x32_1_0_0_1_n_n.lhsNonContracting by decide)]
  rfl
theorem mm0_l1 (i : (⟨2, ![1000000, 32]⟩ : Shape).Idx) (q : dot_S1000000x64_S64x32_S1000000x32_1_0_0_1_n_n.contr.Idx) : (dot_S1000000x64_S64x32_S1000000x32_1_0_0_1_n_n.lhsIdx i q 1).val = (q ⟨0, by decide⟩).val :=
  dot_S1000000x64_S64x32_S1000000x32_1_0_0_1_n_n.lhsIdx_val_of_single rfl i q
theorem mm0_r0 (i : (⟨2, ![1000000, 32]⟩ : Shape).Idx) (q : dot_S1000000x64_S64x32_S1000000x32_1_0_0_1_n_n.contr.Idx) : (dot_S1000000x64_S64x32_S1000000x32_1_0_0_1_n_n.rhsIdx i q 0).val = (q ⟨0, by decide⟩).val :=
  dot_S1000000x64_S64x32_S1000000x32_1_0_0_1_n_n.rhsIdx_val_of_single rfl i q
theorem mm0_r1 (i : (⟨2, ![1000000, 32]⟩ : Shape).Idx) (q : dot_S1000000x64_S64x32_S1000000x32_1_0_0_1_n_n.contr.Idx) : (dot_S1000000x64_S64x32_S1000000x32_1_0_0_1_n_n.rhsIdx i q 1).val = (i 1).val := by
  unfold DotDims.rhsIdx
  rw [dif_neg (show ¬(1 : Fin S64x32.rank) ∈ dot_S1000000x64_S64x32_S1000000x32_1_0_0_1_n_n.rhsBatch by decide), dif_pos (show (1 : Fin S64x32.rank) ∈ dot_S1000000x64_S64x32_S1000000x32_1_0_0_1_n_n.rhsNonContracting by decide)]
  rfl

/-- The contraction of row `p` of the left operand with column `q` of the right one, as a sum over the 64 shared
    coordinates. -/
theorem mm0_sum (x : (⟨2, ![1000000, 64]⟩ : Shape).Idx → EReal) (w : (⟨2, ![64, 32]⟩ : Shape).Idx → EReal) (p : Fin 1000000) (q : Fin 32) :
    (∑ k : dot_S1000000x64_S64x32_S1000000x32_1_0_0_1_n_n.contr.Idx, x (dot_S1000000x64_S64x32_S1000000x32_1_0_0_1_n_n.lhsIdx (ix2 p q) k) * w (dot_S1000000x64_S64x32_S1000000x32_1_0_0_1_n_n.rhsIdx (ix2 p q) k))
      = ∑ k : Fin 64, x (ix2 p k) * w (ix2 k q) := by
  rw [← Equiv.sum_comp (contrEquiv1 dot_S1000000x64_S64x32_S1000000x32_1_0_0_1_n_n 64 rfl rfl).symm]
  refine Finset.sum_congr rfl fun k _ => ?_
  have hk := contrEquiv1_symm_val dot_S1000000x64_S64x32_S1000000x32_1_0_0_1_n_n 64 rfl rfl k
  have el : dot_S1000000x64_S64x32_S1000000x32_1_0_0_1_n_n.lhsIdx (ix2 p q) ((contrEquiv1 dot_S1000000x64_S64x32_S1000000x32_1_0_0_1_n_n 64 rfl rfl).symm k) = ix2 p k := funext fun a => Fin.ext (by
    match a with
    | ⟨0, _⟩ => exact mm0_l0 _ _
    | ⟨1, _⟩ => exact (mm0_l1 _ _).trans hk)
  have er : dot_S1000000x64_S64x32_S1000000x32_1_0_0_1_n_n.rhsIdx (ix2 p q) ((contrEquiv1 dot_S1000000x64_S64x32_S1000000x32_1_0_0_1_n_n 64 rfl rfl).symm k) = ix2 k q := funext fun a => Fin.ext (by
    match a with
    | ⟨0, _⟩ => exact (mm0_r0 _ _).trans hk
    | ⟨1, _⟩ => exact mm0_r1 _ _)
  rw [el, er]

theorem mm1_l0 (i : (⟨2, ![1000000, 32]⟩ : Shape).Idx) (q : dot_S1000000x32_S32x32_S1000000x32_1_0_0_1_n_n.contr.Idx) : (dot_S1000000x32_S32x32_S1000000x32_1_0_0_1_n_n.lhsIdx i q 0).val = (i 0).val := by
  unfold DotDims.lhsIdx
  rw [dif_neg (show ¬(0 : Fin S1000000x32.rank) ∈ dot_S1000000x32_S32x32_S1000000x32_1_0_0_1_n_n.lhsBatch by decide), dif_pos (show (0 : Fin S1000000x32.rank) ∈ dot_S1000000x32_S32x32_S1000000x32_1_0_0_1_n_n.lhsNonContracting by decide)]
  rfl
theorem mm1_l1 (i : (⟨2, ![1000000, 32]⟩ : Shape).Idx) (q : dot_S1000000x32_S32x32_S1000000x32_1_0_0_1_n_n.contr.Idx) : (dot_S1000000x32_S32x32_S1000000x32_1_0_0_1_n_n.lhsIdx i q 1).val = (q ⟨0, by decide⟩).val :=
  dot_S1000000x32_S32x32_S1000000x32_1_0_0_1_n_n.lhsIdx_val_of_single rfl i q
theorem mm1_r0 (i : (⟨2, ![1000000, 32]⟩ : Shape).Idx) (q : dot_S1000000x32_S32x32_S1000000x32_1_0_0_1_n_n.contr.Idx) : (dot_S1000000x32_S32x32_S1000000x32_1_0_0_1_n_n.rhsIdx i q 0).val = (q ⟨0, by decide⟩).val :=
  dot_S1000000x32_S32x32_S1000000x32_1_0_0_1_n_n.rhsIdx_val_of_single rfl i q
theorem mm1_r1 (i : (⟨2, ![1000000, 32]⟩ : Shape).Idx) (q : dot_S1000000x32_S32x32_S1000000x32_1_0_0_1_n_n.contr.Idx) : (dot_S1000000x32_S32x32_S1000000x32_1_0_0_1_n_n.rhsIdx i q 1).val = (i 1).val := by
  unfold DotDims.rhsIdx
  rw [dif_neg (show ¬(1 : Fin S32x32.rank) ∈ dot_S1000000x32_S32x32_S1000000x32_1_0_0_1_n_n.rhsBatch by decide), dif_pos (show (1 : Fin S32x32.rank) ∈ dot_S1000000x32_S32x32_S1000000x32_1_0_0_1_n_n.rhsNonContracting by decide)]
  rfl

/-- The contraction of row `p` of the left operand with column `q` of the right one, as a sum over the 32 shared
    coordinates. -/
theorem mm1_sum (x : (⟨2, ![1000000, 32]⟩ : Shape).Idx → EReal) (w : (⟨2, ![32, 32]⟩ : Shape).Idx → EReal) (p : Fin 1000000) (q : Fin 32) :
    (∑ k : dot_S1000000x32_S32x32_S1000000x32_1_0_0_1_n_n.contr.Idx, x (dot_S1000000x32_S32x32_S1000000x32_1_0_0_1_n_n.lhsIdx (ix2 p q) k) * w (dot_S1000000x32_S32x32_S1000000x32_1_0_0_1_n_n.rhsIdx (ix2 p q) k))
      = ∑ k : Fin 32, x (ix2 p k) * w (ix2 k q) := by
  rw [← Equiv.sum_comp (contrEquiv1 dot_S1000000x32_S32x32_S1000000x32_1_0_0_1_n_n 32 rfl rfl).symm]
  refine Finset.sum_congr rfl fun k _ => ?_
  have hk := contrEquiv1_symm_val dot_S1000000x32_S32x32_S1000000x32_1_0_0_1_n_n 32 rfl rfl k
  have el : dot_S1000000x32_S32x32_S1000000x32_1_0_0_1_n_n.lhsIdx (ix2 p q) ((contrEquiv1 dot_S1000000x32_S32x32_S1000000x32_1_0_0_1_n_n 32 rfl rfl).symm k) = ix2 p k := funext fun a => Fin.ext (by
    match a with
    | ⟨0, _⟩ => exact mm1_l0 _ _
    | ⟨1, _⟩ => exact (mm1_l1 _ _).trans hk)
  have er : dot_S1000000x32_S32x32_S1000000x32_1_0_0_1_n_n.rhsIdx (ix2 p q) ((contrEquiv1 dot_S1000000x32_S32x32_S1000000x32_1_0_0_1_n_n 32 rfl rfl).symm k) = ix2 k q := funext fun a => Fin.ext (by
    match a with
    | ⟨0, _⟩ => exact (mm1_r0 _ _).trans hk
    | ⟨1, _⟩ => exact mm1_r1 _ _)
  rw [el, er]

theorem mm2_l0 (i : (⟨2, ![1000000, 1]⟩ : Shape).Idx) (q : dot_S1000000x32_S32x1_S1000000x1_1_0_0_1_n_n.contr.Idx) : (dot_S1000000x32_S32x1_S1000000x1_1_0_0_1_n_n.lhsIdx i q 0).val = (i 0).val := by
  unfold DotDims.lhsIdx
  rw [dif_neg (show ¬(0 : Fin S1000000x32.rank) ∈ dot_S1000000x32_S32x1_S1000000x1_1_0_0_1_n_n.lhsBatch by decide), dif_pos (show (0 : Fin S1000000x32.rank) ∈ dot_S1000000x32_S32x1_S1000000x1_1_0_0_1_n_n.lhsNonContracting by decide)]
  rfl
theorem mm2_l1 (i : (⟨2, ![1000000, 1]⟩ : Shape).Idx) (q : dot_S1000000x32_S32x1_S1000000x1_1_0_0_1_n_n.contr.Idx) : (dot_S1000000x32_S32x1_S1000000x1_1_0_0_1_n_n.lhsIdx i q 1).val = (q ⟨0, by decide⟩).val :=
  dot_S1000000x32_S32x1_S1000000x1_1_0_0_1_n_n.lhsIdx_val_of_single rfl i q
theorem mm2_r0 (i : (⟨2, ![1000000, 1]⟩ : Shape).Idx) (q : dot_S1000000x32_S32x1_S1000000x1_1_0_0_1_n_n.contr.Idx) : (dot_S1000000x32_S32x1_S1000000x1_1_0_0_1_n_n.rhsIdx i q 0).val = (q ⟨0, by decide⟩).val :=
  dot_S1000000x32_S32x1_S1000000x1_1_0_0_1_n_n.rhsIdx_val_of_single rfl i q
theorem mm2_r1 (i : (⟨2, ![1000000, 1]⟩ : Shape).Idx) (q : dot_S1000000x32_S32x1_S1000000x1_1_0_0_1_n_n.contr.Idx) : (dot_S1000000x32_S32x1_S1000000x1_1_0_0_1_n_n.rhsIdx i q 1).val = (i 1).val := by
  unfold DotDims.rhsIdx
  rw [dif_neg (show ¬(1 : Fin S32x1.rank) ∈ dot_S1000000x32_S32x1_S1000000x1_1_0_0_1_n_n.rhsBatch by decide), dif_pos (show (1 : Fin S32x1.rank) ∈ dot_S1000000x32_S32x1_S1000000x1_1_0_0_1_n_n.rhsNonContracting by decide)]
  rfl

/-- The contraction of row `p` of the left operand with column `q` of the right one, as a sum over the 32 shared
    coordinates. -/
theorem mm2_sum (x : (⟨2, ![1000000, 32]⟩ : Shape).Idx → EReal) (w : (⟨2, ![32, 1]⟩ : Shape).Idx → EReal) (p : Fin 1000000) (q : Fin 1) :
    (∑ k : dot_S1000000x32_S32x1_S1000000x1_1_0_0_1_n_n.contr.Idx, x (dot_S1000000x32_S32x1_S1000000x1_1_0_0_1_n_n.lhsIdx (ix2 p q) k) * w (dot_S1000000x32_S32x1_S1000000x1_1_0_0_1_n_n.rhsIdx (ix2 p q) k))
      = ∑ k : Fin 32, x (ix2 p k) * w (ix2 k q) := by
  rw [← Equiv.sum_comp (contrEquiv1 dot_S1000000x32_S32x1_S1000000x1_1_0_0_1_n_n 32 rfl rfl).symm]
  refine Finset.sum_congr rfl fun k _ => ?_
  have hk := contrEquiv1_symm_val dot_S1000000x32_S32x1_S1000000x1_1_0_0_1_n_n 32 rfl rfl k
  have el : dot_S1000000x32_S32x1_S1000000x1_1_0_0_1_n_n.lhsIdx (ix2 p q) ((contrEquiv1 dot_S1000000x32_S32x1_S1000000x1_1_0_0_1_n_n 32 rfl rfl).symm k) = ix2 p k := funext fun a => Fin.ext (by
    match a with
    | ⟨0, _⟩ => exact mm2_l0 _ _
    | ⟨1, _⟩ => exact (mm2_l1 _ _).trans hk)
  have er : dot_S1000000x32_S32x1_S1000000x1_1_0_0_1_n_n.rhsIdx (ix2 p q) ((contrEquiv1 dot_S1000000x32_S32x1_S1000000x1_1_0_0_1_n_n 32 rfl rfl).symm k) = ix2 k q := funext fun a => Fin.ext (by
    match a with
    | ⟨0, _⟩ => exact (mm2_r0 _ _).trans hk
    | ⟨1, _⟩ => exact mm2_r1 _ _)
  rw [el, er]

/-- The host's reciprocal square root is taken entry by entry. -/
theorem hrsqrt_apply {s : Shape} (v : FVec Ideal s .f32) (i : s.Idx) : Host.rsqrt v i = Ideal.rsqrt (v i) := rfl

/-- The input dense layer at `(r, q)`. -/
theorem dense0_apply (x : FVec Ideal S1000000x64 .f32) (w : FVec Ideal S64x32 .f32) (b : FVec Ideal S32 .f32) (r : Fin 1000000) (q : Fin 32) :
    dense0 (F := Ideal) x w b (ix2 r q) = Math.dense (fun k => x (ix2 r k)) (fun k j => w (ix2 k j)) (fun j => b (ix1 j)) q := by
  unfold dense0 Math.dense
  rw [addf_apply, rows_apply]
  refine congrArg (· + _) ?_
  refine (Ideal.dotGeneral_apply _ none _ _ _ (ix2 r q)).trans ?_
  exact mm0_sum _ _ r q

/-- A dense layer at `(r, q)`. -/
theorem dense_apply (x : FVec Ideal S1000000x32 .f32) (w : FVec Ideal S32x32 .f32) (b : FVec Ideal S32 .f32) (r : Fin 1000000) (q : Fin 32) :
    dense (F := Ideal) x w b (ix2 r q) = Math.dense (fun k => x (ix2 r k)) (fun k j => w (ix2 k j)) (fun j => b (ix1 j)) q := by
  unfold dense Math.dense
  rw [addf_apply, rows_apply]
  refine congrArg (· + _) ?_
  refine (Ideal.dotGeneral_apply _ none _ _ _ (ix2 r q)).trans ?_
  exact mm1_sum _ _ r q

/-- The head at row `r`. -/
theorem denseOut_apply (x : FVec Ideal S1000000x32 .f32) (w : FVec Ideal S32x1 .f32) (b : FVec Ideal S1 .f32) (r : Fin 1000000) :
    denseOut (F := Ideal) x w b (ix2 r (0 : Fin 1)) = Math.dense (fun k => x (ix2 r k)) (fun k j => w (ix2 k j)) (fun j => b (ix1 j)) (0 : Fin 1) := by
  unfold denseOut Math.dense
  rw [addf_apply,
    broadcastInDim_apply _ _ _ (ix2 r (0 : Fin 1)) (ix2 (0 : Fin 1) (0 : Fin 1)) (fun a => by match a with | ⟨0, _⟩ => rfl | ⟨1, _⟩ => rfl),
    broadcastInDim_apply _ _ _ (ix2 (0 : Fin 1) (0 : Fin 1)) (ix1 (0 : Fin 1)) (fun a => by match a with | ⟨0, _⟩ => rfl)]
  refine congrArg (· + _) ?_
  refine (Ideal.dotGeneral_apply _ none _ _ _ (ix2 r (0 : Fin 1))).trans ?_
  exact mm2_sum _ _ r 0

/-- The mean column at row `r`. -/
theorem rowMean_apply (y : FVec Ideal S1000000x32 .f32) (r : Fin 1000000) :
    rowMean (F := Ideal) y (ix2 r (0 : Fin 1)) = Math.mean (fun k => y (ix2 r k)) := by
  unfold rowMean Math.mean
  rw [hostDivf_apply, rowSum_apply, broadcastInDim_scalar_apply, constant_apply]

/-- Layer normalization at `(r, q)`. -/
theorem ln_apply (y : FVec Ideal S1000000x32 .f32) (g be : FVec Ideal S32 .f32) (r : Fin 1000000) (q : Fin 32) :
    ln (F := Ideal) y g be (ix2 r q) = Math.lnorm (fun k => y (ix2 r k)) (fun j => g (ix1 j)) (fun j => be (ix1 j)) q := by
  unfold ln Math.lnorm
  have hd : ∀ k : Fin 32,
      mulf (subf y (broadcastInDim S1000000x32 ![0, 1] bcast_S1000000x1_S1000000x32_0_1 (rowMean (F := Ideal) y)))
          (subf y (broadcastInDim S1000000x32 ![0, 1] bcast_S1000000x1_S1000000x32_0_1 (rowMean (F := Ideal) y))) (ix2 r k)
        = (y (ix2 r k) - Math.mean fun k => y (ix2 r k)) * (y (ix2 r k) - Math.mean fun k => y (ix2 r k)) := by
    intro k
    rw [mulf_apply, subf_apply, cols_apply, rowMean_apply]
  rw [addf_apply, mulf_apply, mulf_apply, subf_apply, rows_apply, rows_apply, cols_apply, cols_apply, rowMean_apply,
    hrsqrt_apply, addf_apply, rowMean_apply, broadcastInDim_scalar_apply, constant_apply]
  rw [show (fun k : Fin 32 => mulf (subf y (broadcastInDim S1000000x32 ![0, 1] bcast_S1000000x1_S1000000x32_0_1 (rowMean (F := Ideal) y)))
          (subf y (broadcastInDim S1000000x32 ![0, 1] bcast_S1000000x1_S1000000x32_0_1 (rowMean (F := Ideal) y))) (ix2 r k))
        = fun k => (y (ix2 r k) - Math.mean fun k => y (ix2 r k)) * (y (ix2 r k) - Math.mean fun k => y (ix2 r k)) from funext hd]

/-- On one entry: where `z` is not positive, `1 · expm1 z` is `exp z − 1`; where it is, both forms give `z`. -/
theorem elu_entry (z : EReal) :
    Scalar.select (FloatOps.cmpf (F := Ideal) (φ := .f32) .ogt z (Ideal.ofBits .f32 0x00000000#32)) z
        (Ideal.ofBits .f32 0x3F800000#32 * FloatOps.hostUnary (F := Ideal) (φ := .f32) .expm1
          (Scalar.select (FloatOps.cmpf (F := Ideal) (φ := .f32) .ogt z (Ideal.ofBits .f32 0x00000000#32)) (Ideal.ofBits .f32 0x00000000#32) z))
      = Math.elu z := by
  unfold Math.elu
  by_cases h : FloatOps.cmpf (F := Ideal) (φ := .f32) .ogt z (Ideal.ofBits .f32 0x00000000#32) = 1#1
  · rw [h, select_one, select_one]
  · rw [eq_zero_of_ne_one h, select_zero, select_zero, select_zero, Ideal.ofBits_one_f32, one_mul, Ideal.hostUnary_expm1_def]

/-- ELU, entry by entry. -/
theorem elu_apply (z : FVec Ideal S1000000x32 .f32) (i : S1000000x32.Idx) : elu (F := Ideal) z i = Math.elu (z i) := by
  unfold elu
  rw [select_apply, cmpf_apply, mulf_apply, broadcastInDim_scalar_apply, broadcastInDim_scalar_apply, constant_apply, constant_apply]
  exact elu_entry (z i)

/-- ELU of a column, entry by entry. -/
theorem elu1_apply (z : FVec Ideal S1000000x1 .f32) (i : S1000000x1.Idx) : elu1 (F := Ideal) z i = Math.elu (z i) := by
  unfold elu1
  rw [select_apply, cmpf_apply, mulf_apply, broadcastInDim_scalar_apply, broadcastInDim_scalar_apply, constant_apply, constant_apply]
  exact elu_entry (z i)

/-- The input network at `(r, q)`. -/
theorem mlp0_apply (x : FVec Ideal S1000000x64 .f32) (w : FVec Ideal S64x32 .f32) (b g be : FVec Ideal S32 .f32) (r : Fin 1000000) (q : Fin 32) :
    mlp0 (F := Ideal) x w b g be (ix2 r q)
      = Math.mlp0 (fun k => x (ix2 r k)) (fun k j => w (ix2 k j)) (fun j => b (ix1 j)) (fun j => g (ix1 j)) (fun j => be (ix1 j)) q := by
  unfold mlp0 Math.mlp0
  rw [elu_apply, ln_apply]
  simp only [dense0_apply]

/-- A block at `(r, q)`. -/
theorem blk_apply (x : FVec Ideal S1000000x32 .f32) (wc : FVec Ideal S32x32 .f32) (bc : FVec Ideal S32 .f32) (w : FVec Ideal S32x32 .f32)
    (b g be : FVec Ideal S32 .f32) (r : Fin 1000000) (q : Fin 32) :
    blk (F := Ideal) x wc bc w b g be (ix2 r q)
      = Math.blk (fun k => x (ix2 r k)) (fun k j => wc (ix2 k j)) (fun j => bc (ix1 j)) (fun k j => w (ix2 k j))
          (fun j => b (ix1 j)) (fun j => g (ix1 j)) (fun j => be (ix1 j)) q := by
  unfold blk Math.blk
  rw [elu_apply, ln_apply]
  simp only [dense_apply, elu_apply]

/-- The second block and the head at row `r`. -/
theorem blk2_apply (x : FVec Ideal S1000000x32 .f32) (wc : FVec Ideal S32x32 .f32) (bc : FVec Ideal S32 .f32) (w : FVec Ideal S32x32 .f32)
    (b g be : FVec Ideal S32 .f32) (wout : FVec Ideal S32x1 .f32) (bout : FVec Ideal S1 .f32) (r : Fin 1000000) :
    blk2 (F := Ideal) x wc bc w b g be wout bout (ix2 r (0 : Fin 1))
      = Math.blk2 (fun k => x (ix2 r k)) (fun k j => wc (ix2 k j)) (fun j => bc (ix1 j)) (fun k j => w (ix2 k j))
          (fun j => b (ix1 j)) (fun j => g (ix1 j)) (fun j => be (ix1 j)) (fun k j => wout (ix2 k j)) (fun j => bout (ix1 j)) := by
  unfold blk2 Math.blk2
  rw [elu1_apply, denseOut_apply]
  simp only [blk_apply]

end Cert.ReferenceIdeal.RefIdx

end
-- ==== Proof.Bridge.lean ====
/-
  The host stages the two programs share are the same functions: the reference's degree normalizer, round of message
  passing and per-graph readout are, term for term, the kernel's program's (the two texts differ in the namespace their
  shapes and dimension records are declared in). And a feature vector re-laid as a one-row array reads, at column `j`,
  the vector at `j`.
-/
import proofs.«146749_j85624468013347_2_alg».proof.Proof.Spec
import proofs.«146749_j85624468013347_2_alg».proof.Proof.RefSpec
import Idealize.ShloMosaic.Lib.ValueLayout

noncomputable section

namespace Cert.Bridge

open Idealize.ShloMosaic Idealize.ShloMosaic.ValueIdx

-- the scatter-add, the gather and the reciprocal square root stay folded: the two sides apply them to the same
-- arguments, and no equation here looks inside them
attribute [local irreducible] Host.scatterAdd Host.gather Host.rsqrt

section Stages
variable {F : FTy → Type} [FloatOps F]

/-- The degree normalizer is the same function in both programs. -/
theorem norm_eq (e : (⟨Cert.KernelIdeal.S4000000, .i32⟩ : BufTy).Contents (Elt F)) :
    Cert.ReferenceIdeal.RefSpec.norm (F := F) e = Cert.KernelIdeal.Spec.norm e := rfl

/-- One round of message passing is the same function in both programs. -/
theorem msg_eq (h : (⟨Cert.KernelIdeal.S1000000x32, .f32⟩ : BufTy).Contents (Elt F))
    (ns nd : (⟨Cert.KernelIdeal.S1000000x1, .f32⟩ : BufTy).Contents (Elt F))
    (src dst : (⟨Cert.KernelIdeal.S4000000, .i32⟩ : BufTy).Contents (Elt F)) :
    Cert.ReferenceIdeal.RefSpec.msg (F := F) h ns nd src dst = Cert.KernelIdeal.Spec.msg h ns nd src dst := rfl

/-- The per-graph readout is the same function in both programs. -/
theorem readout_eq (o : (⟨Cert.KernelIdeal.S1000000x1, .f32⟩ : BufTy).Contents (Elt F))
    (gid : (⟨Cert.KernelIdeal.S1000000, .i32⟩ : BufTy).Contents (Elt F)) :
    Cert.ReferenceIdeal.RefSpec.readout (F := F) o gid = Cert.KernelIdeal.Spec.readout o gid := rfl

end Stages

/-- A vector of 32 features as a one-row array reads, at column `j`, the vector at `j`. -/
theorem row_apply (b : FVec Ideal Cert.KernelIdeal.S32 .f32) (j : Fin 32) :
    Cert.KernelIdeal.Spec.row (F := Ideal) b (ix2 (0 : Fin 1) j) = b (ix1 j) :=
  shapeCast_a_1a_apply b _ 0 j

/-- A one-entry vector as a 1 × 1 array reads the vector's entry. -/
theorem row1_apply (b : FVec Ideal Cert.KernelIdeal.S1 .f32) (j : Fin 1) :
    Cert.KernelIdeal.Spec.row1 (F := Ideal) b (ix2 (0 : Fin 1) j) = b (ix1 j) :=
  shapeCast_a_1a_apply b _ 0 j

end Cert.Bridge

end
-- ==== Proof.GEq.lean ====
/-
  The kernels' whole-array results are the reference's stages: at row `r` both are the same row network of row `r` of
  the operand, the kernels taking each bias and scale vector as a one-row array whose entry `j` is the vector's.
-/
import proofs.«146749_j85624468013347_2_alg».proof.Proof.KBlocks
import proofs.«146749_j85624468013347_2_alg».proof.Proof.RefIdx
import proofs.«146749_j85624468013347_2_alg».proof.Proof.Bridge

noncomputable section

namespace Cert.GEq

open Idealize.ShloMosaic Idealize.ShloMosaic.ValueIdx
open Cert.KernelIdeal Cert.KernelIdeal.Spec Cert.KernelIdeal.KBlocks

/-- The input kernel's result array is the reference's input network of the same arguments. -/
theorem G0_eq (x : FVec Ideal S1000000x64 .f32) (w : FVec Ideal S64x32 .f32) (b g be : FVec Ideal S32 .f32) :
    G0 x w (row (F := Ideal) b) (row (F := Ideal) g) (row (F := Ideal) be)
      = Cert.ReferenceIdeal.RefSpec.mlp0 (F := Ideal) x w b g be := by
  funext i
  obtain ⟨r, q, rfl⟩ : ∃ (r : Fin 1000000) (q : Fin 32), i = ix2 r q := ⟨i 0, i 1, eq_ix2 i⟩
  rw [Cert.ReferenceIdeal.RefIdx.mlp0_apply]
  unfold G0
  simp only [Cert.Bridge.row_apply]

/-- The block kernel's result array is the reference's block of the same arguments. -/
theorem G1_eq (x : FVec Ideal S1000000x32 .f32) (wc : FVec Ideal S32x32 .f32) (bc : FVec Ideal S32 .f32)
    (w : FVec Ideal S32x32 .f32) (b g be : FVec Ideal S32 .f32) :
    G1 x wc (row (F := Ideal) bc) w (row (F := Ideal) b) (row (F := Ideal) g) (row (F := Ideal) be)
      = Cert.ReferenceIdeal.RefSpec.blk (F := Ideal) x wc bc w b g be := by
  funext i
  obtain ⟨r, q, rfl⟩ : ∃ (r : Fin 1000000) (q : Fin 32), i = ix2 r q := ⟨i 0, i 1, eq_ix2 i⟩
  rw [Cert.ReferenceIdeal.RefIdx.blk_apply]
  unfold G1
  simp only [Cert.Bridge.row_apply]

/-- The last kernel's result array is the reference's second block and head of the same arguments. -/
theorem G2_eq (x : FVec Ideal S1000000x32 .f32) (wc : FVec Ideal S32x32 .f32) (bc : FVec Ideal S32 .f32)
    (w : FVec Ideal S32x32 .f32) (b g be : FVec Ideal S32 .f32) (wout : FVec Ideal S32x1 .f32) (bout : FVec Ideal S1 .f32) :
    G2 x wc (row (F := Ideal) bc) w (row (F := Ideal) b) (row (F := Ideal) g) (row (F := Ideal) be) wout (row1 (F := Ideal) bout)
      = Cert.ReferenceIdeal.RefSpec.blk2 (F := Ideal) x wc bc w b g be wout bout := by
  funext i
  obtain ⟨r, q, rfl⟩ : ∃ (r : Fin 1000000) (q : Fin 1), i = ix2 r q := ⟨i 0, i 1, eq_ix2 i⟩
  obtain rfl : q = 0 := Subsingleton.elim _ _
  rw [Cert.ReferenceIdeal.RefIdx.blk2_apply]
  unfold G2
  simp only [Cert.Bridge.row_apply, Cert.Bridge.row1_apply]

end Cert.GEq

end
-- ==== Proof.lean ====
/-
  The certificate of a graph network of a million nodes against its jnp reference, at the ideal values.

  Both programs compute, per graph, the sum over its nodes of a three-stage node network interleaved with two rounds of
  message passing over the edge list. The kernel's program runs the three node stages as three pallas_calls over
  blocks of 20000 rows (a matrix product onto a zero accumulator in place of the host's dot_general, lane sums in place
  of the host's float sums, `exp z − 1` in place of `1 · expm1 z`, bias and scale vectors staged as one-row arrays)
  and everything else — the degree normalizers, the gathers and scatter-adds of message passing, the readout — as the
  very same host operations the reference applies. So the proof has three parts. (1) Each kernel's result array is,
  row by row, the row network of `Math` of the same row of its operand (the kernel bodies read at an index, then
  block by block over the 50 grid points); the reference's stages are the same row networks (its host operations read
  at an index). No law of real arithmetic is used beyond `0 + x = x` and `1 · x = x`, so no input needs to be finite.
  (2) Both programs' runs end with the result buffer at the composition of these stages with the shared host stages,
  which are never opened. (3) The frames: the kernel programs' from their launch and body runs, the reference's from
  its run.
-/
import proofs.«146749_j85624468013347_2_alg».proof.Defs
import proofs.«146749_j85624468013347_2_alg».proof.Proof.Gen.Kernel
import proofs.«146749_j85624468013347_2_alg».proof.Proof.Gen.Kernel.Skeleton
import proofs.«146749_j85624468013347_2_alg».proof.Proof.Gen.Kernel.Launch
import proofs.«146749_j85624468013347_2_alg».proof.Proof.Gen.Kernel.Points
import proofs.«146749_j85624468013347_2_alg».proof.Proof.Gen.Kernel.Frame
import proofs.«146749_j85624468013347_2_alg».proof.Proof.Gen.KernelIdeal
import proofs.«146749_j85624468013347_2_alg».proof.Proof.Gen.KernelIdeal.Skeleton
import proofs.«146749_j85624468013347_2_alg».proof.Proof.Gen.KernelIdeal.Launch
import proofs.«146749_j85624468013347_2_alg».proof.Proof.Gen.KernelIdeal.Points
import proofs.«146749_j85624468013347_2_alg».proof.Proof.Gen.KernelIdeal.Frame
import proofs.«146749_j85624468013347_2_alg».proof.Proof.Gen.ReferenceIdeal
import proofs.«146749_j85624468013347_2_alg».proof.Proof.Gen.Pre_finite_inputs
import proofs.«146749_j85624468013347_2_alg».proof.Proof.KFinal
import proofs.«146749_j85624468013347_2_alg».proof.Proof.RefFinal
import proofs.«146749_j85624468013347_2_alg».proof.Proof.GEq
import Idealize.ShloMosaic.Adequacy
import Idealize.ShloMosaic.Init

noncomputable section

namespace Cert.Proof

open Idealize.ShloMosaic Idealize.SL.Sem Cert.Kernel

/-- The two programs' results are one function of the 22 argument arrays: the kernels' arrays are the reference's
    stages (`GEq`), and the shared host stages are the same functions in both vocabularies (`Bridge`). -/
theorem result_eq (a0 : (⟨Cert.KernelIdeal.S1000000x64, .f32⟩ : BufTy).Contents (Elt Ideal))
    (a1 a2 : (⟨Cert.KernelIdeal.S4000000, .i32⟩ : BufTy).Contents (Elt Ideal))
    (a3 : (⟨Cert.KernelIdeal.S1000000, .i32⟩ : BufTy).Contents (Elt Ideal))
    (a4 : (⟨Cert.KernelIdeal.S64x32, .f32⟩ : BufTy).Contents (Elt Ideal))
    (a5 a6 a7 : (⟨Cert.KernelIdeal.S32, .f32⟩ : BufTy).Contents (Elt Ideal))
    (a8 : (⟨Cert.KernelIdeal.S32x32, .f32⟩ : BufTy).Contents (Elt Ideal))
    (a9 : (⟨Cert.KernelIdeal.S32, .f32⟩ : BufTy).Contents (Elt Ideal))
    (a10 : (⟨Cert.KernelIdeal.S32x32, .f32⟩ : BufTy).Contents (Elt Ideal))
    (a11 a12 a13 : (⟨Cert.KernelIdeal.S32, .f32⟩ : BufTy).Contents (Elt Ideal))
    (a14 : (⟨Cert.KernelIdeal.S32x32, .f32⟩ : BufTy).Contents (Elt Ideal))
    (a15 : (⟨Cert.KernelIdeal.S32, .f32⟩ : BufTy).Contents (Elt Ideal))
    (a16 : (⟨Cert.KernelIdeal.S32x32, .f32⟩ : BufTy).Contents (Elt Ideal))
    (a17 a18 a19 : (⟨Cert.KernelIdeal.S32, .f32⟩ : BufTy).Contents (Elt Ideal))
    (a20 : (⟨Cert.KernelIdeal.S32x1, .f32⟩ : BufTy).Contents (Elt Ideal))
    (a21 : (⟨Cert.KernelIdeal.S1, .f32⟩ : BufTy).Contents (Elt Ideal)) :
    Cert.KernelIdeal.KFinal.kResult a0 a1 a2 a3 a4 a5 a6 a7 a8 a9 a10 a11 a12 a13 a14 a15 a16 a17 a18 a19 a20 a21 = Cert.ReferenceIdeal.RefFinal.refResult (F := Ideal) a0 a1 a2 a3 a4 a5 a6 a7 a8 a9 a10 a11 a12 a13 a14 a15 a16 a17 a18 a19 a20 a21 := by
  unfold Cert.KernelIdeal.KFinal.kResult Cert.ReferenceIdeal.RefFinal.refResult
  rw [Cert.GEq.G0_eq, Cert.GEq.G1_eq, Cert.GEq.G2_eq]
  simp only [Cert.Bridge.norm_eq, Cert.Bridge.msg_eq, Cert.Bridge.readout_eq]

/-- The reference's result is a function of the 22 argument arrays. -/
theorem refResult_congr {a0 b0 : (⟨Cert.ReferenceIdeal.S1000000x64, .f32⟩ : BufTy).Contents (Elt Ideal)}
    {a1 b1 : (⟨Cert.ReferenceIdeal.S4000000, .i32⟩ : BufTy).Contents (Elt Ideal)}
    {a2 b2 : (⟨Cert.ReferenceIdeal.S4000000, .i32⟩ : BufTy).Contents (Elt Ideal)}
    {a3 b3 : (⟨Cert.ReferenceIdeal.S1000000, .i32⟩ : BufTy).Contents (Elt Ideal)}
    {a4 b4 : (⟨Cert.ReferenceIdeal.S64x32, .f32⟩ : BufTy).Contents (Elt Ideal)}
    {a5 b5 : (⟨Cert.ReferenceIdeal.S32, .f32⟩ : BufTy).Contents (Elt Ideal)}
    {a6 b6 : (⟨Cert.ReferenceIdeal.S32, .f32⟩ : BufTy).Contents (Elt Ideal)}
    {a7 b7 : (⟨Cert.ReferenceIdeal.S32, .f32⟩ : BufTy).Contents (Elt Ideal)}
    {a8 b8 : (⟨Cert.ReferenceIdeal.S32x32, .f32⟩ : BufTy).Contents (Elt Ideal)}
    {a9 b9 : (⟨Cert.ReferenceIdeal.S32, .f32⟩ : BufTy).Contents (Elt Ideal)}
    {a10 b10 : (⟨Cert.ReferenceIdeal.S32x32, .f32⟩ : BufTy).Contents (Elt Ideal)}
    {a11 b11 : (⟨Cert.ReferenceIdeal.S32, .f32⟩ : BufTy).Contents (Elt Ideal)}
    {a12 b12 : (⟨Cert.ReferenceIdeal.S32, .f32⟩ : BufTy).Contents (Elt Ideal)}
    {a13 b13 : (⟨Cert.ReferenceIdeal.S32, .f32⟩ : BufTy).Contents (Elt Ideal)}
    {a14 b14 : (⟨Cert.ReferenceIdeal.S32x32, .f32⟩ : BufTy).Contents (Elt Ideal)}
    {a15 b15 : (⟨Cert.ReferenceIdeal.S32, .f32⟩ : BufTy).Contents (Elt Ideal)}
    {a16 b16 : (⟨Cert.ReferenceIdeal.S32x32, .f32⟩ : BufTy).Contents (Elt Ideal)}
    {a17 b17 : (⟨Cert.ReferenceIdeal.S32, .f32⟩ : BufTy).Contents (Elt Ideal)}
    {a18 b18 : (⟨Cert.ReferenceIdeal.S32, .f32⟩ : BufTy).Contents (Elt Ideal)}
    {a19 b19 : (⟨Cert.ReferenceIdeal.S32, .f32⟩ : BufTy).Contents (Elt Ideal)}
    {a20 b20 : (⟨Cert.ReferenceIdeal.S32x1, .f32⟩ : BufTy).Contents (Elt Ideal)}
    {a21 b21 : (⟨Cert.ReferenceIdeal.S1, .f32⟩ : BufTy).Contents (Elt Ideal)}
    (e0 : a0 = b0) (e1 : a1 = b1) (e2 : a2 = b2) (e3 : a3 = b3) (e4 : a4 = b4) (e5 : a5 = b5) (e6 : a6 = b6) (e7 : a7 = b7) (e8 : a8 = b8) (e9 : a9 = b9) (e10 : a10 = b10) (e11 : a11 = b11) (e12 : a12 = b12) (e13 : a13 = b13) (e14 : a14 = b14) (e15 : a15 = b15) (e16 : a16 = b16) (e17 : a17 = b17) (e18 : a18 = b18) (e19 : a19 = b19) (e20 : a20 = b20) (e21 : a21 = b21) :
    Cert.ReferenceIdeal.RefFinal.refResult (F := Ideal) a0 a1 a2 a3 a4 a5 a6 a7 a8 a9 a10 a11 a12 a13 a14 a15 a16 a17 a18 a19 a20 a21
      = Cert.ReferenceIdeal.RefFinal.refResult (F := Ideal) b0 b1 b2 b3 b4 b5 b6 b7 b8 b9 b10 b11 b12 b13 b14 b15 b16 b17 b18 b19 b20 b21 := by
  subst e0 e1 e2 e3 e4 e5 e6 e7 e8 e9 e10 e11 e12 e13 e14 e15 e16 e17 e18 e19 e20 e21
  rfl

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- And the reference: its run with the result dropped. -/
theorem frame_ri : Cert.frame_ReferenceIdeal := fun m ρ _ => Cert.ReferenceIdeal.RefFinal.frame m ρ

/-- From memories agreeing on the arguments both programs end with the result buffer at the same function of them. -/
theorem algebraic : Cert.algebraic_KernelIdeal_ReferenceIdeal := by
  intro m ρ m' ρ' _ hagree
  refine ⟨fun c => Cert.KernelIdeal.KFinal.kResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)),
    Cert.KernelIdeal.KFinal.run_val m ρ, ?_⟩
  refine (θ_run Cert.ReferenceIdeal.defs _ _).mono (fun r h c => ⟨(h c).1.trans ?_, (h c).2⟩)
    (Cert.ReferenceIdeal.RefFinal.run_val (F := Ideal) m' ρ')
  obtain ⟨h0, h1, h2, h3, h4, h5, h6, h7, h8, h9, h10, h11, h12, h13, h14, h15, h16, h17, h18, h19, h20, h21⟩ := hagree c
  exact (refResult_congr h0 h1 h2 h3 h4 h5 h6 h7 h8 h9 h10 h11 h12 h13 h14 h15 h16 h17 h18 h19 h20 h21).trans (result_eq _ _ _ _ _ _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
